-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x115200x3 : Shape := ⟨3, ![8, 115200, 3]⟩
abbrev S_ : Shape := ⟨0, ![]⟩

class Facts : Prop where
  bcast_S_S8x115200x3 : S_.BroadcastsInDim S8x115200x3 (![] : Fin 0 → Fin S8x115200x3.rank)
  reducesTo_S8x115200x3_S_d0_1_2 : S8x115200x3.ReducesTo [0, 1, 2] S_
  h_S_ : 0 < S_.numel

variable [Facts]

def fn {F : FTy → Type} [FloatOps F] (main_arg0 : FVec F S8x115200x3 .f32) (main_arg1 : FVec F S8x115200x3 .f32) : IVec S_ 1 :=
  let main_v0 : FVec F S8x115200x3 .f32 := Host.absf main_arg0
  let main_cst : FVec F S_ .f32 := constant S_ .f32 0x7F800000#32
  let main_v1 : FVec F S8x115200x3 .f32 := broadcastInDim S8x115200x3 ![] bcast_S_S8x115200x3 main_cst
  let main_v2 : IVec S8x115200x3 1 := cmpf .olt main_v0 main_v1
  let main_c : IVec S_ 1 := constantI S_ 1 1#1
  let main_v3 : IVec S_ 1 := (fun x v => Host.reduce IntOp.andi x v reducesTo_S8x115200x3_S_d0_1_2 h_S_) main_v2 main_c
  let main_v4 : FVec F S8x115200x3 .f32 := Host.absf main_arg1
  let main_cst_0 : FVec F S_ .f32 := constant S_ .f32 0x7F800000#32
  let main_v5 : FVec F S8x115200x3 .f32 := broadcastInDim S8x115200x3 ![] bcast_S_S8x115200x3 main_cst_0
  let main_v6 : IVec S8x115200x3 1 := cmpf .olt main_v4 main_v5
  let main_c_1 : IVec S_ 1 := constantI S_ 1 1#1
  let main_v7 : IVec S_ 1 := (fun x v => Host.reduce IntOp.andi x v reducesTo_S8x115200x3_S_d0_1_2 h_S_) main_v6 main_c_1
  let main_v8 : IVec S_ 1 := andi main_v3 main_v7
  main_v8
-- ==== Kernel.lean ====
abbrev S8x115200x3 : Shape := ⟨3, ![8, 115200, 3]⟩
abbrev S3x8x115200 : Shape := ⟨3, ![3, 8, 115200]⟩
abbrev S24x115200 : Shape := ⟨2, ![24, 115200]⟩
abbrev S8x768 : Shape := ⟨2, ![8, 768]⟩
abbrev S_ : Shape := ⟨0, ![]⟩
abbrev S1x16 : Shape := ⟨2, ![1, 16]⟩
abbrev S16 : Shape := ⟨1, ![16]⟩
abbrev S16x38400 : Shape := ⟨2, ![16, 38400]⟩

abbrev nBuf : Table → Nat
  | .hbm => 10
  | .local .tc .vmem => 6
  | .local .scVector .vmem => 6
  | _ => 0

abbrev bufTy : (tb : Table) → Fin (nBuf tb) → BufTy
  | .hbm, ⟨0, _⟩ => ⟨S8x115200x3, .f32⟩
  | .hbm, ⟨1, _⟩ => ⟨S8x115200x3, .f32⟩
  | .hbm, ⟨2, _⟩ => ⟨S3x8x115200, .f32⟩
  | .hbm, ⟨3, _⟩ => ⟨S24x115200, .f32⟩
  | .hbm, ⟨4, _⟩ => ⟨S3x8x115200, .f32⟩
  | .hbm, ⟨5, _⟩ => ⟨S24x115200, .f32⟩
  | .hbm, ⟨6, _⟩ => ⟨S24x115200, .f32⟩
  | .hbm, ⟨7, _⟩ => ⟨S24x115200, .f32⟩
  | .hbm, ⟨8, _⟩ => ⟨S3x8x115200, .f32⟩
  | .hbm, ⟨9, _⟩ => ⟨S8x115200x3, .f32⟩
  | .local .tc .vmem, ⟨0, _⟩ => ⟨S16x38400, .f32⟩
  | .local .tc .vmem, ⟨1, _⟩ => ⟨S16x38400, .f32⟩
  | .local .tc .vmem, ⟨2, _⟩ => ⟨S16x38400, .f32⟩
  | .local .tc .vmem, ⟨3, _⟩ => ⟨S16x38400, .f32⟩
  | .local .tc .vmem, ⟨4, _⟩ => ⟨S16x38400, .f32⟩
  | .local .tc .vmem, ⟨5, _⟩ => ⟨S16x38400, .f32⟩
  | .local .scVector .vmem, ⟨0, _⟩ => ⟨S8x768, .f32⟩
  | .local .scVector .vmem, ⟨1, _⟩ => ⟨S8x768, .f32⟩
  | .local .scVector .vmem, ⟨2, _⟩ => ⟨S8x768, .f32⟩
  | .local .scVector .vmem, ⟨3, _⟩ => ⟨S8x768, .f32⟩
  | .local .scVector .vmem, ⟨4, _⟩ => ⟨S8x768, .f32⟩
  | .local .scVector .vmem, ⟨5, _⟩ => ⟨S8x768, .f32⟩
  | _, _ => ⟨S8x115200x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v1_scv : Ref sig .scVector := ⟨.hbm, 3, rfl⟩
abbrev main_v3_scv : Ref sig .scVector := ⟨.hbm, 5, rfl⟩
abbrev main_v4_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c150_i32 : BitVec 32 := 150#32
  let v3 : BitVec 1 := Scalar.cmpi .slt v2 c150_i32
  let v4 : BitVec 32 := Scalar.extui v3
  let c0_i32_0 : BitVec 32 := 0#32
  let v5 : BitVec 1 := Scalar.cmpi .ne v4 c0_i32_0
  v5

def k0_off1 (i : grid0.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11 : BitVec 32 := 0#32
  let v19 : BitVec 32 := Scalar.addi v1 c0_i32_11
  let c768_i32 : BitVec 32 := 768#32
  let v20 : BitVec 32 := Scalar.muli v19 c768_i32
  ![16, v20.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c150_i32_1 : BitVec 32 := 150#32
  let v7 : BitVec 1 := Scalar.cmpi .slt v6 c150_i32_1
  let v8 : BitVec 32 := Scalar.extui v7
  let c0_i32_2 : BitVec 32 := 0#32
  let v9 : BitVec 1 := Scalar.cmpi .ne v8 c0_i32_2
  v9

def k0_off2 (i : grid0.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_11 : BitVec 32 := 32#32
  let v19 : BitVec 32 := Scalar.addi v1 c32_i32_11
  let c768_i32 : BitVec 32 := 768#32
  let v20 : BitVec 32 := Scalar.muli v19 c768_i32
  ![16, v20.toNat]
@[reducible] def k0_t1_loop : Scf.Loop 32 :=
  let c0_i32_3 : BitVec 32 := 0#32
  let c3_i32 : BitVec 32 := 3#32
  let v10 : BitVec 32 := Scalar.addi c0_i32_3 c3_i32
  let c1_i32 : BitVec 32 := 1#32
  ⟨c0_i32_3, v10, c1_i32⟩
def k0_cond3 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c0_i32_13 : BitVec 32 := 0#32
  let v21 : BitVec 32 := Scalar.addi v20 c0_i32_13
  let c32_i32_14 : BitVec 32 := 32#32
  let v22 : BitVec 32 := Scalar.muli v21 c32_i32_14
  let v23 : BitVec 32 := Scalar.addi v1 v22
  let c150_i32_15 : BitVec 32 := 150#32
  let v24 : BitVec 1 := Scalar.cmpi .slt v23 c150_i32_15
  let v25 : BitVec 32 := Scalar.extui v24
  let c0_i32_16 : BitVec 32 := 0#32
  let v26 : BitVec 1 := Scalar.cmpi .ne v25 c0_i32_16
  v26

def k0_off3 (i : grid0.Coords) (k0_t1 : Fin k0_t1_loop.trips) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c0_i32_13 : BitVec 32 := 0#32
  let v21 : BitVec 32 := Scalar.addi v20 c0_i32_13
  let c32_i32_21 : BitVec 32 := 32#32
  let v33 : BitVec 32 := Scalar.muli v21 c32_i32_21
  let v34 : BitVec 32 := Scalar.addi v1 v33
  let c768_i32 : BitVec 32 := 768#32
  let v35 : BitVec 32 := Scalar.muli v34 c768_i32
  ![16, v35.toNat]
def k0_cond4 (k0_t1 : Fin k0_t1_loop.trips) : BitVec 1 :=
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c0_i32_13 : BitVec 32 := 0#32
  let v21 : BitVec 32 := Scalar.addi v20 c0_i32_13
  let c2_i32_25 : BitVec 32 := 2#32
  let v40 : BitVec 1 := Scalar.cmpi .sge v21 c2_i32_25
  let v41 : BitVec 32 := Scalar.extui v40
  let c0_i32_26 : BitVec 32 := 0#32
  let v42 : BitVec 1 := Scalar.cmpi .ne v41 c0_i32_26
  v42

def k0_off4 (i : grid0.Coords) (k0_t1 : Fin k0_t1_loop.trips) : Fin 2 → Nat :=
  let c16_i32_37 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c0_i32_13 : BitVec 32 := 0#32
  let v21 : BitVec 32 := Scalar.addi v20 c0_i32_13
  let c32_i32_21 : BitVec 32 := 32#32
  let v33 : BitVec 32 := Scalar.muli v21 c32_i32_21
  let v34 : BitVec 32 := Scalar.addi v1 v33
  let c768_i32 : BitVec 32 := 768#32
  let v35 : BitVec 32 := Scalar.muli v34 c768_i32
  ![16, v35.toNat]
@[reducible] def k0_t2_loop : Scf.Loop 32 :=
  let c0_i32_28 : BitVec 32 := 0#32
  let c8_i32 : BitVec 32 := 8#32
  let v43 : BitVec 32 := Scalar.addi c0_i32_28 c8_i32
  let c1_i32_29 : BitVec 32 := 1#32
  ⟨c0_i32_28, v43, c1_i32_29⟩
def k0_off5 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v52 : Index := Scalar.indexCast arg16
  let c0 : Index := 0#32
  ![v52.toNat, 0]
def k0_off6 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v63 : Index := Scalar.indexCast arg16
  let c16 : Index := 16#32
  ![v63.toNat, 16]
def k0_off7 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v74 : Index := Scalar.indexCast arg16
  let c32 : Index := 32#32
  ![v74.toNat, 32]
def k0_off8 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v85 : Index := Scalar.indexCast arg16
  let c48 : Index := 48#32
  ![v85.toNat, 48]
def k0_off9 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v96 : Index := Scalar.indexCast arg16
  let c64 : Index := 64#32
  ![v96.toNat, 64]
def k0_off10 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v107 : Index := Scalar.indexCast arg16
  let c80 : Index := 80#32
  ![v107.toNat, 80]
def k0_off11 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v118 : Index := Scalar.indexCast arg16
  let c96 : Index := 96#32
  ![v118.toNat, 96]
def k0_off12 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v129 : Index := Scalar.indexCast arg16
  let c112 : Index := 112#32
  ![v129.toNat, 112]
def k0_off13 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v140 : Index := Scalar.indexCast arg16
  let c128 : Index := 128#32
  ![v140.toNat, 128]
def k0_off14 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v151 : Index := Scalar.indexCast arg16
  let c144 : Index := 144#32
  ![v151.toNat, 144]
def k0_off15 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v162 : Index := Scalar.indexCast arg16
  let c160 : Index := 160#32
  ![v162.toNat, 160]
def k0_off16 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v173 : Index := Scalar.indexCast arg16
  let c176 : Index := 176#32
  ![v173.toNat, 176]
def k0_off17 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v184 : Index := Scalar.indexCast arg16
  let c192 : Index := 192#32
  ![v184.toNat, 192]
def k0_off18 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v195 : Index := Scalar.indexCast arg16
  let c208 : Index := 208#32
  ![v195.toNat, 208]
def k0_off19 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v206 : Index := Scalar.indexCast arg16
  let c224 : Index := 224#32
  ![v206.toNat, 224]
def k0_off20 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v217 : Index := Scalar.indexCast arg16
  let c240 : Index := 240#32
  ![v217.toNat, 240]
def k0_off21 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v228 : Index := Scalar.indexCast arg16
  let c256 : Index := 256#32
  ![v228.toNat, 256]
def k0_off22 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v239 : Index := Scalar.indexCast arg16
  let c272 : Index := 272#32
  ![v239.toNat, 272]
def k0_off23 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v250 : Index := Scalar.indexCast arg16
  let c288 : Index := 288#32
  ![v250.toNat, 288]
def k0_off24 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v261 : Index := Scalar.indexCast arg16
  let c304 : Index := 304#32
  ![v261.toNat, 304]
def k0_off25 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v272 : Index := Scalar.indexCast arg16
  let c320 : Index := 320#32
  ![v272.toNat, 320]
def k0_off26 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v283 : Index := Scalar.indexCast arg16
  let c336 : Index := 336#32
  ![v283.toNat, 336]
def k0_off27 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v294 : Index := Scalar.indexCast arg16
  let c352 : Index := 352#32
  ![v294.toNat, 352]
def k0_off28 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v305 : Index := Scalar.indexCast arg16
  let c368 : Index := 368#32
  ![v305.toNat, 368]
def k0_off29 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v316 : Index := Scalar.indexCast arg16
  let c384 : Index := 384#32
  ![v316.toNat, 384]
def k0_off30 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v327 : Index := Scalar.indexCast arg16
  let c400 : Index := 400#32
  ![v327.toNat, 400]
def k0_off31 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v338 : Index := Scalar.indexCast arg16
  let c416 : Index := 416#32
  ![v338.toNat, 416]
def k0_off32 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v349 : Index := Scalar.indexCast arg16
  let c432 : Index := 432#32
  ![v349.toNat, 432]
def k0_off33 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v360 : Index := Scalar.indexCast arg16
  let c448 : Index := 448#32
  ![v360.toNat, 448]
def k0_off34 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v371 : Index := Scalar.indexCast arg16
  let c464 : Index := 464#32
  ![v371.toNat, 464]
def k0_off35 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v382 : Index := Scalar.indexCast arg16
  let c480 : Index := 480#32
  ![v382.toNat, 480]
def k0_off36 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v393 : Index := Scalar.indexCast arg16
  let c496 : Index := 496#32
  ![v393.toNat, 496]
def k0_off37 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v404 : Index := Scalar.indexCast arg16
  let c512 : Index := 512#32
  ![v404.toNat, 512]
def k0_off38 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v415 : Index := Scalar.indexCast arg16
  let c528 : Index := 528#32
  ![v415.toNat, 528]
def k0_off39 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v426 : Index := Scalar.indexCast arg16
  let c544 : Index := 544#32
  ![v426.toNat, 544]
def k0_off40 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v437 : Index := Scalar.indexCast arg16
  let c560 : Index := 560#32
  ![v437.toNat, 560]
def k0_off41 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v448 : Index := Scalar.indexCast arg16
  let c576 : Index := 576#32
  ![v448.toNat, 576]
def k0_off42 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v459 : Index := Scalar.indexCast arg16
  let c592 : Index := 592#32
  ![v459.toNat, 592]
def k0_off43 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v470 : Index := Scalar.indexCast arg16
  let c608 : Index := 608#32
  ![v470.toNat, 608]
def k0_off44 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v481 : Index := Scalar.indexCast arg16
  let c624 : Index := 624#32
  ![v481.toNat, 624]
def k0_off45 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v492 : Index := Scalar.indexCast arg16
  let c640 : Index := 640#32
  ![v492.toNat, 640]
def k0_off46 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v503 : Index := Scalar.indexCast arg16
  let c656 : Index := 656#32
  ![v503.toNat, 656]
def k0_off47 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v514 : Index := Scalar.indexCast arg16
  let c672 : Index := 672#32
  ![v514.toNat, 672]
def k0_off48 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v525 : Index := Scalar.indexCast arg16
  let c688 : Index := 688#32
  ![v525.toNat, 688]
def k0_off49 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v536 : Index := Scalar.indexCast arg16
  let c704 : Index := 704#32
  ![v536.toNat, 704]
def k0_off50 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v547 : Index := Scalar.indexCast arg16
  let c720 : Index := 720#32
  ![v547.toNat, 720]
def k0_off51 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v558 : Index := Scalar.indexCast arg16
  let c736 : Index := 736#32
  ![v558.toNat, 736]
def k0_off52 (k0_t2 : Fin k0_t2_loop.trips) : Fin 2 → Nat :=
  let c0_i32_28 : BitVec 32 := 0#32
  let c1_i32_29 : BitVec 32 := 1#32
  let arg16 : BitVec 32 := Scf.iv c0_i32_28 c1_i32_29 k0_t2
  let v569 : Index := Scalar.indexCast arg16
  let c752 : Index := 752#32
  ![v569.toNat, 752]
def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c0_i32_13 : BitVec 32 := 0#32
  let v21 : BitVec 32 := Scalar.addi v20 c0_i32_13
  let c2_i32_33 : BitVec 32 := 2#32
  let v46 : BitVec 32 := Scalar.addi v21 c2_i32_33
  let c32_i32_34 : BitVec 32 := 32#32
  let v47 : BitVec 32 := Scalar.muli v46 c32_i32_34
  let v48 : BitVec 32 := Scalar.addi v1 v47
  let c150_i32_35 : BitVec 32 := 150#32
  let v49 : BitVec 1 := Scalar.cmpi .slt v48 c150_i32_35
  let v50 : BitVec 32 := Scalar.extui v49
  let c0_i32_36 : BitVec 32 := 0#32
  let v51 : BitVec 1 := Scalar.cmpi .ne v50 c0_i32_36
  v51

def k0_off53 (i : grid0.Coords) (k0_t1 : Fin k0_t1_loop.trips) : Fin 2 → Nat :=
  let c16_i32_39 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c0_i32_13 : BitVec 32 := 0#32
  let v21 : BitVec 32 := Scalar.addi v20 c0_i32_13
  let c2_i32_33 : BitVec 32 := 2#32
  let v46 : BitVec 32 := Scalar.addi v21 c2_i32_33
  let c32_i32_37 : BitVec 32 := 32#32
  let v52 : BitVec 32 := Scalar.muli v46 c32_i32_37
  let v53 : BitVec 32 := Scalar.addi v1 v52
  let c768_i32_38 : BitVec 32 := 768#32
  let v54 : BitVec 32 := Scalar.muli v53 c768_i32_38
  ![16, v54.toNat]
def k0_cond6 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c1_i32_17 : BitVec 32 := 1#32
  let v27 : BitVec 32 := Scalar.addi v20 c1_i32_17
  let c32_i32_18 : BitVec 32 := 32#32
  let v28 : BitVec 32 := Scalar.muli v27 c32_i32_18
  let v29 : BitVec 32 := Scalar.addi v1 v28
  let c150_i32_19 : BitVec 32 := 150#32
  let v30 : BitVec 1 := Scalar.cmpi .slt v29 c150_i32_19
  let v31 : BitVec 32 := Scalar.extui v30
  let c0_i32_20 : BitVec 32 := 0#32
  let v32 : BitVec 1 := Scalar.cmpi .ne v31 c0_i32_20
  v32

def k0_off54 (i : grid0.Coords) (k0_t1 : Fin k0_t1_loop.trips) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c1_i32_17 : BitVec 32 := 1#32
  let v27 : BitVec 32 := Scalar.addi v20 c1_i32_17
  let c32_i32_21 : BitVec 32 := 32#32
  let v33 : BitVec 32 := Scalar.muli v27 c32_i32_21
  let v34 : BitVec 32 := Scalar.addi v1 v33
  let c768_i32 : BitVec 32 := 768#32
  let v35 : BitVec 32 := Scalar.muli v34 c768_i32
  ![16, v35.toNat]
def k0_cond7 (k0_t1 : Fin k0_t1_loop.trips) : BitVec 1 :=
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c1_i32_17 : BitVec 32 := 1#32
  let v27 : BitVec 32 := Scalar.addi v20 c1_i32_17
  let c2_i32_25 : BitVec 32 := 2#32
  let v40 : BitVec 1 := Scalar.cmpi .sge v27 c2_i32_25
  let v41 : BitVec 32 := Scalar.extui v40
  let c0_i32_26 : BitVec 32 := 0#32
  let v42 : BitVec 1 := Scalar.cmpi .ne v41 c0_i32_26
  v42

def k0_off55 (i : grid0.Coords) (k0_t1 : Fin k0_t1_loop.trips) : Fin 2 → Nat :=
  let c16_i32_37 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c1_i32_17 : BitVec 32 := 1#32
  let v27 : BitVec 32 := Scalar.addi v20 c1_i32_17
  let c32_i32_21 : BitVec 32 := 32#32
  let v33 : BitVec 32 := Scalar.muli v27 c32_i32_21
  let v34 : BitVec 32 := Scalar.addi v1 v33
  let c768_i32 : BitVec 32 := 768#32
  let v35 : BitVec 32 := Scalar.muli v34 c768_i32
  ![16, v35.toNat]
@[reducible] def k0_t3_loop : Scf.Loop 32 :=
  let c0_i32_28 : BitVec 32 := 0#32
  let c8_i32 : BitVec 32 := 8#32
  let v43 : BitVec 32 := Scalar.addi c0_i32_28 c8_i32
  let c1_i32_29 : BitVec 32 := 1#32
  ⟨c0_i32_28, v43, c1_i32_29⟩
def k0_off56 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v52 : Index := Scalar.indexCast arg16
  let c0 : Index := 0#32
  ![v52.toNat, 0]
def k0_off57 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v63 : Index := Scalar.indexCast arg16
  let c16 : Index := 16#32
  ![v63.toNat, 16]
def k0_off58 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v74 : Index := Scalar.indexCast arg16
  let c32 : Index := 32#32
  ![v74.toNat, 32]
def k0_off59 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v85 : Index := Scalar.indexCast arg16
  let c48 : Index := 48#32
  ![v85.toNat, 48]
def k0_off60 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v96 : Index := Scalar.indexCast arg16
  let c64 : Index := 64#32
  ![v96.toNat, 64]
def k0_off61 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v107 : Index := Scalar.indexCast arg16
  let c80 : Index := 80#32
  ![v107.toNat, 80]
def k0_off62 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v118 : Index := Scalar.indexCast arg16
  let c96 : Index := 96#32
  ![v118.toNat, 96]
def k0_off63 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v129 : Index := Scalar.indexCast arg16
  let c112 : Index := 112#32
  ![v129.toNat, 112]
def k0_off64 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v140 : Index := Scalar.indexCast arg16
  let c128 : Index := 128#32
  ![v140.toNat, 128]
def k0_off65 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v151 : Index := Scalar.indexCast arg16
  let c144 : Index := 144#32
  ![v151.toNat, 144]
def k0_off66 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v162 : Index := Scalar.indexCast arg16
  let c160 : Index := 160#32
  ![v162.toNat, 160]
def k0_off67 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v173 : Index := Scalar.indexCast arg16
  let c176 : Index := 176#32
  ![v173.toNat, 176]
def k0_off68 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v184 : Index := Scalar.indexCast arg16
  let c192 : Index := 192#32
  ![v184.toNat, 192]
def k0_off69 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v195 : Index := Scalar.indexCast arg16
  let c208 : Index := 208#32
  ![v195.toNat, 208]
def k0_off70 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v206 : Index := Scalar.indexCast arg16
  let c224 : Index := 224#32
  ![v206.toNat, 224]
def k0_off71 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v217 : Index := Scalar.indexCast arg16
  let c240 : Index := 240#32
  ![v217.toNat, 240]
def k0_off72 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v228 : Index := Scalar.indexCast arg16
  let c256 : Index := 256#32
  ![v228.toNat, 256]
def k0_off73 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v239 : Index := Scalar.indexCast arg16
  let c272 : Index := 272#32
  ![v239.toNat, 272]
def k0_off74 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v250 : Index := Scalar.indexCast arg16
  let c288 : Index := 288#32
  ![v250.toNat, 288]
def k0_off75 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v261 : Index := Scalar.indexCast arg16
  let c304 : Index := 304#32
  ![v261.toNat, 304]
def k0_off76 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v272 : Index := Scalar.indexCast arg16
  let c320 : Index := 320#32
  ![v272.toNat, 320]
def k0_off77 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v283 : Index := Scalar.indexCast arg16
  let c336 : Index := 336#32
  ![v283.toNat, 336]
def k0_off78 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v294 : Index := Scalar.indexCast arg16
  let c352 : Index := 352#32
  ![v294.toNat, 352]
def k0_off79 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v305 : Index := Scalar.indexCast arg16
  let c368 : Index := 368#32
  ![v305.toNat, 368]
def k0_off80 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v316 : Index := Scalar.indexCast arg16
  let c384 : Index := 384#32
  ![v316.toNat, 384]
def k0_off81 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v327 : Index := Scalar.indexCast arg16
  let c400 : Index := 400#32
  ![v327.toNat, 400]
def k0_off82 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v338 : Index := Scalar.indexCast arg16
  let c416 : Index := 416#32
  ![v338.toNat, 416]
def k0_off83 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v349 : Index := Scalar.indexCast arg16
  let c432 : Index := 432#32
  ![v349.toNat, 432]
def k0_off84 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v360 : Index := Scalar.indexCast arg16
  let c448 : Index := 448#32
  ![v360.toNat, 448]
def k0_off85 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v371 : Index := Scalar.indexCast arg16
  let c464 : Index := 464#32
  ![v371.toNat, 464]
def k0_off86 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v382 : Index := Scalar.indexCast arg16
  let c480 : Index := 480#32
  ![v382.toNat, 480]
def k0_off87 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v393 : Index := Scalar.indexCast arg16
  let c496 : Index := 496#32
  ![v393.toNat, 496]
def k0_off88 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v404 : Index := Scalar.indexCast arg16
  let c512 : Index := 512#32
  ![v404.toNat, 512]
def k0_off89 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v415 : Index := Scalar.indexCast arg16
  let c528 : Index := 528#32
  ![v415.toNat, 528]
def k0_off90 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v426 : Index := Scalar.indexCast arg16
  let c544 : Index := 544#32
  ![v426.toNat, 544]
def k0_off91 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v437 : Index := Scalar.indexCast arg16
  let c560 : Index := 560#32
  ![v437.toNat, 560]
def k0_off92 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v448 : Index := Scalar.indexCast arg16
  let c576 : Index := 576#32
  ![v448.toNat, 576]
def k0_off93 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v459 : Index := Scalar.indexCast arg16
  let c592 : Index := 592#32
  ![v459.toNat, 592]
def k0_off94 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v470 : Index := Scalar.indexCast arg16
  let c608 : Index := 608#32
  ![v470.toNat, 608]
def k0_off95 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v481 : Index := Scalar.indexCast arg16
  let c624 : Index := 624#32
  ![v481.toNat, 624]
def k0_off96 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v492 : Index := Scalar.indexCast arg16
  let c640 : Index := 640#32
  ![v492.toNat, 640]
def k0_off97 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v503 : Index := Scalar.indexCast arg16
  let c656 : Index := 656#32
  ![v503.toNat, 656]
def k0_off98 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v514 : Index := Scalar.indexCast arg16
  let c672 : Index := 672#32
  ![v514.toNat, 672]
def k0_off99 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v525 : Index := Scalar.indexCast arg16
  let c688 : Index := 688#32
  ![v525.toNat, 688]
def k0_off100 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v536 : Index := Scalar.indexCast arg16
  let c704 : Index := 704#32
  ![v536.toNat, 704]
def k0_off101 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v547 : Index := Scalar.indexCast arg16
  let c720 : Index := 720#32
  ![v547.toNat, 720]
def k0_off102 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v558 : Index := Scalar.indexCast arg16
  let c736 : Index := 736#32
  ![v558.toNat, 736]
def k0_off103 (k0_t3 : Fin k0_t3_loop.trips) : Fin 2 → Nat :=
  let c0_i32_28 : BitVec 32 := 0#32
  let c1_i32_29 : BitVec 32 := 1#32
  let arg16 : BitVec 32 := Scf.iv c0_i32_28 c1_i32_29 k0_t3
  let v569 : Index := Scalar.indexCast arg16
  let c752 : Index := 752#32
  ![v569.toNat, 752]
def k0_cond8 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c1_i32_17 : BitVec 32 := 1#32
  let v27 : BitVec 32 := Scalar.addi v20 c1_i32_17
  let c2_i32_33 : BitVec 32 := 2#32
  let v46 : BitVec 32 := Scalar.addi v27 c2_i32_33
  let c32_i32_34 : BitVec 32 := 32#32
  let v47 : BitVec 32 := Scalar.muli v46 c32_i32_34
  let v48 : BitVec 32 := Scalar.addi v1 v47
  let c150_i32_35 : BitVec 32 := 150#32
  let v49 : BitVec 1 := Scalar.cmpi .slt v48 c150_i32_35
  let v50 : BitVec 32 := Scalar.extui v49
  let c0_i32_36 : BitVec 32 := 0#32
  let v51 : BitVec 1 := Scalar.cmpi .ne v50 c0_i32_36
  v51

def k0_off104 (i : grid0.Coords) (k0_t1 : Fin k0_t1_loop.trips) : Fin 2 → Nat :=
  let c16_i32_39 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12 : BitVec 32 := 0#32
  let c0_i32_3 : BitVec 32 := 0#32
  let c1_i32 : BitVec 32 := 1#32
  let arg15 : BitVec 32 := Scf.iv c0_i32_3 c1_i32 k0_t1
  let c2_i32_11 : BitVec 32 := 2#32
  let v19 : BitVec 32 := Scalar.muli arg15 c2_i32_11
  let v20 : BitVec 32 := Scalar.addi c0_i32_12 v19
  let c1_i32_17 : BitVec 32 := 1#32
  let v27 : BitVec 32 := Scalar.addi v20 c1_i32_17
  let c2_i32_33 : BitVec 32 := 2#32
  let v46 : BitVec 32 := Scalar.addi v27 c2_i32_33
  let c32_i32_37 : BitVec 32 := 32#32
  let v52 : BitVec 32 := Scalar.muli v46 c32_i32_37
  let v53 : BitVec 32 := Scalar.addi v1 v52
  let c768_i32_38 : BitVec 32 := 768#32
  let v54 : BitVec 32 := Scalar.muli v53 c768_i32_38
  ![16, v54.toNat]
abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x38400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x38400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x38400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S8x115200x3_S3x8x115200_2_0_1 : S8x115200x3.Transposes [2, 0, 1] S3x8x115200
  shapeCasts_S3x8x115200_S24x115200 : S3x8x115200.ShapeCasts S24x115200
  h_S1x16 : 0 < S1x16.numel
  shapeCasts_S1x16_S16 : S1x16.ShapeCasts S16
  shapeCasts_S16_S1x16 : S16.ShapeCasts S1x16
  inb_S24x115200_S8x768_16_0 : ∀ a, (![16, 0] : Fin 2 → Nat) a + S8x768.size a ≤ S24x115200.size a
  inb_S16x38400_S16x38400_0_0 : ∀ a, (![0, 0] : Fin 2 → Nat) a + S16x38400.size a ≤ S16x38400.size a
  h_S16x38400 : 0 < S16x38400.numel
  shapeCasts_S16x38400_S16x38400 : S16x38400.ShapeCasts S16x38400
  shapeCasts_S24x115200_S3x8x115200 : S24x115200.ShapeCasts S3x8x115200
  transposes_S3x8x115200_S8x115200x3_1_2_0 : S3x8x115200.Transposes [1, 2, 0] S8x115200x3
  hcc0_scratch6 : 0 + S_.numel ≤ 10
  hcc0_scratch7 : 1 + S_.numel ≤ 10
  hcc0_scratch8 : 2 + S_.numel ≤ 10
  hcc0_scratch9 : 3 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S8x768.size a ≤ S24x115200.size a
  k0_off2_inb : ∀ i : grid0.Coords, ∀ (k0_h2 : k0_cond2 i = 1#1), ∀ a, (k0_off2 i) a + S8x768.size a ≤ S24x115200.size a
  k0_t1_ok : k0_t1_loop.OK
  k0_off3_inb : ∀ (i : grid0.Coords) (k0_t1 : Fin k0_t1_loop.trips), ∀ (k0_h3 : k0_cond3 i k0_t1 = 1#1), ∀ a, (k0_off3 i k0_t1) a + S8x768.size a ≤ S24x115200.size a
  k0_off4_inb : ∀ (i : grid0.Coords) (k0_t1 : Fin k0_t1_loop.trips), ∀ (k0_h3 : k0_cond3 i k0_t1 = 1#1), ∀ (k0_h4 : k0_cond4 k0_t1 = 1#1), ∀ a, (k0_off4 i k0_t1) a + S8x768.size a ≤ S24x115200.size a
  k0_t2_ok : ∀ (i : grid0.Coords) (k0_t1 : Fin k0_t1_loop.trips), ∀ (k0_h3 : k0_cond3 i k0_t1 = 1#1), k0_t2_loop.OK
  k0_off5_inb : ∀ (i : grid0.Coords) (k0_t1 : Fin k0_t1_loop.trips) (k0_t2 : Fin k0_t2_loop.trips), ∀ (k0_h3 : k0_cond3 i k0_t1 = 1#1), ∀ a, (k0_off5 k0_t2) a + S1x16.size a ≤ S8x768.size a
  k0_off6_inb : ∀ (i : grid0.Coords) (k0_t1 : Fin k0_t1_loop.trips) (k0_t2 : Fin k0_t2_loop.trips), ∀ (k0_h3 : k0_cond3 i k0_t1 = 1#1), ∀ a, (k0_off6 k0_t2) a + S1x16.size a ≤ S8x768.size a
  k0_off7_inb : ∀ (i : grid0.Coords) (k0_t1 : Fin k0_t1_loop.trips) (k0_t2 : Fin k0_t2_loop.trips), ∀ (k0_h3 : k0_cond3 i k0_t1 = 1#1), ∀ a, (k0_off7 k0_t2) a + S1x16.size a ≤ S8x768.size a
  k0_off8_inb : ∀ (i : grid0.Coords) (k0_t1 : Fin k0_t1_loop.trips) (k0_t2 : Fin k0_t2_loop.trips), ∀ (k0_h3 : k0_cond3 i k0_t1 = 1#1), ∀ a, (k0_off8 k0_t2) a + S1x16.size a ≤ S8x768.size a
  k0_off9_inb : ∀ (i : grid0.Coords) (k0_t1 : Fin k0_t1_loop.trips) (k0_t2 : Fin k0_t2_loop.trips), ∀ (k0_h3 : k0_cond3 i k0_t1 = 1#1), ∀ a, (k0_off9 k0_t2) a + S1x16.size a ≤ S8x768.size a
  k0_off10_inb : ∀ (i : grid0.Coords) (k0_t1 : Fin k0_t1_loop.trips) (k0_t2 : Fin k0_t2_loop.trips), ∀ (k0_h3 : k0_cond3 i k0_t1 = 1#1), ∀ a, (k0_off10 k0_t2) a + S1x16.size a ≤ S8x768.size a
  k0_off11_inb : ∀ (i : grid0.Coords) (k0_t1 : Fin k0_t1_loop.trips) (k0_t2 : Fin k0_t2_loop.trips), ∀ (k0_h3 : k0_cond3 i k0_t1 = 1#1), ∀ a, (k0_off11 k0_t2) a + S1x16.size a ≤ S8x768.size a
  k0_off12_inb : ∀ (i : grid0.Coords) (k0_t1 : Fin k0_t1_loop.trips) (k0_t2 : Fin k0_t2_loop.trips), ∀ (k0_h3 : k0_cond3 i k0_t1 = 1#1), ∀ a, (k0_off12 k0_t2) a + S1x16.size a ≤ S8x768.size a
  k0_off13_inb : ∀ (i : grid0.Coords) (k0_t1 : Fin k0_t1_loop.trips) (k0_t2 : Fin k0_t2_loop.trips), ∀ (k0_h3 : k0_cond3 i k0_t1 = 1#1), ∀ a, (k0_off13 k0_t2) a + S1x16.size a ≤ S8x768.size a
  k0_off14_inb : ∀ (i : grid0.Coords) (k0_t1 : Fin k0_t1_loop.trips) (k0_t2 : Fin k0_t2_loop.trips), ∀ (k0_h3 : k0_cond3 i k0_t1 = 1#1), ∀ a, (k0_off14 k0_t2) a + S1x16.size a ≤ S8x768.size a
  k0_off15_inb : ∀ (i : grid0.Coords) (k0_t1 : Fin k0_t1_loop.trips) (k0_t2 : Fin k0_t2_loop.trips), ∀ (k0_h3 : k0_cond3 i k0_t1 = 1#1), ∀ a, (k0_off15 k0_t2) a + S1x16.size a ≤ S8x768.size a
  k0_off16_inb : ∀ (i : grid0.Coords) (k0_t1 : Fin k0_t1_loop.trips) (k0_t2 : Fin k0_t2_loop.trips), ∀ (k0_h3 : k0_cond3 i k0_t1 = 1#1), ∀ a, (k0_off16 k0_t2) a + S1x16.size a ≤ S8x768.size a
  k0_off17_inb : ∀ (i : grid0.Coords) (k0_t1 : Fin k0_t1_loop.trips) (k0_t2 : Fin k0_t2_loop.trips), ∀ (k0_h3 : k0_cond3 i k0_t1 = 1#1), ∀ a, (k0_off17 k0_t2) a + S1x16.size a ≤ S8x768.size a
  k0_off18_inb : ∀ (i : grid0.Coords) (k0_t1 : Fin k0_t1_loop.trips) (k0_t2 : Fin k0_t2_loop.trips), ∀ (k0_h3 : k0_cond3 i k0_t1 = 1#1), ∀ a, (k0_off18 k0_t2) a + S1x16.size a ≤ S8x768.size a
  k0_off19_inb : ∀ (i : grid0.Coords) (k0_t1 : Fin k0_t1_loop.trips) (k0_t2 : Fin k0_t2_loop.trips), ∀ (k0_h3 : k0_cond3 i k0_t1 = 1#1), ∀ a, (k0_off19 k0_t2) a + S1x16.size a ≤ S8x768.size a
  k0_off20_inb : ∀ (i : grid0.Coords) (k0_t1 : Fin k0_t1_loop.trips) (k0_t2 : Fin k0_t2_loop.trips), ∀ (k0_h3 : k0_cond3 i k0_t1 = 1#1), ∀ a, (k0_off20 k0_t2) a + S1x16.size a ≤ S8x768.size a
  k0_off21_inb : ∀ (i : grid0.Coords) (k0_t1 : Fin k0_t1_loop.trips) (k0_t2 : Fin k0_t2_loop.trips), ∀ (k0_h3 : k0_cond3 i k0_t1 = 1#1), ∀ a, (k0_off21 k0_t2) a + S1x16.size a ≤ S8x768.size a
  k0_off22_inb : ∀ (i : grid0.Coords) (k0_t1 : Fin k0_t1_loop.trips) (k0_t2 : Fin k0_t2_loop.trips), ∀ (k0_h3 : k0_cond3 i k0_t1 = 1#1), ∀ a, (k0_off22 k0_t2) a + S1x16.size a ≤ S8x768.size a
  k0_off23_inb : ∀ (i : grid0.Coords) (k0_t1 : Fin k0_t1_loop.trips) (k0_t2 : Fin k0_t2_loop.trips), ∀ (k0_h3 : k0_cond3 i k0_t1 = 1#1), ∀ a, (k0_off23 k0_t2) a + S1x16.size a ≤ S8x768.size a
  k0_off24_inb : ∀ (i : grid0.Coords) (k0_t1 : Fin k0_t1_loop.trips) (k0_t2 : Fin k0_t2_loop.trips), ∀ (k0_h3 : k0_cond3 i k0_t1 = 1#1), ∀ a, (k0_off24 k0_t2) a + S1x16.size a ≤ S8x768.size a
  k0_off25_inb : ∀ (i : grid0.Coords) (k0_t1 : Fin k0_t1_loop.trips) (k0_t2 : Fin k0_t2_loop.trips), ∀ (k0_h3 : k0_cond3 i k0_t1 = 1#1), ∀ a, (k0_off25 k0_t2) a + S1x16.size a ≤ S8x768.size a
  k0_off26_inb : ∀ (i : grid0.Coords) (k0_t1 : Fin k0_t1_loop.trips) (k0_t2 : Fin k0_t2_loop.trips), ∀ (k0_h3 : k0_cond3 i k0_t1 = 1#1), ∀ a, (k0_off26 k0_t2) a + S1x16.size a ≤ S8x768.size a
  k0_off27_inb : ∀ (i : grid0.Coords) (k0_t1 : Fin k0_t1_loop.trips) (k0_t2 : Fin k0_t2_loop.trips), ∀ (k0_h3 : k0_cond3 i k0_t1 = 1#1), ∀ a, (k0_off27 k0_t2) a + S1x16.size a ≤ S8x768.size a
  k0_off28_inb : ∀ (i : grid0.Coords) (k0_t1 : Fin k0_t1_loop.trips) (k0_t2 : Fin k0_t2_loop.trips), ∀ (k0_h3 : k0_cond3 i k0_t1 = 1#1), ∀ a, (k0_off28 k0_t2) a + S1x16.size a ≤ S8x768.size a
  k0_off29_inb : ∀ (i : grid0.Coords) (k0_t1 : Fin k0_t1_loop.trips) (k0_t2 : Fin k0_t2_loop.trips), ∀ (k0_h3 : k0_cond3 i k0_t1 = 1#1), ∀ a, (k0_off29 k0_t2) a + S1x16.size a ≤ S8x768.size a
  k0_off30_inb : ∀ (i : grid0.Coords) (k0_t1 : Fin k0_t1_loop.trips) (k0_t2 : Fin k0_t2_loop.trips), ∀ (k0_h3 : k0_cond3 i k0_t1 = 1#1), ∀ a, (k0_off30 k0_t2) a + S1x16.size a ≤ S8x768.size a
  k0_off31_inb : ∀ (i : grid0.Coords) (k0_t1 : Fin k0_t1_loop.trips) (k0_t2 : Fin k0_t2_loop.trips), ∀ (k0_h3 : k0_cond3 i k0_t1 = 1#1), ∀ a, (k0_off31 k0_t2) a + S1x16.size a ≤ S8x768.size a
  k0_off32_inb : ∀ (i : grid0.Coords) (k0_t1 : Fin k0_t1_loop.trips) (k0_t2 : Fin k0_t2_loop.trips), ∀ (k0_h3 : k0_cond3 i k0_t1 = 1#1), ∀ a, (k0_off32 k0_t2) a + S1x16.size a ≤ S8x768.size a
  k0_off33_inb : ∀ (i : grid0.Coords) (k0_t1 : Fin k0_t1_loop.trips) (k0_t2 : Fin k0_t2_loop.trips), ∀ (k0_h3 : k0_cond3 i k0_t1 = 1#1), ∀ a, (k0_off33 k0_t2) a + S1x16.size a ≤ S8x768.size a
  k0_off34_inb : ∀ (i : grid0.Coords) (k0_t1 : Fin k0_t1_loop.trips) (k0_t2 : Fin k0_t2_loop.trips), ∀ (k0_h3 : k0_cond3 i k0_t1 = 1#1), ∀ a, (k0_off34 k0_t2) a + S1x16.size a ≤ S8x768.size a
  k0_off35_inb : ∀ (i : grid0.Coords) (k0_t1 : Fin k0_t1_loop.trips) (k0_t2 : Fin k0_t2_loop.trips), ∀ (k0_h3 : k0_cond3 i k0_t1 = 1#1), ∀ a, (k0_off35 k0_t2) a + S1x16.size a ≤ S8x768.size a
  k0_off36_inb : ∀ (i : grid0.Coords) (k0_t1 : Fin k0_t1_loop.trips) (k0_t2 : Fin k0_t2_loop.trips), ∀ (k0_h3 : k0_cond3 i k0_t1 = 1#1), ∀ a, (k0_off36 k0_t2) a + S1x16.size a ≤ S8x768.size a
  k0_off37_inb : ∀ (i : grid0.Coords) (k0_t1 : Fin k0_t1_loop.trips) (k0_t2 : Fin k0_t2_loop.trips), ∀ (k0_h3 : k0_cond3 i k0_t1 = 1#1), ∀ a, (k0_off37 k0_t2) a + S1x16.size a ≤ S8x768.size a
  k0_off38_inb : ∀ (i : grid0.Coords) (k0_t1 : Fin k0_t1_loop.trips) (k0_t2 : Fin k0_t2_loop.trips), ∀ (k0_h3 : k0_cond3 i k0_t1 = 1#1), ∀ a, (k0_off38 k0_t2) a + S1x16.size a ≤ S8x768.size a
  k0_off39_inb : ∀ (i : grid0.Coords) (k0_t1 : Fin k0_t1_loop.trips) (k0_t2 : Fin k0_t2_loop.trips), ∀ (k0_h3 : k0_cond3 i k0_t1 = 1#1), ∀ a, (k0_off39 k0_t2) a + S1x16.size a ≤ S8x768.size a
  k0_off40_inb : ∀ (i : grid0.Coords) (k0_t1 : Fin k0_t1_loop.trips) (k0_t2 : Fin k0_t2_loop.trips), ∀ (k0_h3 : k0_cond3 i k0_t1 = 1#1), ∀ a, (k0_off40 k0_t2) a + S1x16.size a ≤ S8x768.size a
  k0_off41_inb : ∀ (i : grid0.Coords) (k0_t1 : Fin k0_t1_loop.trips) (k0_t2 : Fin k0_t2_loop.trips), ∀ (k0_h3 : k0_cond3 i k0_t1 = 1#1), ∀ a, (k0_off41 k0_t2) a + S1x16.size a ≤ S8x768.size a
  k0_off42_inb : ∀ (i : grid0.Coords) (k0_t1 : Fin k0_t1_loop.trips) (k0_t2 : Fin k0_t2_loop.trips), ∀ (k0_h3 : k0_cond3 i k0_t1 = 1#1), ∀ a, (k0_off42 k0_t2) a + S1x16.size a ≤ S8x768.size a
  k0_off43_inb : ∀ (i : grid0.Coords) (k0_t1 : Fin k0_t1_loop.trips) (k0_t2 : Fin k0_t2_loop.trips), ∀ (k0_h3 : k0_cond3 i k0_t1 = 1#1), ∀ a, (k0_off43 k0_t2) a + S1x16.size a ≤ S8x768.size a
  k0_off44_inb : ∀ (i : grid0.Coords) (k0_t1 : Fin k0_t1_loop.trips) (k0_t2 : Fin k0_t2_loop.trips), ∀ (k0_h3 : k0_cond3 i k0_t1 = 1#1), ∀ a, (k0_off44 k0_t2) a + S1x16.size a ≤ S8x768.size a
  k0_off45_inb : ∀ (i : grid0.Coords) (k0_t1 : Fin k0_t1_loop.trips) (k0_t2 : Fin k0_t2_loop.trips), ∀ (k0_h3 : k0_cond3 i k0_t1 = 1#1), ∀ a, (k0_off45 k0_t2) a + S1x16.size a ≤ S8x768.size a
  k0_off46_inb : ∀ (i : grid0.Coords) (k0_t1 : Fin k0_t1_loop.trips) (k0_t2 : Fin k0_t2_loop.trips), ∀ (k0_h3 : k0_cond3 i k0_t1 = 1#1), ∀ a, (k0_off46 k0_t2) a + S1x16.size a ≤ S8x768.size a
  k0_off47_inb : ∀ (i : grid0.Coords) (k0_t1 : Fin k0_t1_loop.trips) (k0_t2 : Fin k0_t2_loop.trips), ∀ (k0_h3 : k0_cond3 i k0_t1 = 1#1), ∀ a, (k0_off47 k0_t2) a + S1x16.size a ≤ S8x768.size a
  k0_off48_inb : ∀ (i : grid0.Coords) (k0_t1 : Fin k0_t1_loop.trips) (k0_t2 : Fin k0_t2_loop.trips), ∀ (k0_h3 : k0_cond3 i k0_t1 = 1#1), ∀ a, (k0_off48 k0_t2) a + S1x16.size a ≤ S8x768.size a
  k0_off49_inb : ∀ (i : grid0.Coords) (k0_t1 : Fin k0_t1_loop.trips) (k0_t2 : Fin k0_t2_loop.trips), ∀ (k0_h3 : k0_cond3 i k0_t1 = 1#1), ∀ a, (k0_off49 k0_t2) a + S1x16.size a ≤ S8x768.size a
  k0_off50_inb : ∀ (i : grid0.Coords) (k0_t1 : Fin k0_t1_loop.trips) (k0_t2 : Fin k0_t2_loop.trips), ∀ (k0_h3 : k0_cond3 i k0_t1 = 1#1), ∀ a, (k0_off50 k0_t2) a + S1x16.size a ≤ S8x768.size a
  k0_off51_inb : ∀ (i : grid0.Coords) (k0_t1 : Fin k0_t1_loop.trips) (k0_t2 : Fin k0_t2_loop.trips), ∀ (k0_h3 : k0_cond3 i k0_t1 = 1#1), ∀ a, (k0_off51 k0_t2) a + S1x16.size a ≤ S8x768.size a
  k0_off52_inb : ∀ (i : grid0.Coords) (k0_t1 : Fin k0_t1_loop.trips) (k0_t2 : Fin k0_t2_loop.trips), ∀ (k0_h3 : k0_cond3 i k0_t1 = 1#1), ∀ a, (k0_off52 k0_t2) a + S1x16.size a ≤ S8x768.size a
  k0_off53_inb : ∀ (i : grid0.Coords) (k0_t1 : Fin k0_t1_loop.trips), ∀ (k0_h3 : k0_cond3 i k0_t1 = 1#1), ∀ (k0_h5 : k0_cond5 i k0_t1 = 1#1), ∀ a, (k0_off53 i k0_t1) a + S8x768.size a ≤ S24x115200.size a
  k0_off54_inb : ∀ (i : grid0.Coords) (k0_t1 : Fin k0_t1_loop.trips), ∀ (k0_h6 : k0_cond6 i k0_t1 = 1#1), ∀ a, (k0_off54 i k0_t1) a + S8x768.size a ≤ S24x115200.size a
  k0_off55_inb : ∀ (i : grid0.Coords) (k0_t1 : Fin k0_t1_loop.trips), ∀ (k0_h6 : k0_cond6 i k0_t1 = 1#1), ∀ (k0_h7 : k0_cond7 k0_t1 = 1#1), ∀ a, (k0_off55 i k0_t1) a + S8x768.size a ≤ S24x115200.size a
  k0_t3_ok : ∀ (i : grid0.Coords) (k0_t1 : Fin k0_t1_loop.trips), ∀ (k0_h6 : k0_cond6 i k0_t1 = 1#1), k0_t3_loop.OK
  k0_off56_inb : ∀ (i : grid0.Coords) (k0_t1 : Fin k0_t1_loop.trips) (k0_t3 : Fin k0_t3_loop.trips), ∀ (k0_h6 : k0_cond6 i k0_t1 = 1#1), ∀ a, (k0_off56 k0_t3) a + S1x16.size a ≤ S8x768.size a
  k0_off57_inb : ∀ (i : grid0.Coords) (k0_t1 : Fin k0_t1_loop.trips) (k0_t3 : Fin k0_t3_loop.trips), ∀ (k0_h6 : k0_cond6 i k0_t1 = 1#1), ∀ a, (k0_off57 k0_t3) a + S1x16.size a ≤ S8x768.size a
  k0_off58_inb : ∀ (i : grid0.Coords) (k0_t1 : Fin k0_t1_loop.trips) (k0_t3 : Fin k0_t3_loop.trips), ∀ (k0_h6 : k0_cond6 i k0_t1 = 1#1), ∀ a, (k0_off58 k0_t3) a + S1x16.size a ≤ S8x768.size a
  k0_off59_inb : ∀ (i : grid0.Coords) (k0_t1 : Fin k0_t1_loop.trips) (k0_t3 : Fin k0_t3_loop.trips), ∀ (k0_h6 : k0_cond6 i k0_t1 = 1#1), ∀ a, (k0_off59 k0_t3) a + S1x16.size a ≤ S8x768.size a
  k0_off60_inb : ∀ (i : grid0.Coords) (k0_t1 : Fin k0_t1_loop.trips) (k0_t3 : Fin k0_t3_loop.trips), ∀ (k0_h6 : k0_cond6 i k0_t1 = 1#1), ∀ a, (k0_off60 k0_t3) a + S1x16.size a ≤ S8x768.size a
  k0_off61_inb : ∀ (i : grid0.Coords) (k0_t1 : Fin k0_t1_loop.trips) (k0_t3 : Fin k0_t3_loop.trips), ∀ (k0_h6 : k0_cond6 i k0_t1 = 1#1), ∀ a, (k0_off61 k0_t3) a + S1x16.size a ≤ S8x768.size a
  k0_off62_inb : ∀ (i : grid0.Coords) (k0_t1 : Fin k0_t1_loop.trips) (k0_t3 : Fin k0_t3_loop.trips), ∀ (k0_h6 : k0_cond6 i k0_t1 = 1#1), ∀ a, (k0_off62 k0_t3) a + S1x16.size a ≤ S8x768.size a
  k0_off63_inb : ∀ (i : grid0.Coords) (k0_t1 : Fin k0_t1_loop.trips) (k0_t3 : Fin k0_t3_loop.trips), ∀ (k0_h6 : k0_cond6 i k0_t1 = 1#1), ∀ a, (k0_off63 k0_t3) a + S1x16.size a ≤ S8x768.size a
  k0_off64_inb : ∀ (i : grid0.Coords) (k0_t1 : Fin k0_t1_loop.trips) (k0_t3 : Fin k0_t3_loop.trips), ∀ (k0_h6 : k0_cond6 i k0_t1 = 1#1), ∀ a, (k0_off64 k0_t3) a + S1x16.size a ≤ S8x768.size a
  k0_off65_inb : ∀ (i : grid0.Coords) (k0_t1 : Fin k0_t1_loop.trips) (k0_t3 : Fin k0_t3_loop.trips), ∀ (k0_h6 : k0_cond6 i k0_t1 = 1#1), ∀ a, (k0_off65 k0_t3) a + S1x16.size a ≤ S8x768.size a
  k0_off66_inb : ∀ (i : grid0.Coords) (k0_t1 : Fin k0_t1_loop.trips) (k0_t3 : Fin k0_t3_loop.trips), ∀ (k0_h6 : k0_cond6 i k0_t1 = 1#1), ∀ a, (k0_off66 k0_t3) a + S1x16.size a ≤ S8x768.size a
  k0_off67_inb : ∀ (i : grid0.Coords) (k0_t1 : Fin k0_t1_loop.trips) (k0_t3 : Fin k0_t3_loop.trips), ∀ (k0_h6 : k0_cond6 i k0_t1 = 1#1), ∀ a, (k0_off67 k0_t3) a + S1x16.size a ≤ S8x768.size a
  k0_off68_inb : ∀ (i : grid0.Coords) (k0_t1 : Fin k0_t1_loop.trips) (k0_t3 : Fin k0_t3_loop.trips), ∀ (k0_h6 : k0_cond6 i k0_t1 = 1#1), ∀ a, (k0_off68 k0_t3) a + S1x16.size a ≤ S8x768.size a
  k0_off69_inb : ∀ (i : grid0.Coords) (k0_t1 : Fin k0_t1_loop.trips) (k0_t3 : Fin k0_t3_loop.trips), ∀ (k0_h6 : k0_cond6 i k0_t1 = 1#1), ∀ a, (k0_off69 k0_t3) a + S1x16.size a ≤ S8x768.size a
  k0_off70_inb : ∀ (i : grid0.Coords) (k0_t1 : Fin k0_t1_loop.trips) (k0_t3 : Fin k0_t3_loop.trips), ∀ (k0_h6 : k0_cond6 i k0_t1 = 1#1), ∀ a, (k0_off70 k0_t3) a + S1x16.size a ≤ S8x768.size a
  k0_off71_inb : ∀ (i : grid0.Coords) (k0_t1 : Fin k0_t1_loop.trips) (k0_t3 : Fin k0_t3_loop.trips), ∀ (k0_h6 : k0_cond6 i k0_t1 = 1#1), ∀ a, (k0_off71 k0_t3) a + S1x16.size a ≤ S8x768.size a
  k0_off72_inb : ∀ (i : grid0.Coords) (k0_t1 : Fin k0_t1_loop.trips) (k0_t3 : Fin k0_t3_loop.trips), ∀ (k0_h6 : k0_cond6 i k0_t1 = 1#1), ∀ a, (k0_off72 k0_t3) a + S1x16.size a ≤ S8x768.size a
  k0_off73_inb : ∀ (i : grid0.Coords) (k0_t1 : Fin k0_t1_loop.trips) (k0_t3 : Fin k0_t3_loop.trips), ∀ (k0_h6 : k0_cond6 i k0_t1 = 1#1), ∀ a, (k0_off73 k0_t3) a + S1x16.size a ≤ S8x768.size a
  k0_off74_inb : ∀ (i : grid0.Coords) (k0_t1 : Fin k0_t1_loop.trips) (k0_t3 : Fin k0_t3_loop.trips), ∀ (k0_h6 : k0_cond6 i k0_t1 = 1#1), ∀ a, (k0_off74 k0_t3) a + S1x16.size a ≤ S8x768.size a
  k0_off75_inb : ∀ (i : grid0.Coords) (k0_t1 : Fin k0_t1_loop.trips) (k0_t3 : Fin k0_t3_loop.trips), ∀ (k0_h6 : k0_cond6 i k0_t1 = 1#1), ∀ a, (k0_off75 k0_t3) a + S1x16.size a ≤ S8x768.size a
  k0_off76_inb : ∀ (i : grid0.Coords) (k0_t1 : Fin k0_t1_loop.trips) (k0_t3 : Fin k0_t3_loop.trips), ∀ (k0_h6 : k0_cond6 i k0_t1 = 1#1), ∀ a, (k0_off76 k0_t3) a + S1x16.size a ≤ S8x768.size a
  k0_off77_inb : ∀ (i : grid0.Coords) (k0_t1 : Fin k0_t1_loop.trips) (k0_t3 : Fin k0_t3_loop.trips), ∀ (k0_h6 : k0_cond6 i k0_t1 = 1#1), ∀ a, (k0_off77 k0_t3) a + S1x16.size a ≤ S8x768.size a
  k0_off78_inb : ∀ (i : grid0.Coords) (k0_t1 : Fin k0_t1_loop.trips) (k0_t3 : Fin k0_t3_loop.trips), ∀ (k0_h6 : k0_cond6 i k0_t1 = 1#1), ∀ a, (k0_off78 k0_t3) a + S1x16.size a ≤ S8x768.size a
  k0_off79_inb : ∀ (i : grid0.Coords) (k0_t1 : Fin k0_t1_loop.trips) (k0_t3 : Fin k0_t3_loop.trips), ∀ (k0_h6 : k0_cond6 i k0_t1 = 1#1), ∀ a, (k0_off79 k0_t3) a + S1x16.size a ≤ S8x768.size a
  k0_off80_inb : ∀ (i : grid0.Coords) (k0_t1 : Fin k0_t1_loop.trips) (k0_t3 : Fin k0_t3_loop.trips), ∀ (k0_h6 : k0_cond6 i k0_t1 = 1#1), ∀ a, (k0_off80 k0_t3) a + S1x16.size a ≤ S8x768.size a
  k0_off81_inb : ∀ (i : grid0.Coords) (k0_t1 : Fin k0_t1_loop.trips) (k0_t3 : Fin k0_t3_loop.trips), ∀ (k0_h6 : k0_cond6 i k0_t1 = 1#1), ∀ a, (k0_off81 k0_t3) a + S1x16.size a ≤ S8x768.size a
  k0_off82_inb : ∀ (i : grid0.Coords) (k0_t1 : Fin k0_t1_loop.trips) (k0_t3 : Fin k0_t3_loop.trips), ∀ (k0_h6 : k0_cond6 i k0_t1 = 1#1), ∀ a, (k0_off82 k0_t3) a + S1x16.size a ≤ S8x768.size a
  k0_off83_inb : ∀ (i : grid0.Coords) (k0_t1 : Fin k0_t1_loop.trips) (k0_t3 : Fin k0_t3_loop.trips), ∀ (k0_h6 : k0_cond6 i k0_t1 = 1#1), ∀ a, (k0_off83 k0_t3) a + S1x16.size a ≤ S8x768.size a
  k0_off84_inb : ∀ (i : grid0.Coords) (k0_t1 : Fin k0_t1_loop.trips) (k0_t3 : Fin k0_t3_loop.trips), ∀ (k0_h6 : k0_cond6 i k0_t1 = 1#1), ∀ a, (k0_off84 k0_t3) a + S1x16.size a ≤ S8x768.size a
  k0_off85_inb : ∀ (i : grid0.Coords) (k0_t1 : Fin k0_t1_loop.trips) (k0_t3 : Fin k0_t3_loop.trips), ∀ (k0_h6 : k0_cond6 i k0_t1 = 1#1), ∀ a, (k0_off85 k0_t3) a + S1x16.size a ≤ S8x768.size a
  k0_off86_inb : ∀ (i : grid0.Coords) (k0_t1 : Fin k0_t1_loop.trips) (k0_t3 : Fin k0_t3_loop.trips), ∀ (k0_h6 : k0_cond6 i k0_t1 = 1#1), ∀ a, (k0_off86 k0_t3) a + S1x16.size a ≤ S8x768.size a
  k0_off87_inb : ∀ (i : grid0.Coords) (k0_t1 : Fin k0_t1_loop.trips) (k0_t3 : Fin k0_t3_loop.trips), ∀ (k0_h6 : k0_cond6 i k0_t1 = 1#1), ∀ a, (k0_off87 k0_t3) a + S1x16.size a ≤ S8x768.size a
  k0_off88_inb : ∀ (i : grid0.Coords) (k0_t1 : Fin k0_t1_loop.trips) (k0_t3 : Fin k0_t3_loop.trips), ∀ (k0_h6 : k0_cond6 i k0_t1 = 1#1), ∀ a, (k0_off88 k0_t3) a + S1x16.size a ≤ S8x768.size a
  k0_off89_inb : ∀ (i : grid0.Coords) (k0_t1 : Fin k0_t1_loop.trips) (k0_t3 : Fin k0_t3_loop.trips), ∀ (k0_h6 : k0_cond6 i k0_t1 = 1#1), ∀ a, (k0_off89 k0_t3) a + S1x16.size a ≤ S8x768.size a
  k0_off90_inb : ∀ (i : grid0.Coords) (k0_t1 : Fin k0_t1_loop.trips) (k0_t3 : Fin k0_t3_loop.trips), ∀ (k0_h6 : k0_cond6 i k0_t1 = 1#1), ∀ a, (k0_off90 k0_t3) a + S1x16.size a ≤ S8x768.size a
  k0_off91_inb : ∀ (i : grid0.Coords) (k0_t1 : Fin k0_t1_loop.trips) (k0_t3 : Fin k0_t3_loop.trips), ∀ (k0_h6 : k0_cond6 i k0_t1 = 1#1), ∀ a, (k0_off91 k0_t3) a + S1x16.size a ≤ S8x768.size a
  k0_off92_inb : ∀ (i : grid0.Coords) (k0_t1 : Fin k0_t1_loop.trips) (k0_t3 : Fin k0_t3_loop.trips), ∀ (k0_h6 : k0_cond6 i k0_t1 = 1#1), ∀ a, (k0_off92 k0_t3) a + S1x16.size a ≤ S8x768.size a
  k0_off93_inb : ∀ (i : grid0.Coords) (k0_t1 : Fin k0_t1_loop.trips) (k0_t3 : Fin k0_t3_loop.trips), ∀ (k0_h6 : k0_cond6 i k0_t1 = 1#1), ∀ a, (k0_off93 k0_t3) a + S1x16.size a ≤ S8x768.size a
  k0_off94_inb : ∀ (i : grid0.Coords) (k0_t1 : Fin k0_t1_loop.trips) (k0_t3 : Fin k0_t3_loop.trips), ∀ (k0_h6 : k0_cond6 i k0_t1 = 1#1), ∀ a, (k0_off94 k0_t3) a + S1x16.size a ≤ S8x768.size a
  k0_off95_inb : ∀ (i : grid0.Coords) (k0_t1 : Fin k0_t1_loop.trips) (k0_t3 : Fin k0_t3_loop.trips), ∀ (k0_h6 : k0_cond6 i k0_t1 = 1#1), ∀ a, (k0_off95 k0_t3) a + S1x16.size a ≤ S8x768.size a
  k0_off96_inb : ∀ (i : grid0.Coords) (k0_t1 : Fin k0_t1_loop.trips) (k0_t3 : Fin k0_t3_loop.trips), ∀ (k0_h6 : k0_cond6 i k0_t1 = 1#1), ∀ a, (k0_off96 k0_t3) a + S1x16.size a ≤ S8x768.size a
  k0_off97_inb : ∀ (i : grid0.Coords) (k0_t1 : Fin k0_t1_loop.trips) (k0_t3 : Fin k0_t3_loop.trips), ∀ (k0_h6 : k0_cond6 i k0_t1 = 1#1), ∀ a, (k0_off97 k0_t3) a + S1x16.size a ≤ S8x768.size a
  k0_off98_inb : ∀ (i : grid0.Coords) (k0_t1 : Fin k0_t1_loop.trips) (k0_t3 : Fin k0_t3_loop.trips), ∀ (k0_h6 : k0_cond6 i k0_t1 = 1#1), ∀ a, (k0_off98 k0_t3) a + S1x16.size a ≤ S8x768.size a
  k0_off99_inb : ∀ (i : grid0.Coords) (k0_t1 : Fin k0_t1_loop.trips) (k0_t3 : Fin k0_t3_loop.trips), ∀ (k0_h6 : k0_cond6 i k0_t1 = 1#1), ∀ a, (k0_off99 k0_t3) a + S1x16.size a ≤ S8x768.size a
  k0_off100_inb : ∀ (i : grid0.Coords) (k0_t1 : Fin k0_t1_loop.trips) (k0_t3 : Fin k0_t3_loop.trips), ∀ (k0_h6 : k0_cond6 i k0_t1 = 1#1), ∀ a, (k0_off100 k0_t3) a + S1x16.size a ≤ S8x768.size a
  k0_off101_inb : ∀ (i : grid0.Coords) (k0_t1 : Fin k0_t1_loop.trips) (k0_t3 : Fin k0_t3_loop.trips), ∀ (k0_h6 : k0_cond6 i k0_t1 = 1#1), ∀ a, (k0_off101 k0_t3) a + S1x16.size a ≤ S8x768.size a
  k0_off102_inb : ∀ (i : grid0.Coords) (k0_t1 : Fin k0_t1_loop.trips) (k0_t3 : Fin k0_t3_loop.trips), ∀ (k0_h6 : k0_cond6 i k0_t1 = 1#1), ∀ a, (k0_off102 k0_t3) a + S1x16.size a ≤ S8x768.size a
  k0_off103_inb : ∀ (i : grid0.Coords) (k0_t1 : Fin k0_t1_loop.trips) (k0_t3 : Fin k0_t3_loop.trips), ∀ (k0_h6 : k0_cond6 i k0_t1 = 1#1), ∀ a, (k0_off103 k0_t3) a + S1x16.size a ≤ S8x768.size a
  k0_off104_inb : ∀ (i : grid0.Coords) (k0_t1 : Fin k0_t1_loop.trips), ∀ (k0_h6 : k0_cond6 i k0_t1 = 1#1), ∀ (k0_h8 : k0_cond8 i k0_t1 = 1#1), ∀ a, (k0_off104 i k0_t1) a + S8x768.size a ≤ S24x115200.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16x38400.size a < S24x115200.size a
  hwx1_0 : ∀ i : grid1.Coords, EltTy.bits .f32 = 32 ∨ (Rect.unit (s := S24x115200) (fun a => cc1_transform_0 i a * S16x38400.size a) (fun a => (Pipeline.Clip.of (cc1_transform_0 i a) (S16x38400.size a) (S24x115200.size a)).extent (S16x38400.size a)) fun a => Pipeline.Clip.inb (Pipeline.Clip.ok_of (hstart1_0 i a))).WholeWords (EltTy.packing .f32)
  hwxs1_0 : ∀ i : grid1.Coords, EltTy.bits .f32 = 32 ∨ (Rect.unit (s := S16x38400) (fun _ => 0) (fun a => (Pipeline.Clip.of (cc1_transform_0 i a) (S16x38400.size a) (S24x115200.size a)).extent (S16x38400.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S16x38400.size a < S24x115200.size a
  hwx1_1 : ∀ i : grid1.Coords, EltTy.bits .f32 = 32 ∨ (Rect.unit (s := S24x115200) (fun a => cc1_transform_1 i a * S16x38400.size a) (fun a => (Pipeline.Clip.of (cc1_transform_1 i a) (S16x38400.size a) (S24x115200.size a)).extent (S16x38400.size a)) fun a => Pipeline.Clip.inb (Pipeline.Clip.ok_of (hstart1_1 i a))).WholeWords (EltTy.packing .f32)
  hwxs1_1 : ∀ i : grid1.Coords, EltTy.bits .f32 = 32 ∨ (Rect.unit (s := S16x38400) (fun _ => 0) (fun a => (Pipeline.Clip.of (cc1_transform_1 i a) (S16x38400.size a) (S24x115200.size a)).extent (S16x38400.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hstart1_2 : ∀ (i : grid1.Coords) a, cc1_transform_3 i a * S16x38400.size a < S24x115200.size a
  hwx1_2 : ∀ i : grid1.Coords, EltTy.bits .f32 = 32 ∨ (Rect.unit (s := S24x115200) (fun a => cc1_transform_3 i a * S16x38400.size a) (fun a => (Pipeline.Clip.of (cc1_transform_3 i a) (S16x38400.size a) (S24x115200.size a)).extent (S16x38400.size a)) fun a => Pipeline.Clip.inb (Pipeline.Clip.ok_of (hstart1_2 i a))).WholeWords (EltTy.packing .f32)
  hwxs1_2 : ∀ i : grid1.Coords, EltTy.bits .f32 = 32 ∨ (Rect.unit (s := S16x38400) (fun _ => 0) (fun a => (Pipeline.Clip.of (cc1_transform_3 i a) (S16x38400.size a) (S24x115200.size a)).extent (S16x38400.size a)) fun a => (Nat.zero_add _).trans_le (Pipeline.Clip.extent_le (Pipeline.Clip.ok_of (hstart1_2 i a)))).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9

abbrev win1_0 : Pipeline.Window sig grid1 :=
  Pipeline.Window.ofSpecClip (Memref.whole main_v1) S16x38400.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v3) S16x38400.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v5) S16x38400.size cc1_transform_3 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x115200x3 : Shape := ⟨3, ![8, 115200, 3]⟩

abbrev nBuf : Space → Nat
  | .hbm => 3
  | .vmem => 0
  | .smem => 0
  | _ => 0

abbrev bufTy : (tb : Table) → Fin (tcTables nBuf tb) → BufTy
  | .hbm, ⟨0, _⟩ => ⟨S8x115200x3, .f32⟩
  | .hbm, ⟨1, _⟩ => ⟨S8x115200x3, .f32⟩
  | .hbm, ⟨2, _⟩ => ⟨S8x115200x3, .f32⟩
  | _, _ => ⟨S8x115200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where

variable [Facts₀]

class Facts : Prop extends Facts₀ where

variable [Facts]
-- ==== Proof.Setup.lean ====
/-
  The program as the SparseCore launch theorem sees it, and the resource algebra of the proof: the launch
  handshakes' rounds, the TensorCore pipeline's staging cells' rounds, and the counters of the tiles' local copies.
-/
import proofs.«202046_g2697239462394_cont_9to1_340_20_alg».proof.Defs
import proofs.«202046_g2697239462394_cont_9to1_340_20_alg».proof.Proof.Gen.KernelIdeal
import proofs.«202046_g2697239462394_cont_9to1_340_20_alg».proof.Proof.Gen.KernelIdeal.Skeleton
import proofs.«202046_g2697239462394_cont_9to1_340_20_alg».proof.Proof.Gen.KernelIdeal.Launch
import proofs.«202046_g2697239462394_cont_9to1_340_20_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's staging cells' rounds: the left of the right factor. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KI

end
-- ==== Proof.Pay.lean ====
/-
  What the SparseCore call hands each vector subcore and takes back.

  The SparseCore kernel adds rows 16..24 of the two transposed inputs, chunk by chunk of 768 columns: chunk j
  (0 ≤ j < 150) is worked by the vector subcore numbered j mod 32 (subcore s of SparseCore c has number 2 s + c).
-/
import proofs.«202046_g2697239462394_cont_9to1_340_20_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays -/

abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v1
abbrev fLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v7

/-! ## The chunks -/

theorem chunk_inb (j : Fin 150) : ∀ a, (![16, 768 * j.val] : Fin 2 → Nat) a + S8x768.size a ≤ S24x115200.size a := by
  have := j.isLt
  intro a
  fin_cases a
  · show 16 + 8 ≤ 24; omega
  · show 768 * j.val + 768 ≤ 115200; omega

/-- Chunk `j`: rows 16..24, columns 768 j .. 768 (j + 1) of a [24, 115200] array. -/
abbrev chunkRect (j : Fin 150) : Rect S24x115200 := Rect.unit (s := S24x115200) ![16, 768 * j.val] S8x768.size (chunk_inb j)
abbrev chunkSet (j : Fin 150) : Finset S24x115200.Idx := (chunkRect j).set

/-- The number of vector subcore `i` of SparseCore `c`. -/
def wid (c : Fin 2) (i : Fin 16) : ℕ := 2 * i.val + c.val

/-- The chunks worked by vector subcore `i` of SparseCore `c`. -/
def chunksOf (c : Fin 2) (i : Fin 16) : Finset (Fin 150) := Finset.univ.filter fun j => j.val % 32 = wid c i

variable [FloatOps F]

-- the two transposed inputs and the result array's contents as the SparseCore call finds them
variable (X2 : (d : Dev nD) → Buf (Elt F) (xLoc d)) (F2 : (d : Dev nD) → Buf (Elt F) (fLoc d)) (O0 : (d : Dev nD) → Buf (Elt F) (oLoc d))

/-- One chunk of the three arrays, the result array's at `g`. -/
def piece (d : Dev nD) (g : Buf (Elt F) (oLoc d)) (j : Fin 150) : sProp 𝕄 :=
  iprop((xLoc d ↦[chunkSet j]{fullShare} X2 d) ∗ (fLoc d ↦[chunkSet j]{fullShare} F2 d) ∗ (oLoc d ↦[chunkSet j]{fullShare} g))

/-- What a vector subcore is handed: its chunks of the two inputs and of the result array, the latter at the launch
    contents; what it hands back: the same, the result array's chunks at the sum. -/
def goRes (d : Dev nD) (c : Fin 2) (i : Fin 16) : sProp 𝕄 := bigSep (chunksOf c i) (piece X2 F2 d (O0 d))
def tdRes (d : Dev nD) (c : Fin 2) (i : Fin 16) : sProp 𝕄 := bigSep (chunksOf c i) (piece X2 F2 d (addf (X2 d) (F2 d)))

def P : (K (F := F)).Pay (nD := nD) (Val := Elt F) (Name := ℕ) (U := UU) where
  st := fun q d c => match q with | 0 => bigSep Finset.univ fun i : Fin 16 => goRes X2 F2 O0 d (Fin.cast nCore_zero c) i
  dn := fun q d c => match q with | 0 => bigSep Finset.univ fun i : Fin 16 => tdRes X2 F2 d (Fin.cast nCore_zero c) i
  go := fun q d c i => match q with | 0 => goRes X2 F2 O0 d (Fin.cast nCore_zero c) (Fin.cast nSub_zero i)
  td := fun q d c i => match q with | 0 => tdRes X2 F2 d (Fin.cast nCore_zero c) (Fin.cast nSub_zero i)
  x := fun _ _ => iprop(emp)

instance P_storable : (P (F := F) X2 F2 O0).IsStorable where
  st q d c := match q with | 0 => by unfold P goRes piece; infer_instance
  dn q d c := match q with | 0 => by unfold P tdRes piece; infer_instance
  go q d c i := match q with | 0 => by unfold P goRes piece; infer_instance
  td q d c i := match q with | 0 => by unfold P tdRes piece; infer_instance

/-! ## A vector subcore's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

end Cert.Proof.KI

end
-- ==== Proof.TileBody.lean ====
/-
  One vector subcore's task: the SparseCore kernel's body run once, at a symbolic SparseCore and subcore.
-/
import proofs.«202046_g2697239462394_cont_9to1_340_20_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (X2 : (d : Dev nD) → Buf (Elt F) (xLoc d)) (F2 : (d : Dev nD) → Buf (Elt F) (fLoc d)) (O0 : (d : Dev nD) → Buf (Elt F) (oLoc d))

/-! ## The task of one vector subcore -/

section Tile

variable (d : Dev nD) (L : grid0.Coords)

abbrev A0 : Memref sig .scVector .vmem S8x768 .f32 := Memref.whole cc0_scratch0
abbrev B0 : Memref sig .scVector .vmem S8x768 .f32 := Memref.whole cc0_scratch1
abbrev A1 : Memref sig .scVector .vmem S8x768 .f32 := Memref.whole cc0_scratch2
abbrev B1 : Memref sig .scVector .vmem S8x768 .f32 := Memref.whole cc0_scratch3
abbrev O0m : Memref sig .scVector .vmem S8x768 .f32 := Memref.whole cc0_scratch4
abbrev O1m : Memref sig .scVector .vmem S8x768 .f32 := Memref.whole cc0_scratch5
abbrev XW : Memref sig .scVector .hbm S24x115200 .f32 := Memref.whole main_v1_scv
abbrev FW : Memref sig .scVector .hbm S24x115200 .f32 := Memref.whole main_v3_scv
abbrev OW : Memref sig .scVector .hbm S24x115200 .f32 := Memref.whole main_v4_scv
abbrev thrV (d : Dev nD) (L : grid0.Coords) : Thread nD τ := V d (cV L) (jV L)

/-- A window of a [24, 115200] array at given offsets, as the program slices it. -/
abbrev win (M : Memref sig .scVector .hbm S24x115200 .f32) (off : Fin 2 → Nat) (inb : ∀ a, off a + S8x768.size a ≤ S24x115200.size a) :
    Memref sig .scVector .hbm S8x768 .f32 := M.slice (Rect.unit (s := S24x115200) off S8x768.size inb) (fun _ => rfl)

/-- A memref's own elements held at the full share. -/
abbrev own {sp : Space} {S : Shape} (M : Memref sig .scVector sp S .f32) (f : Buf (Elt F) (M.view.loc (thrV d L))) : sProp 𝕄 :=
  M.view.loc (thrV d L) ↦[M.view.set]{fullShare} f
abbrev hold {sp : Space} {S : Shape} (M : Memref sig .scVector sp S .f32) (f : Buf (Elt F) (M.view.loc (thrV d L))) : sProp 𝕄 :=
  M.view.loc (thrV d L) ↦{fullShare} f

theorem c1 : ∀ L : grid0.Coords, k0_cond1 L = 1#1 := by decide +kernel
theorem c2 : ∀ L : grid0.Coords, k0_cond2 L = 1#1 := by decide +kernel
theorem c3_0 : ∀ L : grid0.Coords, k0_cond3 L ⟨0, by decide⟩ = 1#1 := by decide +kernel
theorem c3_1 : ∀ L : grid0.Coords, k0_cond3 L ⟨1, by decide⟩ = 1#1 := by decide +kernel
theorem c4_0 : ¬ k0_cond4 ⟨0, by decide⟩ = 1#1 := by decide +kernel
theorem c4_1 : k0_cond4 ⟨1, by decide⟩ = 1#1 := by decide +kernel
theorem c4_2 : k0_cond4 ⟨2, by decide⟩ = 1#1 := by decide +kernel
theorem c5_0 : ∀ L : grid0.Coords, k0_cond5 L ⟨0, by decide⟩ = 1#1 := by decide +kernel
theorem c5_1 : ∀ L : grid0.Coords, k0_cond5 L ⟨1, by decide⟩ = k0_cond3 L ⟨2, by decide⟩ := by decide +kernel
theorem c5_2 : ∀ L : grid0.Coords, ¬ k0_cond5 L ⟨2, by decide⟩ = 1#1 := by decide +kernel
theorem c6_0 : ∀ L : grid0.Coords, k0_cond6 L ⟨0, by decide⟩ = 1#1 := by decide +kernel
theorem c6_1 : ∀ L : grid0.Coords, k0_cond6 L ⟨1, by decide⟩ = 1#1 := by decide +kernel
theorem c6_2 : ∀ L : grid0.Coords, ¬ k0_cond6 L ⟨2, by decide⟩ = 1#1 := by decide +kernel
theorem c7_0 : ¬ k0_cond7 ⟨0, by decide⟩ = 1#1 := by decide +kernel
theorem c7_1 : k0_cond7 ⟨1, by decide⟩ = 1#1 := by decide +kernel
theorem c8_0 : ∀ L : grid0.Coords, k0_cond8 L ⟨0, by decide⟩ = 1#1 := by decide +kernel
theorem c8_1 : ∀ L : grid0.Coords, ¬ k0_cond8 L ⟨1, by decide⟩ = 1#1 := by decide +kernel

abbrev t0 : Fin k0_t1_loop.trips := ⟨0, by decide⟩
abbrev t1 : Fin k0_t1_loop.trips := ⟨1, by decide⟩
abbrev t2 : Fin k0_t1_loop.trips := ⟨2, by decide⟩

/-- One group's payload — the two loads cast to flat vectors, added, cast back — is their sum. -/
theorem pay_eq (v w : Vec F S1x16 .f32) :
    shapeCast S1x16 (addf (shapeCast S16 v shapeCasts_S1x16_S16) (shapeCast S16 w shapeCasts_S1x16_S16)) shapeCasts_S16_S1x16 = addf v w := by
  funext x
  simp only [shapeCast, addf, Shape.reshapeEquiv_reshapeEquiv, Shape.reshapeEquiv_self]

omit [FloatOps F] in
/-- A sixteen-lane group of row `r` holds no position of another row. -/
theorem not_mem_row {off : Fin 2 → ℕ} {inb : ∀ a, off a + S1x16.size a ≤ S8x768.size a} {y : S8x768.Idx} {r : ℕ} (h0 : off 0 = r) (hy : (y 0).val < r) :
    y ∉ (Rect.unit (s := S8x768) off S1x16.size inb).set := by
  rw [Rect.mem_set_unit]
  intro h
  have := (h 0).1
  omega

omit [FloatOps F] in
/-- A position of row `r` lies in the sixteen-lane group of that row at column `c` iff its column is one of the sixteen. -/
theorem mem_row_iff {y : S8x768.Idx} {r : ℕ} (hy : (y 0).val = r) (c : ℕ) (inb : ∀ a, (![r, c] : Fin 2 → ℕ) a + S1x16.size a ≤ S8x768.size a) :
    y ∈ (Rect.unit (s := S8x768) ![r, c] S1x16.size inb).set ↔ c ≤ (y 1).val ∧ (y 1).val < c + 16 := by
  rw [Rect.mem_set_unit, Fin.forall_fin_two]
  show (r ≤ (y 0).val ∧ (y 0).val < r + 1) ∧ (c ≤ (y 1).val ∧ (y 1).val < c + 16) ↔ _
  constructor
  · exact fun h => h.2
  · exact fun h => ⟨⟨by omega, by omega⟩, h⟩

/-- Splits a statement about every member of a literal list into one goal per member, and runs the tactic on each. -/
macro "pieces48 " t:tactic : tactic =>
  `(tactic| ((repeat' (first | (refine List.forall_mem_cons.2 ⟨?_, ?_⟩) | (exact fun _ h => absurd h List.not_mem_nil))) <;> $t))

omit [FloatOps F] in
/-- A position in a rectangle lies at or after the rectangle's first row. -/
theorem off0_le_of_mem {R : Rect S8x768} {y : S8x768.Idx} (hm : y ∈ R.set) : R.off 0 ≤ (y 0).val := by
  obtain ⟨j, -, e⟩ := (LoadRect.mem_set _).1 hm 0
  exact e ▸ Nat.le_add_right _ _

omit [FloatOps F] in
/-- A buffer's contents given a name. -/
theorem hold_name {ℓ : Loc nD τ sig} {I : Finset ℓ.ty.shape.Idx} {q} (f : Buf (Elt F) ℓ) :
    (ℓ ↦[I]{q} f : sProp 𝕄) ⊢ iprop(∃ c, ⌜c = f⌝ ∗ (ℓ ↦[I]{q} c)) := by
  iintro H; iexists f; isplitr
  · ipureintro; rfl
  · iexact H

/-- The sum of the two input scratch buffers' contents, as a function of the position. -/
abbrev sum0 (a : Buf (Elt F) ((thrV d L).loc cc0_scratch0)) (b : Buf (Elt F) ((thrV d L).loc cc0_scratch1)) : S8x768.Idx → Elt F .f32 :=
  addf (F := F) (s := S8x768) (φ := .f32) ((A0).view.read (Elt F) a) ((B0).view.read (Elt F) b)

/-- The row loop's invariant: the inputs' scratch buffers unchanged, the rows below `r` of the result's scratch buffer at the sum. -/
def rowInv0 (a : Buf (Elt F) ((thrV d L).loc cc0_scratch0)) (b : Buf (Elt F) ((thrV d L).loc cc0_scratch1)) (r : Nat) (_ : Unit) : sProp 𝕄 :=
  iprop(hold d L A0 a ∗ hold d L B0 b
    ∗ ∃ g : Buf (Elt F) ((thrV d L).loc cc0_scratch4), hold d L O0m g ∗ ⌜∀ y : S8x768.Idx, (y 0).val < r → (O0m).view.read (Elt F) g y = sum0 d L a b y⌝)

set_option maxHeartbeats 4000000 in
/-- One trip of the row loop: row `k`'s forty-eight sixteen-lane groups are stored at the sum. -/
theorem row0_step (t : Fin k0_t1_loop.trips) (h : k0_cond3 L t = 1#1) (k : Fin k0_t2_loop.trips)
    (a : Buf (Elt F) ((thrV d L).loc cc0_scratch0)) (b : Buf (Elt F) ((thrV d L).loc cc0_scratch1)) :
    rowInv0 d L a b k.val ⟨⟩
      ⊢ wp frame (wpE (defs₀ (F := F)) 𝒱₀ (thrV d L) none) Set.univ
          (k0_t2_body L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 t h k ⟨⟩)
          (rowInv0 d L a b (k.val + 1)) := by
  unfold k0_t2_body rowInv0
  iintro ⟨Ha, Hb, %g, Ho, %hg⟩
  sl_exec
  sl_step
  isplitl [Ha]; · iexact Ha
  isplitl [Hb]; · iexact Hb
  iexists _; isplitl [Ho]; · iexact Ho
  ipureintro
  intro y hy
  rcases Nat.lt_succ_iff_lt_or_eq.mp hy with hlt | heq
  · -- a row below `k`: no group of this trip touches it
    rw [View.read_writes_apply_of_forall_not_mem]
    · exact hg y hlt
    · pieces48 (intro hm; have h0 := off0_le_of_mem hm; simp only [Rect.off_unit] at h0; simp only [k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, Matrix.cons_val_zero] at h0; omega)
  · -- row `k`: some group covers the position, and every group holds the sum
    refine View.read_writes_apply_of_pieces (Val := Elt F) _ _ (sum0 d L a b) _ ?_ y ?_
    · sl_unfold_run_names
      pieces48 (intro x; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, pay_eq]; rfl)
    · by_contra hno
      push Not at hno
      simp only [List.forall_mem_cons, List.not_mem_nil, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq] at hno
      simp only [mem_row_iff heq] at hno
      have := (y 1).isLt
      have : (y 1).val < 768 := this
      omega

/-- The sum of the two input scratch buffers' contents, as a function of the position. -/
abbrev sum1 (a : Buf (Elt F) ((thrV d L).loc cc0_scratch2)) (b : Buf (Elt F) ((thrV d L).loc cc0_scratch3)) : S8x768.Idx → Elt F .f32 :=
  addf (F := F) (s := S8x768) (φ := .f32) ((A1).view.read (Elt F) a) ((B1).view.read (Elt F) b)

/-- The row loop's invariant: the inputs' scratch buffers unchanged, the rows below `r` of the result's scratch buffer at the sum. -/
def rowInv1 (a : Buf (Elt F) ((thrV d L).loc cc0_scratch2)) (b : Buf (Elt F) ((thrV d L).loc cc0_scratch3)) (r : Nat) (_ : Unit) : sProp 𝕄 :=
  iprop(hold d L A1 a ∗ hold d L B1 b
    ∗ ∃ g : Buf (Elt F) ((thrV d L).loc cc0_scratch5), hold d L O1m g ∗ ⌜∀ y : S8x768.Idx, (y 0).val < r → (O1m).view.read (Elt F) g y = sum1 d L a b y⌝)

set_option maxHeartbeats 4000000 in
/-- One trip of the row loop: row `k`'s forty-eight sixteen-lane groups are stored at the sum. -/
theorem row1_step (t : Fin k0_t1_loop.trips) (h : k0_cond6 L t = 1#1) (k : Fin k0_t3_loop.trips)
    (a : Buf (Elt F) ((thrV d L).loc cc0_scratch2)) (b : Buf (Elt F) ((thrV d L).loc cc0_scratch3)) :
    rowInv1 d L a b k.val ⟨⟩
      ⊢ wp frame (wpE (defs₀ (F := F)) 𝒱₀ (thrV d L) none) Set.univ
          (k0_t3_body L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 t h k ⟨⟩)
          (rowInv1 d L a b (k.val + 1)) := by
  unfold k0_t3_body rowInv1
  iintro ⟨Ha, Hb, %g, Ho, %hg⟩
  sl_exec
  sl_step
  isplitl [Ha]; · iexact Ha
  isplitl [Hb]; · iexact Hb
  iexists _; isplitl [Ho]; · iexact Ho
  ipureintro
  intro y hy
  rcases Nat.lt_succ_iff_lt_or_eq.mp hy with hlt | heq
  · -- a row below `k`: no group of this trip touches it
    rw [View.read_writes_apply_of_forall_not_mem]
    · exact hg y hlt
    · pieces48 (intro hm; have h0 := off0_le_of_mem hm; simp only [Rect.off_unit] at h0; simp only [k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, Matrix.cons_val_zero] at h0; omega)
  · -- row `k`: some group covers the position, and every group holds the sum
    refine View.read_writes_apply_of_pieces (Val := Elt F) _ _ (sum1 d L a b) _ ?_ y ?_
    · sl_unfold_run_names
      pieces48 (intro x; simp only [k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, pay_eq]; rfl)
    · by_contra hno
      push Not at hno
      simp only [List.forall_mem_cons, List.not_mem_nil, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq] at hno
      simp only [mem_row_iff heq] at hno
      have := (y 1).isLt
      have : (y 1).val < 768 := this
      omega

/-! ### The chunks as the program slices them -/

omit [FloatOps F] in
theorem wid_lt : wid (cL L) (jL L) < 32 := by
  have h0 : (L 0).val < 2 := (L 0).isLt
  have h1 : (L 1).val < 16 := (L 1).isLt
  show 2 * (L 1).val + (L 0).val < 32
  omega

/-- The `k`-th chunk of the subcore at `L`: chunk `wid + 32 k`. -/
abbrev ck (k : ℕ) (h : wid (cL L) (jL L) + 32 * k < 150) : Fin 150 := ⟨wid (cL L) (jL L) + 32 * k, h⟩

omit [FloatOps F] in
theorem off_ck {off : Fin 2 → ℕ} {m : ℕ} (k : ℕ) (h : wid (cL L) (jL L) + 32 * k < 150)
    (e : off = ![16, m]) (hm : m = 768 * (2 * (L 1).val + (L 0).val + 32 * k)) : off = ![16, 768 * (ck L k h).val] := by
  rw [e, hm]; rfl

omit [FloatOps F] in
theorem lt_k (k : ℕ) (hk : k ≤ 3) : wid (cL L) (jL L) + 32 * k < 150 := by have := wid_lt L; omega
abbrev j0 : Fin 150 := ck L 0 (lt_k L 0 (by decide))
abbrev j1 : Fin 150 := ck L 1 (lt_k L 1 (by decide))
abbrev j2 : Fin 150 := ck L 2 (lt_k L 2 (by decide))
abbrev j3 : Fin 150 := ck L 3 (lt_k L 3 (by decide))
abbrev j4 (h : wid (cL L) (jL L) + 32 * 4 < 150) : Fin 150 := ck L 4 h

omit [FloatOps F] in theorem ex0 : k0_off1 L = ![16, 768 * (j0 L).val] := off_ck L 0 _ (k0_off1_eq L) (by omega)
omit [FloatOps F] in theorem ex1 : k0_off2 L = ![16, 768 * (j1 L).val] := off_ck L 1 _ (k0_off2_eq L) (by omega)
omit [FloatOps F] in theorem ex2 : k0_off53 L t0 = ![16, 768 * (j2 L).val] := off_ck L 2 _ (k0_off53_eq L t0) (by simp only [t0]; omega)
omit [FloatOps F] in theorem ex3 : k0_off104 L t0 = ![16, 768 * (j3 L).val] := off_ck L 3 _ (k0_off104_eq L t0) (by simp only [t0]; omega)
omit [FloatOps F] in theorem ex4 (h) : k0_off53 L t1 = ![16, 768 * (j4 L h).val] := off_ck L 4 _ (k0_off53_eq L t1) (by simp only [t1]; omega)
omit [FloatOps F] in theorem eo0 : k0_off3 L t0 = ![16, 768 * (j0 L).val] := off_ck L 0 _ (k0_off3_eq L t0) (by simp only [t0]; omega)
omit [FloatOps F] in theorem eo1 : k0_off54 L t0 = ![16, 768 * (j1 L).val] := off_ck L 1 _ (k0_off54_eq L t0) (by simp only [t0]; omega)
omit [FloatOps F] in theorem eo2 : k0_off3 L t1 = ![16, 768 * (j2 L).val] := off_ck L 2 _ (k0_off3_eq L t1) (by simp only [t1]; omega)
omit [FloatOps F] in theorem eo3 : k0_off54 L t1 = ![16, 768 * (j3 L).val] := off_ck L 3 _ (k0_off54_eq L t1) (by simp only [t1]; omega)
omit [FloatOps F] in theorem eo4 (h) : k0_off3 L t2 = ![16, 768 * (j4 L h).val] := off_ck L 4 _ (k0_off3_eq L t2) (by simp only [t2]; omega)

omit [FloatOps F] in
/-- A window of the first input at a chunk's offsets holds exactly that chunk's positions. -/
theorem set_winX {off : Fin 2 → ℕ} {inb} (j : Fin 150) (e : off = ![16, 768 * j.val]) : (win XW off inb).view.set = chunkSet j := by
  subst e; exact View.set_slice_whole _ _
omit [FloatOps F] in
theorem set_winF {off : Fin 2 → ℕ} {inb} (j : Fin 150) (e : off = ![16, 768 * j.val]) : (win FW off inb).view.set = chunkSet j := by
  subst e; exact View.set_slice_whole _ _
omit [FloatOps F] in
theorem set_winO {off : Fin 2 → ℕ} {inb} (j : Fin 150) (e : off = ![16, 768 * j.val]) : (win OW off inb).view.set = chunkSet j := by
  subst e; exact View.set_slice_whole _ _

omit [FloatOps F] in
theorem pts_winX {off : Fin 2 → ℕ} {inb} (j : Fin 150) (e : off = ![16, 768 * j.val]) (f : Buf (Elt F) (xLoc d)) :
    (own d L (win XW off inb) f : sProp 𝕄) = (xLoc d ↦[chunkSet j]{fullShare} f) := by
  show ((win XW off inb).view.loc (thrV d L) ↦[(win XW off inb).view.set]{fullShare} f : sProp 𝕄) = _
  rw [set_winX j e]
omit [FloatOps F] in
theorem pts_winF {off : Fin 2 → ℕ} {inb} (j : Fin 150) (e : off = ![16, 768 * j.val]) (f : Buf (Elt F) (fLoc d)) :
    (own d L (win FW off inb) f : sProp 𝕄) = (fLoc d ↦[chunkSet j]{fullShare} f) := by
  show ((win FW off inb).view.loc (thrV d L) ↦[(win FW off inb).view.set]{fullShare} f : sProp 𝕄) = _
  rw [set_winF j e]
omit [FloatOps F] in
theorem pts_winO {off : Fin 2 → ℕ} {inb} (j : Fin 150) (e : off = ![16, 768 * j.val]) (f : Buf (Elt F) (oLoc d)) :
    (own d L (win OW off inb) f : sProp 𝕄) = (oLoc d ↦[chunkSet j]{fullShare} f) := by
  show ((win OW off inb).view.loc (thrV d L) ↦[(win OW off inb).view.set]{fullShare} f : sProp 𝕄) = _
  rw [set_winO j e]

omit [FloatOps F] in
theorem h4 (h32 : k0_cond3 L t2 = 1#1) : wid (cL L) (jL L) + 32 * 4 < 150 := by
  revert h32
  show k0_cond3 L t2 = 1#1 → 2 * (L 1).val + (L 0).val + 32 * 4 < 150
  revert L; decide +kernel
omit [FloatOps F] in
theorem h4' (h32 : ¬ k0_cond3 L t2 = 1#1) : ¬ wid (cL L) (jL L) + 32 * 4 < 150 := by
  revert h32
  show ¬ k0_cond3 L t2 = 1#1 → ¬ 2 * (L 1).val + (L 0).val + 32 * 4 < 150
  revert L; decide +kernel

omit [FloatOps F] in
/-- The subcore's chunks: five when the fifth is in range, else four. -/
theorem chunksOf_five (h : wid (cL L) (jL L) + 32 * 4 < 150) :
    chunksOf (cL L) (jL L) = {j0 L, j1 L, j2 L, j3 L, j4 L h} := by
  have hw := wid_lt L
  ext j
  simp only [chunksOf, Finset.mem_filter, Finset.mem_univ, true_and, Finset.mem_insert, Finset.mem_singleton, Fin.ext_iff]
  have := j.isLt
  omega
omit [FloatOps F] in
theorem chunksOf_four (h : ¬ wid (cL L) (jL L) + 32 * 4 < 150) :
    chunksOf (cL L) (jL L) = {j0 L, j1 L, j2 L, j3 L} := by
  have hw := wid_lt L
  ext j
  simp only [chunksOf, Finset.mem_filter, Finset.mem_univ, true_and, Finset.mem_insert, Finset.mem_singleton, Fin.ext_iff]
  have := j.isLt
  omega

omit [FloatOps F] in
/-- A product over the subcore's chunks, member by member. -/
theorem bigSep_five (h : wid (cL L) (jL L) + 32 * 4 < 150) (Φ : Fin 150 → sProp 𝕄) :
    bigSep (chunksOf (cL L) (jL L)) Φ = iprop(Φ (j0 L) ∗ Φ (j1 L) ∗ Φ (j2 L) ∗ Φ (j3 L) ∗ Φ (j4 L h)) := by
  rw [chunksOf_five L h,
    SparseCore.bigSep_insert' (by simp only [Finset.mem_insert, Finset.mem_singleton, Fin.ext_iff]; omega),
    SparseCore.bigSep_insert' (by simp only [Finset.mem_insert, Finset.mem_singleton, Fin.ext_iff]; omega),
    SparseCore.bigSep_insert' (by simp only [Finset.mem_insert, Finset.mem_singleton, Fin.ext_iff]; omega),
    SparseCore.bigSep_insert' (by simp only [Finset.mem_singleton, Fin.ext_iff]; omega), bigSep_singleton]
omit [FloatOps F] in
theorem bigSep_four (h : ¬ wid (cL L) (jL L) + 32 * 4 < 150) (Φ : Fin 150 → sProp 𝕄) :
    bigSep (chunksOf (cL L) (jL L)) Φ = iprop(Φ (j0 L) ∗ Φ (j1 L) ∗ Φ (j2 L) ∗ Φ (j3 L)) := by
  rw [chunksOf_four L h,
    SparseCore.bigSep_insert' (by simp only [Finset.mem_insert, Finset.mem_singleton, Fin.ext_iff]; omega),
    SparseCore.bigSep_insert' (by simp only [Finset.mem_insert, Finset.mem_singleton, Fin.ext_iff]; omega),
    SparseCore.bigSep_insert' (by simp only [Finset.mem_singleton, Fin.ext_iff]; omega), bigSep_singleton]

/-! ### The subcore's own semaphores and scratch buffers -/

abbrev s6 : GSem nD τ sig := (thrV d L, SemLoc.dma cc0_scratch6.sem)
abbrev s7 : GSem nD τ sig := (thrV d L, SemLoc.dma cc0_scratch7.sem)
abbrev s8 : GSem nD τ sig := (thrV d L, SemLoc.dma cc0_scratch8.sem)
abbrev s9 : GSem nD τ sig := (thrV d L, SemLoc.dma cc0_scratch9.sem)

omit [FloatOps F] in
theorem cell_ne {a b : SemLoc sig} (h : a ≠ b) : ((thrV d L, a) : GSem nD τ sig) ≠ (thrV d L, b) := fun e => h (Prod.ext_iff.1 e).2

omit [FloatOps F] in
theorem mem_own (a : SemLoc sig) (h : a.isScoped .scVector = true) : ((thrV d L, a) : GSem nD τ sig) ∈ ownCells (thrV d L) :=
  (mem_ownCells (g := (thrV d L, a))).mpr ⟨rfl, h⟩

omit [FloatOps F] in
/-- The four DMA semaphores are among the subcore's own: they are them, at zero, and the rest. -/
theorem ownSems0_V :
    (ownSems0 (thrV d L) : sProp 𝕄)
      = iprop(semVal (s6 d L) 0 ∗ semVal (s7 d L) 0 ∗ semVal (s8 d L) 0 ∗ semVal (s9 d L) 0
          ∗ bigSep (((((ownCells (thrV d L)).erase (s6 d L)).erase (s7 d L)).erase (s8 d L)).erase (s9 d L)) fun g => semVal g 0) := by
  unfold SparseCore.Cfg.ownSems0
  rw [SparseCore.bigSep_erase' (mem_own d L _ (by decide) : s6 d L ∈ _),
    SparseCore.bigSep_erase' (Finset.mem_erase.mpr ⟨cell_ne d L (by decide), (mem_own d L _ (by decide) : s7 d L ∈ _)⟩),
    SparseCore.bigSep_erase' (Finset.mem_erase.mpr ⟨cell_ne d L (by decide), Finset.mem_erase.mpr ⟨cell_ne d L (by decide),
      (mem_own d L _ (by decide) : s8 d L ∈ _)⟩⟩),
    SparseCore.bigSep_erase' (Finset.mem_erase.mpr ⟨cell_ne d L (by decide), Finset.mem_erase.mpr ⟨cell_ne d L (by decide),
      Finset.mem_erase.mpr ⟨cell_ne d L (by decide), (mem_own d L _ (by decide) : s9 d L ∈ _)⟩⟩⟩)]

abbrev dref (b : Ref sig .scVector) : DevRef τ sig := (Proc.scVector (cV L) (jV L)).devRef b

omit [FloatOps F] in
theorem dref_ne {a b : Ref sig .scVector} (h : a ≠ b) : dref L a ≠ dref L b := fun e => h (Proc.devRef_injective _ e)

omit [FloatOps F] in
theorem mem_ownR0 : dref L cc0_scratch0 ∈ ownRefs (τ := τ) (sig := sig) (.scVector (cV L) (jV L)) :=
  SparseCore.Cfg.mem_ownRefs_of_owner (p := Proc.scVector (cV L) (jV L)) (b := dref L cc0_scratch0) rfl
omit [FloatOps F] in
theorem mem_ownR1 : dref L cc0_scratch1 ∈ ownRefs (τ := τ) (sig := sig) (.scVector (cV L) (jV L)) :=
  SparseCore.Cfg.mem_ownRefs_of_owner (p := Proc.scVector (cV L) (jV L)) (b := dref L cc0_scratch1) rfl
omit [FloatOps F] in
theorem mem_ownR2 : dref L cc0_scratch2 ∈ ownRefs (τ := τ) (sig := sig) (.scVector (cV L) (jV L)) :=
  SparseCore.Cfg.mem_ownRefs_of_owner (p := Proc.scVector (cV L) (jV L)) (b := dref L cc0_scratch2) rfl
omit [FloatOps F] in
theorem mem_ownR3 : dref L cc0_scratch3 ∈ ownRefs (τ := τ) (sig := sig) (.scVector (cV L) (jV L)) :=
  SparseCore.Cfg.mem_ownRefs_of_owner (p := Proc.scVector (cV L) (jV L)) (b := dref L cc0_scratch3) rfl
omit [FloatOps F] in
theorem mem_ownR4 : dref L cc0_scratch4 ∈ ownRefs (τ := τ) (sig := sig) (.scVector (cV L) (jV L)) :=
  SparseCore.Cfg.mem_ownRefs_of_owner (p := Proc.scVector (cV L) (jV L)) (b := dref L cc0_scratch4) rfl
omit [FloatOps F] in
theorem mem_ownR5 : dref L cc0_scratch5 ∈ ownRefs (τ := τ) (sig := sig) (.scVector (cV L) (jV L)) :=
  SparseCore.Cfg.mem_ownRefs_of_owner (p := Proc.scVector (cV L) (jV L)) (b := dref L cc0_scratch5) rfl

omit [FloatOps F] in
/-- The six scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f) ∗ (∃ f, (thrV d L).loc cc0_scratch5 ↦{fullShare} f)
          ∗ bigSep (((((((ownRefs (τ := τ) (.scVector (cV L) (jV L))).erase (dref L cc0_scratch0)).erase (dref L cc0_scratch1)).erase (dref L cc0_scratch2)).erase
              (dref L cc0_scratch3)).erase (dref L cc0_scratch4)).erase (dref L cc0_scratch5))
              fun b => iprop(∃ f, ((d, b) : Loc nD τ sig) ↦{fullShare} f)) := by
  unfold SparseCore.Cfg.ownBufs
  refine (SparseCore.bigSep_erase' (mem_ownR0 L)).trans ?_
  rw [SparseCore.bigSep_erase' (Finset.mem_erase.mpr ⟨dref_ne L (by decide), mem_ownR1 L⟩),
    SparseCore.bigSep_erase' (Finset.mem_erase.mpr ⟨dref_ne L (by decide), Finset.mem_erase.mpr ⟨dref_ne L (by decide), mem_ownR2 L⟩⟩),
    SparseCore.bigSep_erase' (Finset.mem_erase.mpr ⟨dref_ne L (by decide), Finset.mem_erase.mpr ⟨dref_ne L (by decide),
      Finset.mem_erase.mpr ⟨dref_ne L (by decide), mem_ownR3 L⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), mem_ownR4 L⟩⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), Finset.mem_erase.mpr ⟨dref_ne L (by decide), mem_ownR5 L⟩⟩⟩⟩⟩)]

/-! ### What the run leaves -/

/-- What a chunk's write-back leaves in the result array at the chunk's positions: the sum of the inputs there. -/
theorem landed_at {offo offx c : Fin 2 → ℕ} {inbo inbx inbf} (eo : offo = c) (ex : offx = c)
    (x : Buf (Elt F) (xLoc d)) (f : Buf (Elt F) (fLoc d)) (base : Buf (Elt F) (oLoc d)) (pay : S8x768.Idx → Elt F .f32)
    (hpay : ∀ y, pay y = addf (F := F) (s := S8x768) (φ := .f32) ((win XW offx inbx).view.read (Elt F) x) ((win FW offx inbf).view.read (Elt F) f) y) :
    ∀ i ∈ (win OW offo inbo).view.set,
      (win OW offo inbo).view.writes (Elt F) base [⟨Rect.whole S8x768, pay⟩] i = (addf x f : Buf (Elt F) (oLoc d)) i := by
  subst eo; subst ex
  intro i hi
  obtain ⟨y, -, rfl⟩ := Finset.mem_map.mp hi
  have h := View.read_writes_cons_emb (win OW _ inbo).view base (Rect.whole S8x768) pay [] y
  rw [Rect.emb_whole_apply, View.read_apply] at h
  have h' := (cast_eq _ _).symm.trans h
  refine h'.trans ((hpay y).trans ?_)
  show FloatOps.addf ((win XW _ inbx).view.read (Elt F) x y) ((win FW _ inbf).view.read (Elt F) f y) = FloatOps.addf _ _
  rw [View.read_apply, View.read_apply]
  rw [cast_eq, cast_eq]
  rfl

omit [FloatOps F] in
/-- One more wait at the kernels' index recorded. -/
theorem waits_ins {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-- The six scratch buffers at some contents, and the subcore's other buffers. -/
def bufs6 : sProp 𝕄 :=
  iprop((∃ f, hold d L A0 f) ∗ (∃ f, hold d L B0 f) ∗ (∃ f, hold d L A1 f) ∗ (∃ f, hold d L B1 f) ∗ (∃ f, hold d L O0m f) ∗ (∃ f, hold d L O1m f)
          ∗ bigSep (((((((ownRefs (τ := τ) (.scVector (cV L) (jV L))).erase (dref L cc0_scratch0)).erase (dref L cc0_scratch1)).erase (dref L cc0_scratch2)).erase
              (dref L cc0_scratch3)).erase (dref L cc0_scratch4)).erase (dref L cc0_scratch5))
              fun b => iprop(∃ f, ((d, b) : Loc nD τ sig) ↦{fullShare} f))
/-- The four DMA semaphores at zero, and the subcore's other semaphores. -/
def sems4 : sProp 𝕄 :=
  iprop(semVal (thrV d L, SemLoc.dma cc0_scratch6.sem) 0 ∗ semVal (thrV d L, SemLoc.dma cc0_scratch7.sem) 0
          ∗ semVal (thrV d L, SemLoc.dma cc0_scratch8.sem) 0 ∗ semVal (thrV d L, SemLoc.dma cc0_scratch9.sem) 0
          ∗ bigSep (((((ownCells (thrV d L)).erase (s6 d L)).erase (s7 d L)).erase (s8 d L)).erase (s9 d L)) fun g => semVal g 0)

set_option maxHeartbeats 4000000 in
/-- The task with the subcore's chunks spelt out (five chunks: the fifth is in range). -/
theorem core5 (hF : (K (F := F)).Facts) (O : CellTallies nD τ sig (HIx 1)) (W : Waits sig (HIx 1)) (hO : ∀ g, O g none = 0) (h32 : k0_cond3 L t2 = 1#1) :
    iprop(levAts (K (F := F)).L (K (F := F)).lev ∗ emp ∗ (piece X2 F2 d (O0 d) (j0 L) ∗ piece X2 F2 d (O0 d) (j1 L) ∗ piece X2 F2 d (O0 d) (j2 L) ∗ piece X2 F2 d (O0 d) (j3 L) ∗ piece X2 F2 d (O0 d) (j4 L (h4 L h32)))
        ∗ bufs6 d L ∗ sems4 d L ∗ owes (thrV d L) O W)
      ⊢ wp frame (wpE (defs₀ (F := F)) 𝒱₀ (thrV d L) none) Set.univ
          (cc0__sc_add_band0 L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9)
          fun _ => iprop((piece X2 F2 d (addf (X2 d) (F2 d)) (j0 L) ∗ piece X2 F2 d (addf (X2 d) (F2 d)) (j1 L) ∗ piece X2 F2 d (addf (X2 d) (F2 d)) (j2 L) ∗ piece X2 F2 d (addf (X2 d) (F2 d)) (j3 L) ∗ piece X2 F2 d (addf (X2 d) (F2 d)) (j4 L (h4 L h32))) ∗ bufs6 d L ∗ sems4 d L
            ∗ ∃ W', ⌜∀ p ∈ W', p ∈ W ∨ p.2 = none⌝ ∗ owes (thrV d L) O W') := by
  have k0_h1 := c1 L
  have k0_h2 := c2 L
  have h30 := c3_0 L
  have h31 := c3_1 L
  have h40 := c4_0
  have h41 := c4_1
  have h42 := c4_2
  have h50 := c5_0 L
  have h51 : k0_cond5 L t1 = 1#1 := (c5_1 L).trans h32
  have h52 := c5_2 L
  have h60 := c6_0 L
  have h61 := c6_1 L
  have h62 := c6_2 L
  have h70 := c7_0
  have h71 := c7_1
  have h80 := c8_0 L
  have h81 := c8_1 L
  have _p0 : Transfers.BatchOf (thrV d L) (SemLoc.dma (sig := sig) cc0_scratch6.sem) 2 := trivial
  have _p1 : Transfers.BatchOf (thrV d L) (SemLoc.dma (sig := sig) cc0_scratch7.sem) 2 := trivial
  simp only [cc0__sc_add_band0_eq_skeleton]; unfold cc0__sc_add_band0_skel
  unfold bufs6 sems4 piece
  iintro ⟨#Hlv, -, ⟨⟨Hx0, Hf0, Ho0⟩, ⟨Hx1, Hf1, Ho1⟩, ⟨Hx2, Hf2, Ho2⟩, ⟨Hx3, Hf3, Ho3⟩, ⟨Hx4, Hf4, Ho4⟩⟩, ⟨⟨%a0, Ha0⟩, ⟨%b0, Hb0⟩, ⟨%a1, Ha1⟩, ⟨%b1, Hb1⟩, ⟨%o0, Hoo0⟩, ⟨%o1, Hoo1⟩, Hbufs⟩, ⟨Hs6, Hs7, Hs8, Hs9, Hsems⟩, HO⟩
  ihave Hmw := ((K (F := F)).mayWaits_none (thr := thrV d L) hO) $$ Hlv
  -- the chunks as the program's own windows
  ihave Hx0 := (Entails.of_eq (pts_winX d L (inb := k0_off1_inb L (c1 L)) _ (ex0 L) _).symm) $$ Hx0
  ihave Hf0 := (Entails.of_eq (pts_winF d L (inb := k0_off1_inb L (c1 L)) _ (ex0 L) _).symm) $$ Hf0
  ihave Ho0 := (Entails.of_eq (pts_winO d L (inb := k0_off3_inb L t0 (c3_0 L)) _ (eo0 L) _).symm) $$ Ho0
  ihave Hx1 := (Entails.of_eq (pts_winX d L (inb := k0_off2_inb L (c2 L)) _ (ex1 L) _).symm) $$ Hx1
  ihave Hf1 := (Entails.of_eq (pts_winF d L (inb := k0_off2_inb L (c2 L)) _ (ex1 L) _).symm) $$ Hf1
  ihave Ho1 := (Entails.of_eq (pts_winO d L (inb := k0_off54_inb L t0 (c6_0 L)) _ (eo1 L) _).symm) $$ Ho1
  ihave Hx2 := (Entails.of_eq (pts_winX d L (inb := k0_off53_inb L t0 (c3_0 L) (c5_0 L)) _ (ex2 L) _).symm) $$ Hx2
  ihave Hf2 := (Entails.of_eq (pts_winF d L (inb := k0_off53_inb L t0 (c3_0 L) (c5_0 L)) _ (ex2 L) _).symm) $$ Hf2
  ihave Ho2 := (Entails.of_eq (pts_winO d L (inb := k0_off3_inb L t1 (c3_1 L)) _ (eo2 L) _).symm) $$ Ho2
  ihave Hx3 := (Entails.of_eq (pts_winX d L (inb := k0_off104_inb L t0 (c6_0 L) (c8_0 L)) _ (ex3 L) _).symm) $$ Hx3
  ihave Hf3 := (Entails.of_eq (pts_winF d L (inb := k0_off104_inb L t0 (c6_0 L) (c8_0 L)) _ (ex3 L) _).symm) $$ Hf3
  ihave Ho3 := (Entails.of_eq (pts_winO d L (inb := k0_off54_inb L t1 (c6_1 L)) _ (eo3 L) _).symm) $$ Ho3
  ihave Hx4 := (Entails.of_eq (pts_winX d L (inb := k0_off53_inb L t1 (c3_1 L) ((c5_1 L).trans h32)) _ (ex4 L (h4 L h32)) _).symm) $$ Hx4
  ihave Hf4 := (Entails.of_eq (pts_winF d L (inb := k0_off53_inb L t1 (c3_1 L) ((c5_1 L).trans h32)) _ (ex4 L (h4 L h32)) _).symm) $$ Hf4
  ihave Ho4 := (Entails.of_eq (pts_winO d L (inb := k0_off3_inb L t2 h32) _ (eo4 L (h4 L h32)) _).symm) $$ Ho4
  sl_exec
  sl_unroll
  sl_exec
  -- chunk 0: parity 0, trip 0
  ihave Hn := (hold_name _) $$ Ha0
  icases Hn with ⟨%ca0, %hca0, Ha0⟩
  ihave Hn := (hold_name _) $$ Hb0
  icases Hn with ⟨%cb0, %hcb0, Hb0⟩
  sl_for (rowInv0 d L ca0 cb0) $$ [Ha0 Hb0 Hoo0]
  case region => exact fun k _ => row0_step d L _ h30 k ca0 cb0
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g0, Hoo0, %hg0⟩
  sl_exec
  -- chunk 1: parity 1, trip 0
  ihave Hn := (hold_name _) $$ Ha1
  icases Hn with ⟨%ca1, %hca1, Ha1⟩
  ihave Hn := (hold_name _) $$ Hb1
  icases Hn with ⟨%cb1, %hcb1, Hb1⟩
  sl_for (rowInv1 d L ca1 cb1) $$ [Ha1 Hb1 Hoo1]
  case region => exact fun k _ => row1_step d L _ h60 k ca1 cb1
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g1, Hoo1, %hg1⟩
  sl_exec
  -- chunk 2: parity 0, trip 1
  ihave Hn := (hold_name _) $$ Ha0
  icases Hn with ⟨%ca2, %hca2, Ha0⟩
  ihave Hn := (hold_name _) $$ Hb0
  icases Hn with ⟨%cb2, %hcb2, Hb0⟩
  sl_for (rowInv0 d L ca2 cb2) $$ [Ha0 Hb0 Hoo0]
  case region => exact fun k _ => row0_step d L _ h31 k ca2 cb2
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g2, Hoo0, %hg2⟩
  sl_exec
  -- chunk 3: parity 1, trip 1
  ihave Hn := (hold_name _) $$ Ha1
  icases Hn with ⟨%ca3, %hca3, Ha1⟩
  ihave Hn := (hold_name _) $$ Hb1
  icases Hn with ⟨%cb3, %hcb3, Hb1⟩
  sl_for (rowInv1 d L ca3 cb3) $$ [Ha1 Hb1 Hoo1]
  case region => exact fun k _ => row1_step d L _ h61 k ca3 cb3
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g3, Hoo1, %hg3⟩
  sl_exec
  -- chunk 4: parity 0, trip 2
  ihave Hn := (hold_name _) $$ Ha0
  icases Hn with ⟨%ca4, %hca4, Ha0⟩
  ihave Hn := (hold_name _) $$ Hb0
  icases Hn with ⟨%cb4, %hcb4, Hb0⟩
  sl_for (rowInv0 d L ca4 cb4) $$ [Ha0 Hb0 Hoo0]
  case region => exact fun k _ => row0_step d L _ h32 k ca4 cb4
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g4, Hoo0, %hg4⟩
  sl_exec
  sl_step
  -- the chunks of the result array hold the sum
  ihave Ho0 := (Entails.of_eq (pointsTo_congr (landed_at d (eo0 L) (ex0 L) (X2 d) (F2 d) _ _
      (fun y => (hg0 y (y 0).isLt).trans (by subst hca0 hcb0; simp only [sum0, View.read_write_univ]; rfl))))) $$ Ho0
  ihave Ho1 := (Entails.of_eq (pointsTo_congr (landed_at d (eo1 L) (ex1 L) (X2 d) (F2 d) _ _
      (fun y => (hg1 y (y 0).isLt).trans (by subst hca1 hcb1; simp only [sum1, View.read_write_univ]; rfl))))) $$ Ho1
  ihave Ho2 := (Entails.of_eq (pointsTo_congr (landed_at d (eo2 L) (ex2 L) (X2 d) (F2 d) _ _
      (fun y => (hg2 y (y 0).isLt).trans (by subst hca2 hcb2; simp only [sum0, View.read_write_univ]; rfl))))) $$ Ho2
  ihave Ho3 := (Entails.of_eq (pointsTo_congr (landed_at d (eo3 L) (ex3 L) (X2 d) (F2 d) _ _
      (fun y => (hg3 y (y 0).isLt).trans (by subst hca3 hcb3; simp only [sum1, View.read_write_univ]; rfl))))) $$ Ho3
  ihave Ho4 := (Entails.of_eq (pointsTo_congr (landed_at d (eo4 L (h4 L h32)) (ex4 L (h4 L h32)) (X2 d) (F2 d) _ _
      (fun y => (hg4 y (y 0).isLt).trans (by subst hca4 hcb4; simp only [sum0, View.read_write_univ]; rfl))))) $$ Ho4
  isplitl [Hx0 Hf0 Ho0 Hx1 Hf1 Ho1 Hx2 Hf2 Ho2 Hx3 Hf3 Ho3 Hx4 Hf4 Ho4]
  · isplitl [Hx0 Hf0 Ho0]
    · isplitl [Hx0]; · iapply (Entails.of_eq (pts_winX d L _ (ex0 L) _)); iexact Hx0
      isplitl [Hf0]; · iapply (Entails.of_eq (pts_winF d L _ (ex0 L) _)); iexact Hf0
      iapply (Entails.of_eq (pts_winO d L _ (eo0 L) _)); iexact Ho0
    isplitl [Hx1 Hf1 Ho1]
    · isplitl [Hx1]; · iapply (Entails.of_eq (pts_winX d L _ (ex1 L) _)); iexact Hx1
      isplitl [Hf1]; · iapply (Entails.of_eq (pts_winF d L _ (ex1 L) _)); iexact Hf1
      iapply (Entails.of_eq (pts_winO d L _ (eo1 L) _)); iexact Ho1
    isplitl [Hx2 Hf2 Ho2]
    · isplitl [Hx2]; · iapply (Entails.of_eq (pts_winX d L _ (ex2 L) _)); iexact Hx2
      isplitl [Hf2]; · iapply (Entails.of_eq (pts_winF d L _ (ex2 L) _)); iexact Hf2
      iapply (Entails.of_eq (pts_winO d L _ (eo2 L) _)); iexact Ho2
    isplitl [Hx3 Hf3 Ho3]
    · isplitl [Hx3]; · iapply (Entails.of_eq (pts_winX d L _ (ex3 L) _)); iexact Hx3
      isplitl [Hf3]; · iapply (Entails.of_eq (pts_winF d L _ (ex3 L) _)); iexact Hf3
      iapply (Entails.of_eq (pts_winO d L _ (eo3 L) _)); iexact Ho3
    isplitl [Hx4]; · iapply (Entails.of_eq (pts_winX d L _ (ex4 L (h4 L h32)) _)); iexact Hx4
    isplitl [Hf4]; · iapply (Entails.of_eq (pts_winF d L _ (ex4 L (h4 L h32)) _)); iexact Hf4
    iapply (Entails.of_eq (pts_winO d L _ (eo4 L (h4 L h32)) _)); iexact Ho4
  isplitl [Ha0 Hb0 Ha1 Hb1 Hoo0 Hoo1 Hbufs]
  · isplitl [Ha0]; · iexists _; iexact Ha0
    isplitl [Hb0]; · iexists _; iexact Hb0
    isplitl [Ha1]; · iexists _; iexact Ha1
    isplitl [Hb1]; · iexists _; iexact Hb1
    isplitl [Hoo0]; · iexists _; iexact Hoo0
    isplitl [Hoo1]; · iexists _; iexact Hoo1
    iexact Hbufs
  isplitl [Hs6 Hs7 Hs8 Hs9 Hsems]
  · isplitl [Hs6]; · iexact Hs6
    isplitl [Hs7]; · iexact Hs7
    isplitl [Hs8]; · iexact Hs8
    isplitl [Hs9]; · iexact Hs9
    iexact Hsems
  iexists _; isplitr
  rotate_left
  · iexact HO
  · ipureintro
    repeat apply waits_ins
    exact fun p hp => Or.inl hp

set_option maxHeartbeats 4000000 in
/-- The task with the subcore's chunks spelt out (four chunks: the fifth is out of range). -/
theorem core4 (hF : (K (F := F)).Facts) (O : CellTallies nD τ sig (HIx 1)) (W : Waits sig (HIx 1)) (hO : ∀ g, O g none = 0) (h32 : ¬ k0_cond3 L t2 = 1#1) :
    iprop(levAts (K (F := F)).L (K (F := F)).lev ∗ emp ∗ (piece X2 F2 d (O0 d) (j0 L) ∗ piece X2 F2 d (O0 d) (j1 L) ∗ piece X2 F2 d (O0 d) (j2 L) ∗ piece X2 F2 d (O0 d) (j3 L))
        ∗ bufs6 d L ∗ sems4 d L ∗ owes (thrV d L) O W)
      ⊢ wp frame (wpE (defs₀ (F := F)) 𝒱₀ (thrV d L) none) Set.univ
          (cc0__sc_add_band0 L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9)
          fun _ => iprop((piece X2 F2 d (addf (X2 d) (F2 d)) (j0 L) ∗ piece X2 F2 d (addf (X2 d) (F2 d)) (j1 L) ∗ piece X2 F2 d (addf (X2 d) (F2 d)) (j2 L) ∗ piece X2 F2 d (addf (X2 d) (F2 d)) (j3 L)) ∗ bufs6 d L ∗ sems4 d L
            ∗ ∃ W', ⌜∀ p ∈ W', p ∈ W ∨ p.2 = none⌝ ∗ owes (thrV d L) O W') := by
  have k0_h1 := c1 L
  have k0_h2 := c2 L
  have h30 := c3_0 L
  have h31 := c3_1 L
  have h40 := c4_0
  have h41 := c4_1
  have h42 := c4_2
  have h50 := c5_0 L
  have h51 : ¬ k0_cond5 L t1 = 1#1 := fun e => h32 ((c5_1 L).symm.trans e)
  have h52 := c5_2 L
  have h60 := c6_0 L
  have h61 := c6_1 L
  have h62 := c6_2 L
  have h70 := c7_0
  have h71 := c7_1
  have h80 := c8_0 L
  have h81 := c8_1 L
  have _p0 : Transfers.BatchOf (thrV d L) (SemLoc.dma (sig := sig) cc0_scratch6.sem) 2 := trivial
  have _p1 : Transfers.BatchOf (thrV d L) (SemLoc.dma (sig := sig) cc0_scratch7.sem) 2 := trivial
  simp only [cc0__sc_add_band0_eq_skeleton]; unfold cc0__sc_add_band0_skel
  unfold bufs6 sems4 piece
  iintro ⟨#Hlv, -, ⟨⟨Hx0, Hf0, Ho0⟩, ⟨Hx1, Hf1, Ho1⟩, ⟨Hx2, Hf2, Ho2⟩, ⟨Hx3, Hf3, Ho3⟩⟩, ⟨⟨%a0, Ha0⟩, ⟨%b0, Hb0⟩, ⟨%a1, Ha1⟩, ⟨%b1, Hb1⟩, ⟨%o0, Hoo0⟩, ⟨%o1, Hoo1⟩, Hbufs⟩, ⟨Hs6, Hs7, Hs8, Hs9, Hsems⟩, HO⟩
  ihave Hmw := ((K (F := F)).mayWaits_none (thr := thrV d L) hO) $$ Hlv
  -- the chunks as the program's own windows
  ihave Hx0 := (Entails.of_eq (pts_winX d L (inb := k0_off1_inb L (c1 L)) _ (ex0 L) _).symm) $$ Hx0
  ihave Hf0 := (Entails.of_eq (pts_winF d L (inb := k0_off1_inb L (c1 L)) _ (ex0 L) _).symm) $$ Hf0
  ihave Ho0 := (Entails.of_eq (pts_winO d L (inb := k0_off3_inb L t0 (c3_0 L)) _ (eo0 L) _).symm) $$ Ho0
  ihave Hx1 := (Entails.of_eq (pts_winX d L (inb := k0_off2_inb L (c2 L)) _ (ex1 L) _).symm) $$ Hx1
  ihave Hf1 := (Entails.of_eq (pts_winF d L (inb := k0_off2_inb L (c2 L)) _ (ex1 L) _).symm) $$ Hf1
  ihave Ho1 := (Entails.of_eq (pts_winO d L (inb := k0_off54_inb L t0 (c6_0 L)) _ (eo1 L) _).symm) $$ Ho1
  ihave Hx2 := (Entails.of_eq (pts_winX d L (inb := k0_off53_inb L t0 (c3_0 L) (c5_0 L)) _ (ex2 L) _).symm) $$ Hx2
  ihave Hf2 := (Entails.of_eq (pts_winF d L (inb := k0_off53_inb L t0 (c3_0 L) (c5_0 L)) _ (ex2 L) _).symm) $$ Hf2
  ihave Ho2 := (Entails.of_eq (pts_winO d L (inb := k0_off3_inb L t1 (c3_1 L)) _ (eo2 L) _).symm) $$ Ho2
  ihave Hx3 := (Entails.of_eq (pts_winX d L (inb := k0_off104_inb L t0 (c6_0 L) (c8_0 L)) _ (ex3 L) _).symm) $$ Hx3
  ihave Hf3 := (Entails.of_eq (pts_winF d L (inb := k0_off104_inb L t0 (c6_0 L) (c8_0 L)) _ (ex3 L) _).symm) $$ Hf3
  ihave Ho3 := (Entails.of_eq (pts_winO d L (inb := k0_off54_inb L t1 (c6_1 L)) _ (eo3 L) _).symm) $$ Ho3
  sl_exec
  sl_unroll
  sl_exec
  -- chunk 0: parity 0, trip 0
  ihave Hn := (hold_name _) $$ Ha0
  icases Hn with ⟨%ca0, %hca0, Ha0⟩
  ihave Hn := (hold_name _) $$ Hb0
  icases Hn with ⟨%cb0, %hcb0, Hb0⟩
  sl_for (rowInv0 d L ca0 cb0) $$ [Ha0 Hb0 Hoo0]
  case region => exact fun k _ => row0_step d L _ h30 k ca0 cb0
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g0, Hoo0, %hg0⟩
  sl_exec
  -- chunk 1: parity 1, trip 0
  ihave Hn := (hold_name _) $$ Ha1
  icases Hn with ⟨%ca1, %hca1, Ha1⟩
  ihave Hn := (hold_name _) $$ Hb1
  icases Hn with ⟨%cb1, %hcb1, Hb1⟩
  sl_for (rowInv1 d L ca1 cb1) $$ [Ha1 Hb1 Hoo1]
  case region => exact fun k _ => row1_step d L _ h60 k ca1 cb1
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g1, Hoo1, %hg1⟩
  sl_exec
  -- chunk 2: parity 0, trip 1
  ihave Hn := (hold_name _) $$ Ha0
  icases Hn with ⟨%ca2, %hca2, Ha0⟩
  ihave Hn := (hold_name _) $$ Hb0
  icases Hn with ⟨%cb2, %hcb2, Hb0⟩
  sl_for (rowInv0 d L ca2 cb2) $$ [Ha0 Hb0 Hoo0]
  case region => exact fun k _ => row0_step d L _ h31 k ca2 cb2
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g2, Hoo0, %hg2⟩
  sl_exec
  -- chunk 3: parity 1, trip 1
  ihave Hn := (hold_name _) $$ Ha1
  icases Hn with ⟨%ca3, %hca3, Ha1⟩
  ihave Hn := (hold_name _) $$ Hb1
  icases Hn with ⟨%cb3, %hcb3, Hb1⟩
  sl_for (rowInv1 d L ca3 cb3) $$ [Ha1 Hb1 Hoo1]
  case region => exact fun k _ => row1_step d L _ h61 k ca3 cb3
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g3, Hoo1, %hg3⟩
  sl_exec
  sl_step
  -- the chunks of the result array hold the sum
  ihave Ho0 := (Entails.of_eq (pointsTo_congr (landed_at d (eo0 L) (ex0 L) (X2 d) (F2 d) _ _
      (fun y => (hg0 y (y 0).isLt).trans (by subst hca0 hcb0; simp only [sum0, View.read_write_univ]; rfl))))) $$ Ho0
  ihave Ho1 := (Entails.of_eq (pointsTo_congr (landed_at d (eo1 L) (ex1 L) (X2 d) (F2 d) _ _
      (fun y => (hg1 y (y 0).isLt).trans (by subst hca1 hcb1; simp only [sum1, View.read_write_univ]; rfl))))) $$ Ho1
  ihave Ho2 := (Entails.of_eq (pointsTo_congr (landed_at d (eo2 L) (ex2 L) (X2 d) (F2 d) _ _
      (fun y => (hg2 y (y 0).isLt).trans (by subst hca2 hcb2; simp only [sum0, View.read_write_univ]; rfl))))) $$ Ho2
  ihave Ho3 := (Entails.of_eq (pointsTo_congr (landed_at d (eo3 L) (ex3 L) (X2 d) (F2 d) _ _
      (fun y => (hg3 y (y 0).isLt).trans (by subst hca3 hcb3; simp only [sum1, View.read_write_univ]; rfl))))) $$ Ho3
  isplitl [Hx0 Hf0 Ho0 Hx1 Hf1 Ho1 Hx2 Hf2 Ho2 Hx3 Hf3 Ho3]
  · isplitl [Hx0 Hf0 Ho0]
    · isplitl [Hx0]; · iapply (Entails.of_eq (pts_winX d L _ (ex0 L) _)); iexact Hx0
      isplitl [Hf0]; · iapply (Entails.of_eq (pts_winF d L _ (ex0 L) _)); iexact Hf0
      iapply (Entails.of_eq (pts_winO d L _ (eo0 L) _)); iexact Ho0
    isplitl [Hx1 Hf1 Ho1]
    · isplitl [Hx1]; · iapply (Entails.of_eq (pts_winX d L _ (ex1 L) _)); iexact Hx1
      isplitl [Hf1]; · iapply (Entails.of_eq (pts_winF d L _ (ex1 L) _)); iexact Hf1
      iapply (Entails.of_eq (pts_winO d L _ (eo1 L) _)); iexact Ho1
    isplitl [Hx2 Hf2 Ho2]
    · isplitl [Hx2]; · iapply (Entails.of_eq (pts_winX d L _ (ex2 L) _)); iexact Hx2
      isplitl [Hf2]; · iapply (Entails.of_eq (pts_winF d L _ (ex2 L) _)); iexact Hf2
      iapply (Entails.of_eq (pts_winO d L _ (eo2 L) _)); iexact Ho2
    isplitl [Hx3]; · iapply (Entails.of_eq (pts_winX d L _ (ex3 L) _)); iexact Hx3
    isplitl [Hf3]; · iapply (Entails.of_eq (pts_winF d L _ (ex3 L) _)); iexact Hf3
    iapply (Entails.of_eq (pts_winO d L _ (eo3 L) _)); iexact Ho3
  isplitl [Ha0 Hb0 Ha1 Hb1 Hoo0 Hoo1 Hbufs]
  · isplitl [Ha0]; · iexists _; iexact Ha0
    isplitl [Hb0]; · iexists _; iexact Hb0
    isplitl [Ha1]; · iexists _; iexact Ha1
    isplitl [Hb1]; · iexists _; iexact Hb1
    isplitl [Hoo0]; · iexists _; iexact Hoo0
    isplitl [Hoo1]; · iexists _; iexact Hoo1
    iexact Hbufs
  isplitl [Hs6 Hs7 Hs8 Hs9 Hsems]
  · isplitl [Hs6]; · iexact Hs6
    isplitl [Hs7]; · iexact Hs7
    isplitl [Hs8]; · iexact Hs8
    isplitl [Hs9]; · iexact Hs9
    iexact Hsems
  iexists _; isplitr
  rotate_left
  · iexact HO
  · ipureintro
    repeat apply waits_ins
    exact fun p hp => Or.inl hp

/-- One vector subcore's task: from its chunks of the inputs and of the result array, its scratch buffers and its
    semaphores at zero, the kernel runs to the end and leaves the result array's chunks at the sum. -/
theorem tile_body (hF : (K (F := F)).Facts) (O : CellTallies nD τ sig (HIx 1)) (W : Waits sig (HIx 1)) (hO : ∀ g, O g none = 0) :
    iprop(levAts (K (F := F)).L (K (F := F)).lev ∗ emp ∗ goRes X2 F2 O0 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_add_band0 L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9)
          fun _ => iprop(tdRes X2 F2 d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goRes tdRes
  by_cases h32 : k0_cond3 L t2 = 1#1
  · rw [bigSep_five L (h4 L h32), bigSep_five L (h4 L h32)]
    exact core5 X2 F2 O0 d L hF O W hO h32
  · rw [bigSep_four L (h4' L h32), bigSep_four L (h4' L h32)]
    exact core4 X2 F2 O0 d L hF O W hO h32

end Tile

end Cert.Proof.KI

end
-- ==== Proof.Launch.lean ====
/-
  The SparseCore launch theorem's obligations for the one vector-subcore call: the task of a vector subcore as the
  launch theorem states it, and how a SparseCore's operands split among its sixteen tasks.
-/
import proofs.«202046_g2697239462394_cont_9to1_340_20_alg».proof.Proof.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (X2 : (d : Dev nD) → Buf (Elt F) (xLoc d)) (F2 : (d : Dev nD) → Buf (Elt F) (fLoc d)) (O0 : (d : Dev nD) → Buf (Elt F) (oLoc d))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_add_band0 (coordsV c s)
          (Memref.whole main_v1_scv) (Memref.isWhole_whole _) (Memref.whole main_v3_scv) (Memref.isWhole_whole _)
          (Memref.whole main_v4_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P X2 F2 O0) v₀ 0 := by
  intro d c i O W hO _ _
  simp only [show (P X2 F2 O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X2 F2 O0 d (coordsV ⟨_, hc.1⟩ ⟨_, hc.2⟩) hF O W hO).trans (wp_mono frame _ _ fun _ => obl_post)

theorem vecSplit : (K (F := F)).VecSplit' (P X2 F2 O0) 0 := by
  intro d c
  show (bigSep Finset.univ fun i : Fin 16 => goRes X2 F2 O0 d (Fin.cast nCore_zero c) i) ⊢ |={Set.univ}=> iprop(
      (bigSep Finset.univ fun i : Fin 16 => goRes X2 F2 O0 d (Fin.cast nCore_zero c) i)
      ∗ ((bigSep Finset.univ fun i : Fin 16 => tdRes X2 F2 d (Fin.cast nCore_zero c) i)
          -∗ (bigSep Finset.univ fun i : Fin 16 => tdRes X2 F2 d (Fin.cast nCore_zero c) i)))
  iintro H; imodintro
  isplitl [H]; · iexact H
  iintro H; iexact H

end Cert.Proof.KI

end
-- ==== Proof.Region.lean ====
/-
  The TensorCore kernel's region, at the contents `V` of the TensorCore's arrays when the region is entered.
  The kernel adds its two input blocks into its output block: three blocks of [16, 38400] cover rows 0..16 of the
  [24, 115200] result array, whose rows 16..24 no block covers and which therefore keep what they held at entry.
-/
import proofs.«202046_g2697239462394_cont_9to1_340_20_alg».proof.Proof.Setup
import Idealize.ShloMosaic.Lib.Pipeline.FrameBody
import Idealize.ShloMosaic.Lib.Pipeline.FrameSuffix
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered
variable (V : (c : Dev nD) → (b : Ref sig .tc) → Buf (Elt F) ((c : Thread nD τ).loc b))

/-- The two input windows' blocks at point `t`, as the fetch reads them off the arrays the region finds. -/
def xblk (c : Dev nD) (t : Fin cfg1.N) : (win1_0.xblock (grid1.coords t)).Idx → Elt F .f32 :=
  (win1_0.blk t).view.read (Elt F) (V c main_v1)
def yblk (c : Dev nD) (t : Fin cfg1.N) : (win1_1.xblock (grid1.coords t)).Idx → Elt F .f32 :=
  (win1_1.blk t).view.read (Elt F) (V c main_v3)

/-- The pipeline's proof data on core `c`: the arrays as the region finds them; after the body at a point each input's
    staging buffer at its block and the output's at the two blocks' sum (filled out, where a block would pass the array's
    end, with a word nothing reads: no block here does); no invariant; nothing owed; full shares. -/
def dat1 (R : Set (SemLoc sig × HIx 1)) (c : Dev nD) : Dat τ (Elt F) (HIx 1) ℕ UU ℕ cfg1 c where
  A w := V c (Pipeline.arrRef spec1 w)
  after w t := match w with
    | ⟨0, _⟩ => win1_0.fill (grid1.coords t) (fun _ => Scalar.ofBits .f32 0#32) (xblk V c t)
    | ⟨1, _⟩ => win1_1.fill (grid1.coords t) (fun _ => Scalar.ofBits .f32 0#32) (yblk V c t)
    | ⟨2, _⟩ => fun J => FloatOps.addf (win1_0.fill (grid1.coords t) (fun _ => Scalar.ofBits .f32 0#32) (xblk V c t) J)
        (win1_1.fill (grid1.coords t) (fun _ => Scalar.ofBits .f32 0#32) (yblk V c t) J)
  Φ _ := iprop(emp)
  q _ := fullShare
  owed _ := 0
  recorded _ := R

/-- The unit-stride rectangle of a shape's own sizes at offsets that are all zero indexes the shape by the identity. -/
theorem emb_unit_zero {s : Shape} {off : Fin s.rank → Nat} (h : off = fun _ => 0) (inb : ∀ a, off a + s.size a ≤ s.size a)
    (x : (Rect.unit off s.size inb).shape.Idx) : (Rect.unit off s.size inb).emb x = x := by
  subst h; exact Rect.emb_whole_apply s x

set_option maxHeartbeats 1000000 in
/-- The kernel body on whole staging memrefs `a1`, `a2` of the two inputs at contents `X0`, `X1` and `a4` of the result at
    anything: the whole loads of the first two, their lane-wise sum, the dead load of the result's, the whole store — the
    result's memref ends holding `X0 + X1`, the other two what they held. The operand `a3` is named by no operation. -/
theorem sound_kernel1 (c : Dev nD) (E : Set ℕ) (i : grid1.Coords)
    (a1 : Memref sig .tc .vmem S16x38400 .f32) (h1 : a1.IsWhole) (a2 : Memref sig .tc .vmem S16x38400 .f32) (h2 : a2.IsWhole)
    (a3 : Memref sig .tc .hbm S24x115200 .f32) (h3 : a3.IsWhole)
    (a4 : Memref sig .tc .vmem S16x38400 .f32) (h4 : a4.IsWhole)
    (X0 X1 X2 : S16x38400.Idx → Elt F .f32) (K : PUnit → sProp 𝕄) :
    iprop((owns (c : Thread nD τ) a1 fullShare X0 ∗ owns (c : Thread nD τ) a2 fullShare X1
            ∗ owns (c : Thread nD τ) a4 fullShare X2)
          ∗ (iprop(owns (c : Thread nD τ) a1 fullShare X0 ∗ owns (c : Thread nD τ) a2 fullShare X1
                  ∗ owns (c : Thread nD τ) a4 fullShare (addf X0 X1)) -∗ K ⟨⟩))
      ⊢ wp frame (wpE (defs₀ (F := F)) Variants.none c none) E (cc1__tc_body i a1 h1 a2 h2 a3 h3 a4 h4) K := by
  simp only [cc1__tc_body_eq_skeleton]; unfold cc1__tc_body_skel
  unfold owns
  iintro ⟨⟨⟨%f0, %hf0, H0⟩, ⟨%f1, %hf1, H1⟩, ⟨%f2, %hf2, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the store's rectangle is the whole block at offsets zero: under it every index reads the payload, the sum of
  -- what the two loads read through the same rectangle, which is what the memrefs read at that index
  have hz : (![0, 0] : Fin 2 → Nat) = fun _ => 0 := funext fun a => by fin_cases a <;> rfl
  funext y
  have he := emb_unit_zero (s := S16x38400) hz inb_S16x38400_S16x38400_0_0 y
  have hw := View.read_writes_cons_emb a4.view f2 (Rect.unit (s := S16x38400) ![0, 0] S16x38400.size inb_S16x38400_S16x38400_0_0)
    (k1_pay1 (View.readAt (Elt F) a1.view (Rect.unit (s := S16x38400) ![0, 0] S16x38400.size inb_S16x38400_S16x38400_0_0).toLoadRect f0)
      (View.readAt (Elt F) a2.view (Rect.unit (s := S16x38400) ![0, 0] S16x38400.size inb_S16x38400_S16x38400_0_0).toLoadRect f1)) [] y
  rw [he] at hw
  rw [hw]
  unfold k1_pay1
  rw [shapeCast_self, shapeCast_self]
  show FloatOps.addf (View.read (Elt F) a1.view f0 ((Rect.unit (s := S16x38400) ![0, 0] S16x38400.size inb_S16x38400_S16x38400_0_0).emb y))
      (View.read (Elt F) a2.view f1 ((Rect.unit (s := S16x38400) ![0, 0] S16x38400.size inb_S16x38400_S16x38400_0_0).emb y))
    = FloatOps.addf (View.read (Elt F) a1.view f0 y) (View.read (Elt F) a2.view f1 y)
  rw [he]

/-! ## What the body finds in the staging buffers -/

/-- The inputs' buffers are just fetched at every point: the block on the part the fetch fills, `d` elsewhere; -/
theorem before1_0 (R : Set (SemLoc sig × HIx 1)) (c : Dev nD) (t : Fin cfg1.N) (d) :
    (dat1 V R c).before (0 : Fin 3) t d = win1_0.fill (grid1.coords t) d (xblk V c t) := by
  unfold Dat.before; rw [if_pos (fetch1_0 t)]; rfl
theorem before1_1 (R : Set (SemLoc sig × HIx 1)) (c : Dev nD) (t : Fin cfg1.N) (d) :
    (dat1 V R c).before (1 : Fin 3) t d = win1_1.fill (grid1.coords t) d (yblk V c t) := by
  unfold Dat.before; rw [if_pos (fetch1_1 t)]; rfl
/-- the result's, written back at every point, holds contents nothing names. -/
theorem before1_2 (R : Set (SemLoc sig × HIx 1)) (c : Dev nD) (t : Fin cfg1.N) (d) : (dat1 V R c).before (2 : Fin 3) t d = d :=
  (dat1 V R c).before_out_reset (2 : Fin 3) rfl t
    (by by_cases h : t.val = 0
        · exact .inl h
        · exact .inr ⟨h, flush1_2 _⟩) d

/-- The body obligation of the pipeline library, at every point. -/
theorem body_obligation1 (R : Set (SemLoc sig × HIx 1)) (c : Dev nD) : Pipeline.BodyObligationLoose (dat1 (F := F) V R c) (defs₀ (F := F)) Variants.none (none : HIx 1) Set.univ := fun t => by
  rw [bigSep_W1, bigSep_W1]
  simp only
  rw [show (dat1 V R c).Φ t.succ = (dat1 V R c).Φ t.castSucc from rfl,
    show (dat1 V R c).owesAt (none : HIx 1) t.succ = (dat1 V R c).owesAt (none : HIx 1) t.castSucc from rfl]
  iintro ⟨HΦ, Ho, ⟨%d0, H0⟩, ⟨%d1, H1⟩, ⟨%d2, H2⟩⟩
  rw [before1_0 V R c t d0, before1_1 V R c t d1, before1_2 V R c t d2]
  iapply (sound_kernel1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (Memref.whole main_v4) (Memref.isWhole_whole _)
    (win1_2.stage (cfg1.slots t 2)) (hstage1_2 ((cfg1.slots t 2).cast nbuf1_2))
    (win1_0.fill (grid1.coords t) d0 (xblk V c t)) (win1_1.fill (grid1.coords t) d1 (yblk V c t)) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- each buffer is handed back stated on the part its transfers move: the inputs' hold their blocks there
  -- (`Window.cut_fill`), the result's the two blocks' sum, whatever fills the three out elsewhere
  have hx : win1_0.cut (grid1.coords t) ((dat1 V R c).after (0 : Fin 3) t) = xblk V c t := win1_0.cut_fill _ _ _
  have hy : win1_1.cut (grid1.coords t) ((dat1 V R c).after (1 : Fin 3) t) = yblk V c t := win1_1.cut_fill _ _ _
  have hs : win1_2.cut (grid1.coords t) (addf (win1_0.fill (grid1.coords t) d0 (xblk V c t)) (win1_1.fill (grid1.coords t) d1 (yblk V c t)))
      = win1_2.cut (grid1.coords t) ((dat1 V R c).after (2 : Fin 3) t) := by
    funext j
    show FloatOps.addf (win1_0.fill (grid1.coords t) d0 (xblk V c t) (win1_0.xinj (grid1.coords t) j))
        (win1_1.fill (grid1.coords t) d1 (yblk V c t) (win1_1.xinj (grid1.coords t) j))
      = FloatOps.addf (win1_0.fill (grid1.coords t) (fun _ => Scalar.ofBits .f32 0#32) (xblk V c t) (win1_0.xinj (grid1.coords t) j))
        (win1_1.fill (grid1.coords t) (fun _ => Scalar.ofBits .f32 0#32) (yblk V c t) (win1_1.xinj (grid1.coords t) j))
    have a0 : ∀ d, win1_0.fill (grid1.coords t) d (xblk V c t) (win1_0.xinj (grid1.coords t) j) = xblk V c t j :=
      fun d => win1_0.fill_xinj (grid1.coords t) d (xblk V c t) j
    have a1 : ∀ d, win1_1.fill (grid1.coords t) d (yblk V c t) (win1_1.xinj (grid1.coords t) j) = yblk V c t j :=
      fun d => win1_1.fill_xinj (grid1.coords t) d (yblk V c t) j
    rw [a0 d0, a1 d1, a0, a1]
  isplitl [H0]
  · iexists d0
    rw [show (win1 0).cut (grid1.coords t) ((dat1 V R c).after 0 t) = xblk V c t from hx]; iexact H0
  isplitl [H1]
  · iexists d1
    rw [show (win1 1).cut (grid1.coords t) ((dat1 V R c).after 1 t) = yblk V c t from hy]; iexact H1
  · iexists addf (win1_0.fill (grid1.coords t) d0 (xblk V c t)) (win1_1.fill (grid1.coords t) d1 (yblk V c t))
    rw [show (win1 2).fill (grid1.coords t) (addf (win1_0.fill (grid1.coords t) d0 (xblk V c t)) (win1_1.fill (grid1.coords t) d1 (yblk V c t)))
        ((win1 2).cut (grid1.coords t) ((dat1 V R c).after 2 t))
      = addf (win1_0.fill (grid1.coords t) d0 (xblk V c t)) (win1_1.fill (grid1.coords t) d1 (yblk V c t)) from win1_2.fill_congr_cut _ hs]
    iexact H2

/-- The input arrays end as entered: no write-back touches them. -/
theorem arrAt1_in0 (R : Set (SemLoc sig × HIx 1)) (c : Dev nD) : (dat1 V R c).arrAt 0 cfg1.N = V c (Pipeline.arrRef spec1 0) :=
  (dat1 (F := F) V R c).arrAt_in (0 : Fin 3) rfl _
theorem arrAt1_in1 (R : Set (SemLoc sig × HIx 1)) (c : Dev nD) : (dat1 V R c).arrAt 1 cfg1.N = V c (Pipeline.arrRef spec1 1) :=
  (dat1 (F := F) V R c).arrAt_in (1 : Fin 3) rfl _

/-! ## The result array in closed form -/

/-- What each point writes back is its block of the two whole input arrays' lane-wise sum: the three windows' index
    maps and cuts agree, and a block of a lane-wise sum is the sum of the blocks (`View.read` is precomposition). -/
theorem flushed1_2 (R : Set (SemLoc sig × HIx 1)) (c : Dev nD) (t : Fin cfg1.N) :
    (dat1 V R c).flushed (2 : Fin 3) t
      = (win1_2.blk t).view.read (Elt F) (addf (V c main_v1) (V c main_v3) : FVec F S24x115200 .f32) := by
  funext j
  have a0 : win1_0.fill (grid1.coords t) (fun _ => Scalar.ofBits .f32 0#32) (xblk V c t) (win1_0.xinj (grid1.coords t) j) = xblk V c t j :=
    win1_0.fill_xinj (grid1.coords t) _ (xblk V c t) j
  have a1 : win1_1.fill (grid1.coords t) (fun _ => Scalar.ofBits .f32 0#32) (yblk V c t) (win1_1.xinj (grid1.coords t) j) = yblk V c t j :=
    win1_1.fill_xinj (grid1.coords t) _ (yblk V c t) j
  show FloatOps.addf (win1_0.fill (grid1.coords t) (fun _ => Scalar.ofBits .f32 0#32) (xblk V c t) (win1_0.xinj (grid1.coords t) j))
      (win1_1.fill (grid1.coords t) (fun _ => Scalar.ofBits .f32 0#32) (yblk V c t) (win1_1.xinj (grid1.coords t) j))
    = FloatOps.addf (xblk V c t j) (yblk V c t j)
  rw [a0, a1]

/-- The three blocks: all sixteen rows each, columns `38400 t` to `38400 (t + 1)`. -/
theorem blk_bounds1_2 (t : Fin cfg1.N) :
    win1_2.index t 0 * win1_2.size 0 = 0 ∧ win1_2.xsize (grid1.coords t) 0 = 16
      ∧ win1_2.index t 1 * win1_2.size 1 = t.val * 38400 ∧ win1_2.xsize (grid1.coords t) 1 = 38400 := by
  rcases fin_N1 t with rfl | rfl | rfl <;> decide +kernel

/-- An index of the array is in point `t`'s block iff its row is below 16 and its column among the block's. -/
theorem mem_blk1_2 (t : Fin cfg1.N) (i : S24x115200.Idx) :
    i ∈ (win1_2.blk t).view.set ↔ (i 0 : Nat) < 16 ∧ t.val * 38400 ≤ (i 1 : Nat) ∧ (i 1 : Nat) < t.val * 38400 + 38400 := by
  show i ∈ ((View.whole main_v5).slice (win1_2.rect t)).set ↔ _
  rw [View.set_slice_whole, Rect.mem_set_unit]
  obtain ⟨e0, e1, e2, e3⟩ := blk_bounds1_2 t
  constructor
  · intro h
    have h0 : win1_2.index t 0 * win1_2.size 0 ≤ (i 0 : Nat) ∧ (i 0 : Nat) < win1_2.index t 0 * win1_2.size 0 + win1_2.xsize (grid1.coords t) 0 := h (0 : Fin 2)
    have h1 : win1_2.index t 1 * win1_2.size 1 ≤ (i 1 : Nat) ∧ (i 1 : Nat) < win1_2.index t 1 * win1_2.size 1 + win1_2.xsize (grid1.coords t) 1 := h (1 : Fin 2)
    rw [e0, e1] at h0; rw [e2, e3] at h1
    exact ⟨by omega, h1.1, h1.2⟩
  · rintro ⟨h0, h1, h2⟩ a
    match a with
    | ⟨0, _⟩ =>
      change win1_2.index t 0 * win1_2.size 0 ≤ (i 0 : Nat) ∧ (i 0 : Nat) < win1_2.index t 0 * win1_2.size 0 + win1_2.xsize (grid1.coords t) 0
      rw [e0, e1]; omega
    | ⟨1, _⟩ =>
      change win1_2.index t 1 * win1_2.size 1 ≤ (i 1 : Nat) ∧ (i 1 : Nat) < win1_2.index t 1 * win1_2.size 1 + win1_2.xsize (grid1.coords t) 1
      rw [e2, e3]; omega

/-- The result array after the region: rows 0..16 the two inputs' sum, rows 16..24 as entered. -/
theorem arrAt1_out (R : Set (SemLoc sig × HIx 1)) (c : Dev nD) :
    (dat1 V R c).arrAt 2 cfg1.N = fun idx : S24x115200.Idx =>
      if (idx 0).val < 16 then (addf (V c main_v1) (V c main_v3) : FVec F S24x115200 .f32) idx else V c main_v5 idx := by
  funext idx
  -- the array ends holding the sum on the indices some point's block covers, its entry contents elsewhere; the three
  -- blocks are rows 0..16 of the column ranges [0, 38400), [38400, 76800), [76800, 115200): together, rows 0..16
  have hcov : (∃ t : Fin cfg1.N, (cfg1.win (2 : Fin 3)).flush t = true ∧ idx ∈ ((cfg1.win (2 : Fin 3)).blk t).view.set) ↔ (idx 0).val < 16 := by
    constructor
    · rintro ⟨t, -, hm⟩
      exact ((mem_blk1_2 t idx).mp hm).1
    · intro h
      have h1 : (idx 1 : Nat) < 115200 := (idx 1).isLt
      by_cases ha : (idx 1 : Nat) < 38400
      · exact ⟨t1_0, flush1_2 _, (mem_blk1_2 t1_0 idx).mpr ⟨h, by show 0 * 38400 ≤ _; omega, by show _ < 0 * 38400 + 38400; omega⟩⟩
      by_cases hb : (idx 1 : Nat) < 76800
      · exact ⟨t1_1, flush1_2 _, (mem_blk1_2 t1_1 idx).mpr ⟨h, by show 1 * 38400 ≤ _; omega, by show _ < 1 * 38400 + 38400; omega⟩⟩
      · exact ⟨t1_2, flush1_2 _, (mem_blk1_2 t1_2 idx).mpr ⟨h, by show 2 * 38400 ≤ _; omega, by show _ < 2 * 38400 + 38400; omega⟩⟩
  rw [(dat1 V R c).arrAt_eq_piecewise (2 : Fin 3) (addf (V c main_v1) (V c main_v3) : FVec F S24x115200 .f32)
    (fun t _ => flushed1_2 V R c t) idx]
  by_cases h : (idx 0).val < 16
  · rw [if_pos (hcov.mpr h), if_pos h]
  · rw [if_neg (fun hh => h (hcov.mp hh)), if_neg h]; rfl

end Cert.Proof.KI

end
-- ==== Proof.Split.lean ====
/-
  The [24, 115200] arrays cut into the 150 chunks of rows 16..24 and the rest (rows 0..16), and the chunks dealt to
  the 32 vector subcores: chunk j to the subcore numbered j mod 32.
-/
import proofs.«202046_g2697239462394_cont_9to1_340_20_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- An index lies in chunk `j` when its row is at least 16 and its column in [768 j, 768 j + 768). -/
theorem mem_chunkSet (j : Fin 150) (i : S24x115200.Idx) :
    i ∈ chunkSet j ↔ 16 ≤ (i 0).val ∧ 768 * j.val ≤ (i 1).val ∧ (i 1).val < 768 * j.val + 768 := by
  unfold chunkSet chunkRect
  rw [Rect.mem_set_unit]
  have h0 : (i 0).val < 24 := (i 0).isLt
  constructor
  · intro h
    have a := h 0; have b := h 1
    exact ⟨a.1, b.1, b.2⟩
  · rintro ⟨a, b, c⟩ x
    fin_cases x
    · exact ⟨a, show (i 0).val < 16 + 8 by omega⟩
    · exact ⟨b, c⟩

theorem chunk_disjoint : ∀ j ∈ (Finset.univ : Finset (Fin 150)), ∀ j' ∈ (Finset.univ : Finset (Fin 150)), j ≠ j' →
    Disjoint (chunkSet j) (chunkSet j') := by
  intro j _ j' _ hne
  refine Finset.disjoint_left.mpr fun i hi hi' => ?_
  rw [mem_chunkSet] at hi hi'
  exact hne (Fin.ext (by omega))

/-- Rows 16..24: the union of the chunks. -/
def band : Finset S24x115200.Idx := (Finset.univ : Finset (Fin 150)).biUnion chunkSet

theorem mem_band (i : S24x115200.Idx) : i ∈ band ↔ 16 ≤ (i 0).val := by
  unfold band
  rw [Finset.mem_biUnion]
  have h1 : (i 1).val < 115200 := (i 1).isLt
  constructor
  · rintro ⟨j, -, hj⟩; exact ((mem_chunkSet j i).mp hj).1
  · intro h
    refine ⟨⟨(i 1).val / 768, by omega⟩, Finset.mem_univ _, (mem_chunkSet _ i).mpr ⟨h, ?_, ?_⟩⟩
    · show 768 * ((i 1).val / 768) ≤ (i 1).val; omega
    · show (i 1).val < 768 * ((i 1).val / 768) + 768; omega

/-- Each chunk has one worker: the subcores' chunk sets are pairwise disjoint and cover the 150 chunks. -/
theorem chunksOf_disjoint : ∀ ci ∈ (Finset.univ : Finset (Fin 2 × Fin 16)), ∀ ci' ∈ (Finset.univ : Finset (Fin 2 × Fin 16)), ci ≠ ci' →
    Disjoint (chunksOf ci.1 ci.2) (chunksOf ci'.1 ci'.2) := by
  rintro ⟨c, i⟩ - ⟨c', i'⟩ - hne
  refine Finset.disjoint_left.mpr fun j hj hj' => hne ?_
  unfold chunksOf wid at hj hj'
  rw [Finset.mem_filter] at hj hj'
  have hc := c.isLt; have hc' := c'.isLt
  have e : 2 * i.val + c.val = 2 * i'.val + c'.val := hj.2.symm.trans hj'.2
  exact Prod.ext (Fin.ext (by omega)) (Fin.ext (by omega))

theorem chunksOf_cover : (Finset.univ : Finset (Fin 2 × Fin 16)).biUnion (fun ci => chunksOf ci.1 ci.2) = (Finset.univ : Finset (Fin 150)) := by
  ext j
  simp only [Finset.mem_biUnion, Finset.mem_univ, true_and, iff_true]
  refine ⟨(⟨j.val % 32 % 2, by omega⟩, ⟨j.val % 32 / 2, by omega⟩), ?_⟩
  unfold chunksOf wid
  rw [Finset.mem_filter]
  exact ⟨Finset.mem_univ _, by show j.val % 32 = 2 * (j.val % 32 / 2) + j.val % 32 % 2; omega⟩

/-- A family over the 150 chunks, regrouped by SparseCore and vector subcore. -/
theorem bigSep_chunks (Φ : Fin 150 → sProp 𝕄) :
    bigSep Finset.univ Φ = bigSep Finset.univ fun c : Fin 2 => bigSep Finset.univ fun i : Fin 16 => bigSep (chunksOf c i) Φ := by
  rw [← chunksOf_cover, SparseCore.Cfg.bigSep_biUnion_eq _ _ _ chunksOf_disjoint, bigSep_univ_prod]

end Cert.Proof.KI

end
-- ==== Proof.Deal.lean ====
/-
  The three [24, 115200] arrays of the SparseCore call dealt out as chunks and taken back: each whole array is its
  150 chunks of rows 16..24 and its rows 0..16; the result array comes back with its chunks at the sum and its
  rows 0..16 as they were.
-/
import proofs.«202046_g2697239462394_cont_9to1_340_20_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD)

omit [FloatOps F] in
theorem x_split (f : Buf (Elt F) (xLoc d)) :
    (xLoc d ↦{fullShare} f : sProp 𝕄)
      = iprop((bigSep Finset.univ fun j : Fin 150 => xLoc d ↦[chunkSet j]{fullShare} f) ∗ xLoc d ↦[Finset.univ \ band]{fullShare} f) := by
  have h : (xLoc d ↦[Finset.univ]{fullShare} f : sProp 𝕄) ⊣⊢ iprop((xLoc d ↦[band]{fullShare} f) ∗ xLoc d ↦[Finset.univ \ band]{fullShare} f) :=
    pointsTo_split_subset (Finset.subset_univ band)
  rw [show (xLoc d ↦{fullShare} f : sProp 𝕄) = (xLoc d ↦[Finset.univ]{fullShare} f) from rfl, BI.equiv_iff.mp ⟨h.1, h.2⟩]
  unfold band
  rw [pointsTo_biUnion (ℓ := xLoc d) (q := fullShare) (f := f) Finset.univ chunkSet chunk_disjoint]

omit [FloatOps F] in
theorem f_split (f : Buf (Elt F) (fLoc d)) :
    (fLoc d ↦{fullShare} f : sProp 𝕄)
      = iprop((bigSep Finset.univ fun j : Fin 150 => fLoc d ↦[chunkSet j]{fullShare} f) ∗ fLoc d ↦[Finset.univ \ band]{fullShare} f) := by
  have h : (fLoc d ↦[Finset.univ]{fullShare} f : sProp 𝕄) ⊣⊢ iprop((fLoc d ↦[band]{fullShare} f) ∗ fLoc d ↦[Finset.univ \ band]{fullShare} f) :=
    pointsTo_split_subset (Finset.subset_univ band)
  rw [show (fLoc d ↦{fullShare} f : sProp 𝕄) = (fLoc d ↦[Finset.univ]{fullShare} f) from rfl, BI.equiv_iff.mp ⟨h.1, h.2⟩]
  unfold band
  rw [pointsTo_biUnion (ℓ := fLoc d) (q := fullShare) (f := f) Finset.univ chunkSet chunk_disjoint]

omit [FloatOps F] in
theorem o_split (f : Buf (Elt F) (oLoc d)) :
    (oLoc d ↦{fullShare} f : sProp 𝕄)
      = iprop((bigSep Finset.univ fun j : Fin 150 => oLoc d ↦[chunkSet j]{fullShare} f) ∗ oLoc d ↦[Finset.univ \ band]{fullShare} f) := by
  have h : (oLoc d ↦[Finset.univ]{fullShare} f : sProp 𝕄) ⊣⊢ iprop((oLoc d ↦[band]{fullShare} f) ∗ oLoc d ↦[Finset.univ \ band]{fullShare} f) :=
    pointsTo_split_subset (Finset.subset_univ band)
  rw [show (oLoc d ↦{fullShare} f : sProp 𝕄) = (oLoc d ↦[Finset.univ]{fullShare} f) from rfl, BI.equiv_iff.mp ⟨h.1, h.2⟩]
  unfold band
  rw [pointsTo_biUnion (ℓ := oLoc d) (q := fullShare) (f := f) Finset.univ chunkSet chunk_disjoint]

omit [FloatOps F] in
/-- The result array put back together: its chunks at `g`, its rows 0..16 at `h`. -/
theorem o_join (g h : Buf (Elt F) (oLoc d)) :
    iprop((bigSep Finset.univ fun j : Fin 150 => oLoc d ↦[chunkSet j]{fullShare} g) ∗ oLoc d ↦[Finset.univ \ band]{fullShare} h)
      ⊢ (oLoc d ↦{fullShare} (band.piecewise g h) : sProp 𝕄) := by
  have e : (oLoc d ↦[band]{fullShare} g : sProp 𝕄) = bigSep Finset.univ fun j : Fin 150 => oLoc d ↦[chunkSet j]{fullShare} g := by
    unfold band; exact pointsTo_biUnion (ℓ := oLoc d) (q := fullShare) (f := g) Finset.univ chunkSet chunk_disjoint
  rw [← e]
  exact pointsTo_join_subset (ℓ := oLoc d) (I := band) (S := Finset.univ) (q := fullShare) (f := h) (g := g) (Finset.subset_univ band)

variable (X2 : (d : Dev nD) → Buf (Elt F) (xLoc d)) (F2 : (d : Dev nD) → Buf (Elt F) (fLoc d))

theorem pieces_eq (g : Buf (Elt F) (oLoc d)) :
    bigSep Finset.univ (piece X2 F2 d g)
      = iprop((bigSep Finset.univ fun j : Fin 150 => xLoc d ↦[chunkSet j]{fullShare} X2 d)
          ∗ (bigSep Finset.univ fun j : Fin 150 => fLoc d ↦[chunkSet j]{fullShare} F2 d)
          ∗ (bigSep Finset.univ fun j : Fin 150 => (oLoc d ↦[chunkSet j]{fullShare} g : sProp 𝕄))) := by
  unfold piece
  rw [bigSep_sep', bigSep_sep']

end Cert.Proof.KI

end
-- ==== Proof.Vals.lean ====
/-
  The values along @main: the host operations, the buffer contents at each boundary (the launch, the SparseCore
  call, the TensorCore kernel's region entry and exit, the return), and the TensorCore pipeline's proof data.
-/
import proofs.«202046_g2697239462394_cont_9to1_340_20_alg».proof.Proof.Launch
import proofs.«202046_g2697239462394_cont_9to1_340_20_alg».proof.Proof.Region
import proofs.«202046_g2697239462394_cont_9to1_340_20_alg».proof.Proof.Deal
import Idealize.ShloMosaic.Lib.Pipeline.RegionsLoop

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations before the SparseCore call, and the arrays the call finds -/

abbrev op0 : HloOp τ sig (Elt F) := StableHlo.unary main_arg0 main_v0 ((transpose S3x8x115200 [2, 0, 1] · transposes_S8x115200x3_S3x8x115200_2_0_1) : (⟨S8x115200x3, .f32⟩ : BufTy).Contents (Elt F) → (⟨S3x8x115200, .f32⟩ : BufTy).Contents (Elt F))
abbrev op1 : HloOp τ sig (Elt F) := StableHlo.reshape main_v0 main_v1 rfl shapeCasts_S3x8x115200_S24x115200
abbrev op2 : HloOp τ sig (Elt F) := StableHlo.unary main_arg1 main_v2 ((transpose S3x8x115200 [2, 0, 1] · transposes_S8x115200x3_S3x8x115200_2_0_1) : (⟨S8x115200x3, .f32⟩ : BufTy).Contents (Elt F) → (⟨S3x8x115200, .f32⟩ : BufTy).Contents (Elt F))
abbrev op3 : HloOp τ sig (Elt F) := StableHlo.reshape main_v2 main_v3 rfl shapeCasts_S3x8x115200_S24x115200
abbrev opsA : List (HloOp τ sig (Elt F)) := [op0, op1, op2, op3]

/-- The launch valuation of device `d`, and the valuation after the four host operations. -/
def V0 (d : Dev nD) : Valuation τ sig (Elt F) := fun b => m (d, b)
def VA (d : Dev nD) : Valuation τ sig (Elt F) := StableHlo.after opsA (V0 m d)

/-- The transposed inputs, and the SparseCore call's result array as it finds it. -/
def X2 (d : Dev nD) : Buf (Elt F) (xLoc d) := VA m d (Proc.devRef .tc (main_v1 : Ref sig .tc))
def F2 (d : Dev nD) : Buf (Elt F) (fLoc d) := VA m d (Proc.devRef .tc (main_v3 : Ref sig .tc))
def O0 (d : Dev nD) : Buf (Elt F) (oLoc d) := VA m d (Proc.devRef .tc (main_v4 : Ref sig .tc))

abbrev PP : (K (F := F)).Pay (nD := nD) (Val := Elt F) (Name := ℕ) (U := UU) := P (X2 m) (F2 m) (O0 m)

/-! ## The pipeline's tables: none -/

abbrev adm : (p : Fin 1) → (pcfgs (F := F) p).Adm := fun p => (cfgs p).toPCfg_adm

/-! ## The TensorCore's buffers -/

/-- The TensorCore's unscoped buffers: @main's ten arrays. -/
abbrev UC : Finset (DevRef τ sig) := Pipeline.ucRefs τ sig

theorem hop0 : (op0 (F := F)).bufs ⊆ UC := Pipeline.sub_ucRefs _ (StableHlo.unary_bufs_sub ..)
theorem hop1 : (op1 (F := F)).bufs ⊆ UC := Pipeline.sub_ucRefs _ (StableHlo.reshape_bufs_sub ..)
theorem hop2 : (op2 (F := F)).bufs ⊆ UC := Pipeline.sub_ucRefs _ (StableHlo.unary_bufs_sub ..)
theorem hop3 : (op3 (F := F)).bufs ⊆ UC := Pipeline.sub_ucRefs _ (StableHlo.reshape_bufs_sub ..)

/-- What @main leaves the claim: the two inputs at their launch contents, the result at their sum. -/
def FIN (d : Dev nD) : sProp 𝕄 :=
  iprop((a0Loc d ↦{fullShare} m (a0Loc d)) ∗ (a1Loc d ↦{fullShare} m (a1Loc d))
    ∗ (rLoc d ↦{fullShare} (addf (m (a0Loc d)) (m (a1Loc d)) : Buf (Elt F) (rLoc d))))

/-! ### The SparseCore call's operands out of the held buffers and back -/

abbrev x' : DevRef τ sig := Proc.devRef .tc (main_v1 : Ref sig .tc)
abbrev f' : DevRef τ sig := Proc.devRef .tc (main_v3 : Ref sig .tc)
abbrev o' : DevRef τ sig := Proc.devRef .tc (main_v4 : Ref sig .tc)
abbrev T3 : Finset (DevRef τ sig) := {x', f', o'}

theorem mem_uc (b : Ref sig .tc) (h : ¬ (Proc.devRef .tc b : DevRef τ sig).isScoped) : Proc.devRef .tc b ∈ UC :=
  Finset.mem_filter.mpr ⟨StableHlo.devRef_mem_tcRefs b, h⟩

theorem hT3 : T3 ⊆ UC := by
  intro b hb
  simp only [T3, Finset.mem_insert, Finset.mem_singleton] at hb
  rcases hb with rfl | rfl | rfl
  · exact mem_uc main_v1 (by decide)
  · exact mem_uc main_v3 (by decide)
  · exact mem_uc main_v4 (by decide)

omit [FloatOps F] in
theorem held_T3 (d : Dev nD) (W : Valuation τ sig (Elt F)) :
    (held (SparseCore.T d) T3 W : sProp 𝕄) = iprop((xLoc d ↦{fullShare} W x') ∗ (fLoc d ↦{fullShare} W f') ∗ (oLoc d ↦{fullShare} W o')) := by
  unfold held T3
  rw [SparseCore.bigSep_insert' (by decide), SparseCore.bigSep_insert' (by decide), bigSep_singleton]

/-- The result array after the SparseCore call: rows 16..24 the two inputs' sum, rows 0..16 as before; and the
    valuation with it. -/
def G1 (d : Dev nD) : Buf (Elt F) (oLoc d) := band.piecewise (addf (X2 m d) (F2 m d)) (O0 m d)
def V1 (d : Dev nD) : Valuation τ sig (Elt F) := Function.update (VA m d) o' (G1 m d)

theorem V1_x (d : Dev nD) : V1 m d x' = X2 m d := Function.update_of_ne (show x' ≠ o' by decide) _ _
theorem V1_f (d : Dev nD) : V1 m d f' = F2 m d := Function.update_of_ne (show f' ≠ o' by decide) _ _
theorem V1_o (d : Dev nD) : V1 m d o' = G1 m d := Function.update_self _ _ _
theorem V1_rest (d : Dev nD) : ∀ b ∈ UC \ T3, V1 m d b = VA m d b := fun b hb =>
  Function.update_of_ne (fun e => (Finset.mem_sdiff.mp hb).2 (by rw [e]; simp [T3])) _ _

abbrev op4 : HloOp τ sig (Elt F) := StableHlo.unary main_v4 main_v5 id
theorem hop4 : (op4 (F := F)).bufs ⊆ UC := Pipeline.sub_ucRefs _ (StableHlo.unary_bufs_sub ..)
/-- The valuation the TensorCore kernel's region is entered from: the result array copied into the kernel's own. -/
def WR (d : Dev nD) : Valuation τ sig (Elt F) := (op4 (F := F)).result (V1 m d)

/-! ### The TensorCore kernel's region, as a segment of @main -/

/-- The region-entry contents read at the TensorCore's references. -/
abbrev VR (c : Dev nD) (b : Ref sig .tc) : Buf (Elt F) ((c.tc : Thread nD τ).loc b) := WR m c (Proc.devRef .tc b)

/-- The pipeline's proof data at the region-entry contents; `R` bounds the wait pairs recorded before the region. -/
def pdats (R : Set (SemLoc sig × HIx 1)) :
    (p : Fin 1) → (c : Dev nD) → Pipeline.Dat τ (Elt F) (HIx 1) ℕ UU ℕ (Pipeline.pin (pcfgs (F := F)) adm p) c
  | ⟨0, _⟩ => fun c => dat1 (VR m) R c

/-- The contents at the region's exit: its arrays at what the pipeline leaves, every other buffer as entered. -/
def WX (R : Set (SemLoc sig × HIx 1)) (c : Dev nD) : Valuation τ sig (Elt F) :=
  Pipeline.withArrays spec1 c (WR m c) fun w => (dat1 (VR m) R c).arrAt w cfg1.N

theorem WX_arr (R : Set (SemLoc sig × HIx 1)) (c : Dev nD) (w : Fin cfg1.W) :
    WX m R c (Proc.devRef .tc (Pipeline.arrRef spec1 w)) = (dat1 (VR m) R c).arrAt w cfg1.N := by
  unfold WX; exact Pipeline.withArrays_arr spec1 launch1.win.arr_inj c _ _ w
theorem WX_of_ne (R : Set (SemLoc sig × HIx 1)) (c : Dev nD) (b : Ref sig .tc) (hb : ∀ w, Pipeline.arrRef spec1 w ≠ b) :
    WX m R c (Proc.devRef .tc b) = WR m c (Proc.devRef .tc b) := by
  unfold WX; exact Pipeline.withArrays_of_ne spec1 c _ _ b hb

abbrev VX (R : Set (SemLoc sig × HIx 1)) (c : Dev nD) (b : Ref sig .tc) : Buf (Elt F) ((c.tc : Thread nD τ).loc b) := WX m R c (Proc.devRef .tc b)

theorem hF1 (R : Set (SemLoc sig × HIx 1)) (c : Dev nD) (w : Fin cfg1.W) :
    (dat1 (VR m) R c).arrAt w cfg1.N = VX m R c (Pipeline.arrRef spec1 w) := (WX_arr m R c w).symm
theorem hrest1 (R : Set (SemLoc sig × HIx 1)) (c : Dev nD) :
    ∀ b, b ∉ Finset.univ.image (Pipeline.arrRef spec1) → VX m R c b = VR m c b :=
  fun b hb => WX_of_ne m R c b fun w e => hb (Finset.mem_image.mpr ⟨w, Finset.mem_univ _, e⟩)

/-! ## The host operations after the region, and the contents at the return -/

abbrev op5 : HloOp τ sig (Elt F) := StableHlo.reshape main_v5 main_v6 rfl shapeCasts_S24x115200_S3x8x115200
abbrev op6 : HloOp τ sig (Elt F) := StableHlo.unary main_v6 main_v7 ((transpose S8x115200x3 [1, 2, 0] · transposes_S3x8x115200_S8x115200x3_1_2_0) : (⟨S3x8x115200, .f32⟩ : BufTy).Contents (Elt F) → (⟨S8x115200x3, .f32⟩ : BufTy).Contents (Elt F))
theorem hop5 : (op5 (F := F)).bufs ⊆ UC := Pipeline.sub_ucRefs _ (StableHlo.reshape_bufs_sub ..)
theorem hop6 : (op6 (F := F)).bufs ⊆ UC := Pipeline.sub_ucRefs _ (StableHlo.unary_bufs_sub ..)

/-- The contents when @main returns. -/
def WF (R : Set (SemLoc sig × HIx 1)) (d : Dev nD) : Valuation τ sig (Elt F) := StableHlo.after [op5, op6] (WX m R d)

end Cert.Proof.KI

end
-- ==== Proof.Value.lean ====
/-
  The value @main returns. The result array is the transpose back of the [24, 115200] array whose rows 0..16 the
  TensorCore kernel left at the transposed inputs' sum and whose rows 16..24 the SparseCore kernel did: the sum of the
  two transposed inputs everywhere, hence, transposed back, the two inputs' sum; the inputs are never written.
-/
import proofs.«202046_g2697239462394_cont_9to1_340_20_alg».proof.Proof.Vals
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix3)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The inputs: no operation and no region writes them -/

/-- An array that no host operation of @main writes, that is not the SparseCore call's result and not an array of
    the TensorCore kernel's, holds at the return what it held at the launch. -/
theorem WF_of_untouched (R : Set (SemLoc sig × HIx 1)) (d : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) :
    WF m R d (Proc.devRef .tc b) = m (d, Proc.devRef .tc b) :=
  calc WF m R d (Proc.devRef .tc b)
    _ = WX m R d (Proc.devRef .tc b) := StableHlo.after_of_forall_not_mem (b := Proc.devRef .tc b) _ _ (List.forall_iff_forall_mem.mp (by
          simp only [List.Forall, StableHlo.unary_writes, StableHlo.reshape_writes, Finset.mem_singleton]
          exact ⟨StableHlo.devRef_ne_of_ne h6, StableHlo.devRef_ne_of_ne h7⟩))
    _ = WR m d (Proc.devRef .tc b) := WX_of_ne m R d b (fun w => by
          match w with
          | ⟨0, _⟩ => exact fun e => h1 e.symm
          | ⟨1, _⟩ => exact fun e => h3 e.symm
          | ⟨2, _⟩ => exact fun e => h5 e.symm)
    _ = V1 m d (Proc.devRef .tc b) := StableHlo.unary_result_ne _ _ _ _ _ _ h5
    _ = VA m d (Proc.devRef .tc b) := Function.update_of_ne (StableHlo.devRef_ne_of_ne h4) _ _
    _ = V0 m d (Proc.devRef .tc b) := StableHlo.after_of_forall_not_mem (b := Proc.devRef .tc b) _ _ (List.forall_iff_forall_mem.mp (by
          simp only [List.Forall, StableHlo.unary_writes, StableHlo.reshape_writes, Finset.mem_singleton]
          exact ⟨StableHlo.devRef_ne_of_ne h0, StableHlo.devRef_ne_of_ne h1, StableHlo.devRef_ne_of_ne h2, StableHlo.devRef_ne_of_ne h3⟩))
    _ = m (d, Proc.devRef .tc b) := rfl

/-- The inputs at the return are the launch's. -/
theorem WF_a0 (R : Set (SemLoc sig × HIx 1)) (d : Dev nD) : WF m R d (Proc.devRef .tc (main_arg0 : Ref sig .tc)) = m (a0Loc d) :=
  WF_of_untouched m R d main_arg0 (by decide) (by decide) (by decide) (by decide) (by decide) (by decide) (by decide) (by decide)
theorem WF_a1 (R : Set (SemLoc sig × HIx 1)) (d : Dev nD) : WF m R d (Proc.devRef .tc (main_arg1 : Ref sig .tc)) = m (a1Loc d) :=
  WF_of_untouched m R d main_arg1 (by decide) (by decide) (by decide) (by decide) (by decide) (by decide) (by decide) (by decide)

/-! ## The result -/

/-- The transposed inputs as terms of the launch memory. -/
theorem X2_eq (d : Dev nD) : X2 m d = shapeCast S24x115200 (transpose S3x8x115200 [2, 0, 1] (m (a0Loc d)) transposes_S8x115200x3_S3x8x115200_2_0_1) shapeCasts_S3x8x115200_S24x115200 := by
  unfold X2 VA
  after_results
  rfl
theorem F2_eq (d : Dev nD) : F2 m d = shapeCast S24x115200 (transpose S3x8x115200 [2, 0, 1] (m (a1Loc d)) transposes_S8x115200x3_S3x8x115200_2_0_1) shapeCasts_S3x8x115200_S24x115200 := by
  unfold F2 VA
  after_results
  rfl

/-- What the TensorCore kernel's region finds: the transposed inputs, and in its result array the SparseCore call's. -/
theorem VR_x (d : Dev nD) : VR m d main_v1 = X2 m d :=
  (StableHlo.unary_result_ne _ _ _ _ _ _ (by decide)).trans (V1_x m d)
theorem VR_f (d : Dev nD) : VR m d main_v3 = F2 m d :=
  (StableHlo.unary_result_ne _ _ _ _ _ _ (by decide)).trans (V1_f m d)
theorem VR_r (d : Dev nD) : VR m d main_v5 = G1 m d := by
  show (op4 (F := F)).result (V1 m d) (Proc.devRef .tc main_v5) = G1 m d
  rw [StableHlo.unary_result, id_eq, V1_o]

/-- After the region the kernel's result array is the transposed inputs' sum at every index: rows 0..16 by the
    TensorCore kernel, rows 16..24 as the region found them, where the SparseCore call had left the sum. -/
theorem WX_r (R : Set (SemLoc sig × HIx 1)) (d : Dev nD) :
    WX m R d (Proc.devRef .tc (main_v5 : Ref sig .tc)) = (addf (X2 m d) (F2 m d) : FVec F S24x115200 .f32) := by
  refine (WX_arr m R d (2 : Fin 3)).trans ?_
  rw [arrAt1_out (VR m) R d, VR_x, VR_f, VR_r]
  funext idx
  by_cases h : (idx 0).val < 16
  · rw [if_pos h]
  · rw [if_neg h]
    unfold G1
    exact Finset.piecewise_eq_of_mem _ _ _ ((mem_band idx).mpr (by omega))

/-- A lane-wise sum read through a reshape or a transpose is the sum of the two operands read through it. -/
theorem shapeCast_addf {s t : Shape} {φ : FTy} (x y : FVec F s φ) (h : s.ShapeCasts t) :
    shapeCast t (addf x y) h = addf (shapeCast t x h) (shapeCast t y h) := rfl
theorem transpose_addf {s t : Shape} {φ : FTy} (perm : List (Fin s.rank)) (x y : FVec F s φ) (h : s.Transposes perm t) :
    transpose t perm (addf x y) h = addf (transpose t perm x h) (transpose t perm y h) := rfl

/-- The transpose [1, 2, 0] undoes the transpose [2, 0, 1]. -/
theorem transpose_back {α : Type} (A : S8x115200x3.Idx → α) :
    transpose S8x115200x3 [1, 2, 0] (transpose S3x8x115200 [2, 0, 1] A transposes_S8x115200x3_S3x8x115200_2_0_1) transposes_S3x8x115200_S8x115200x3_1_2_0 = A := by
  funext j
  refine (transpose_apply _ _ transposes_S3x8x115200_S8x115200x3_1_2_0 j (ix3 (j 2) (j 0) (j 1)) (fun b => ?_)).trans ?_
  · match b with
    | ⟨0, _⟩ => rfl
    | ⟨1, _⟩ => rfl
    | ⟨2, _⟩ => rfl
  · exact transpose_apply _ _ transposes_S8x115200x3_S3x8x115200_2_0_1 _ j (fun b => by
      match b with
      | ⟨0, _⟩ => rfl
      | ⟨1, _⟩ => rfl
      | ⟨2, _⟩ => rfl)

/-- The result array at the return is the two inputs' sum. -/
theorem WF_res (R : Set (SemLoc sig × HIx 1)) (d : Dev nD) :
    WF m R d (Proc.devRef .tc (main_v7 : Ref sig .tc)) = (addf (m (a0Loc d)) (m (a1Loc d)) : Buf (Elt F) (rLoc d)) := by
  unfold WF
  after_results
  rw [WX_r, X2_eq, F2_eq]
  -- the sum passes through the reshape and the transpose; each input then makes the round trip
  show transpose S8x115200x3 [1, 2, 0]
      (shapeCast S3x8x115200
        (addf (shapeCast S24x115200 (transpose S3x8x115200 [2, 0, 1] (m (a0Loc d)) transposes_S8x115200x3_S3x8x115200_2_0_1) shapeCasts_S3x8x115200_S24x115200)
          (shapeCast S24x115200 (transpose S3x8x115200 [2, 0, 1] (m (a1Loc d)) transposes_S8x115200x3_S3x8x115200_2_0_1) shapeCasts_S3x8x115200_S24x115200))
        shapeCasts_S24x115200_S3x8x115200)
      transposes_S3x8x115200_S8x115200x3_1_2_0 = _
  rw [shapeCast_addf, shapeCast_shapeCast, shapeCast_shapeCast, transpose_addf, transpose_back, transpose_back]

end Cert.Proof.KI

end
-- ==== Proof.Main.lean ====
/-
  @main on the TensorCore and the program's run. @main transposes and reshapes the two inputs to [24, 115200],
  starts the SparseCore call (rows 16..24), copies its result into the TensorCore kernel's result array, runs
  the TensorCore kernel over it (rows 0..16), and reshapes and transposes back: the result is the two inputs'
  sum, element by element.
-/
import proofs.«202046_g2697239462394_cont_9to1_340_20_alg».proof.Proof.Vals
import proofs.«202046_g2697239462394_cont_9to1_340_20_alg».proof.Proof.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch deals the TensorCore for its pipeline: the staging cells' ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP' := (show (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP (F := F)) (initOf (Pipeline.cells (nD := nD) (τ := τ) cfgs cellOf_inj) (Pipeline.launchToks (nD := nD) (τ := τ) cfgs cellOf_inj))) from .rfl) $$ HP
  imod (Pipeline.fund_ghost cfgs (EP (F := F)) cellOf_inj) $$ HP' with ⟨Hg, Ht⟩
  imodintro
  isplitl [HH]; · iexact HH
  isplitl [Hg Ht]
  · unfold G
    rw [bigSep_sep']
    isplitl [Hg]
    · iapply (show (bigSep Finset.univ fun c : Dev nD => bigSep Finset.univ fun p : Fin 1 => Pipeline.cellsGhost (nD := nD) (τ := τ) cfgs (EP (F := F)) p c)
          ⊢ bigSep Finset.univ fun d : Dev nD => Pipeline.cellsGhost (Pipeline.pin (pcfgs (F := F)) adm) EP 0 d from
        Entails.of_eq (bigSep_congr fun d _ => bigSep_univ_of_subsingleton (0 : Fin 1)))
      iexact Hg
    · iapply (show (bigSep Finset.univ fun c : Dev nD => bigSep Finset.univ fun p : Fin 1 => (Pipeline.toksInit (nD := nD) (τ := τ) cfgs (EP (F := F)) p c : sProp 𝕄))
          ⊢ bigSep Finset.univ fun d : Dev nD => Pipeline.toksInit (Pipeline.pin (pcfgs (F := F)) adm) EP 0 d from
        Entails.of_eq (bigSep_congr fun d _ => bigSep_univ_of_subsingleton (0 : Fin 1)))
      iexact Ht
  · iapply (show (iprop(emp) : sProp 𝕄) ⊢ bigSep Finset.univ fun thr : Thread nD τ => bigSep Finset.univ fun q : Fin 1 => (PP m).x q thr from
      Entails.of_eq (show (bigSep Finset.univ fun _ : Thread nD τ => bigSep Finset.univ fun _ : Fin 1 => (iprop(emp) : sProp 𝕄)) = iprop(emp) from by
        rw [bigSep_congr fun _ _ => bigSep_emp' _, bigSep_emp']).symm)
    iempintro

/-! ## @main on the TensorCore -/

set_option backward.isDefEq.respectTransparency.types false in
/-- The region over the thread state "every unscoped buffer at the entry contents, nothing owed, the recorded wait
    pairs within `R`": its arrays split out of the buffers and put back at the exit contents. -/
def reg (R : Set (SemLoc sig × HIx 1)) :
    Pipeline.RegionSeg (pcfgs (F := F)) adm (pdats m R) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation1 (VR m) R c
  hwaits := Pipeline.hwaits_of_owed_zero _ _ _ _ (K (F := F)).L (K (F := F)).lev 0 fun _ _ => rfl
  pre c := iprop(held (c.tc : Thread nD τ) UC (WR m c) ∗ Pipeline.owesWithin c (0 : CellTallies nD τ sig (HIx 1)) R)
  post c := iprop(held (c.tc : Thread nD τ) UC (WX m R c)
    ∗ Pipeline.owesWithin c (0 : CellTallies nD τ sig (HIx 1)) (R ∪ cfg1.waitPairs (none : HIx 1)))
  X _ := iprop(emp)
  Y _ := iprop(emp)
  Z c := Pipeline.unscopedRest (Ix := HIx 1) (Name := ℕ) (U := UU) (Lvl := ℕ) spec1 c (VR m c)
  hentry c := by
    rw [Pipeline.ownSems0_none]
    have hsplit := Pipeline.arrays_of_unscopedBufs (p := 0) (pcfgs (F := F)) adm (pdats m R) launch1.win launch1.arr_whole c
      ((pdats m R 0 c).share_full fun _ => rfl) (VR m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left)) $$ HO
    isplitr; · iempintro
    iexact Hrest
  hin c := by
    rw [show (pdats m R 0 c).Φ 0 = iprop(emp) from rfl]
    iintro -; iempintro
  hout c := by
    rw [Pipeline.ownSems0_none, show (pdats m R 0 c).Φ (Fin.last _) = iprop(emp) from rfl, scopedRest1_eq]
    iintro -
    isplitr; · iempintro
    isplitr <;> iempintro
  hexit c := by
    have hjoin := Pipeline.unscopedBufs_of_arrays (p := 0) (pcfgs (F := F)) adm (Ix := HIx 1) (Name := ℕ) (U := UU) (Lvl := ℕ)
      launch1.win launch1.arr_whole c (pdats m R) ((pdats m R 0 c).share_full fun _ => rfl)
      (VR m c) (VX m R c) ((pdats m R 0 c).arrAt · cfg1.N) (hF1 m R c) (hrest1 m R c)
    rw [Pipeline.unscopedBufs_held] at hjoin
    iintro ⟨Ha, HO, -, Hrest⟩
    imodintro
    isplitl [Ha Hrest]
    · iapply hjoin; isplitl [Ha] <;> iassumption
    iexact HO

set_option maxHeartbeats 1600000 in
set_option backward.isDefEq.respectTransparency.types false in
/-- The region entered from @main on the SparseCore program's TensorCore thread: the pipeline library's region rule,
    lifted to the program's extended body table. -/
theorem region_step (d : Dev nD) (W0 : Waits sig (HIx 1)) (Φ : PUnit → sProp 𝕄) :
    iprop(levAts (K (F := F)).L (K (F := F)).lev ∗ G (F := F) d ∗ boundary (SparseCore.T d) ∗ held (SparseCore.T d) UC (WR m d)
        ∗ owes (SparseCore.T d) (0 : CellTallies nD τ sig (HIx 1)) W0
        ∗ (iprop(boundary (SparseCore.T d) ∗ held (SparseCore.T d) UC (WX m (↑W0 : Set (SemLoc sig × HIx 1)) d)
            ∗ Pipeline.owesWithin d (0 : CellTallies nD τ sig (HIx 1)) ((↑W0 : Set (SemLoc sig × HIx 1)) ∪ cfg1.waitPairs (none : HIx 1))) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨Hlev, HG, Hb, Hheld, HO, Hk⟩
  unfold G
  icases HG with ⟨Hg, Ht⟩
  iapply ((K (F := F)).wp_liftProg (D (F := F)) 𝒱 (SparseCore.T d) Set.univ none
    (.op (.customCall (Pipeline.entry 0) ()) .ret) Φ)
  iapply (Pipeline.RegionSeg.wp (pcfgs (F := F)) adm (pdats m (↑W0 : Set (SemLoc sig × HIx 1))) (none : HIx 1) cellOf_inj (EP (F := F)) defs₀ 𝒱₀
    (K (F := F)).L (K (F := F)).lev (reg m (↑W0 : Set (SemLoc sig × HIx 1))) d none (fun u hu => nomatch hu) (fun _ => .ret ⟨⟩) Φ) $$ [Hb Hheld HO Hlev Hg Ht Hk]
  isplitl [Hk]
  · iintro ⟨Hb, Hpost⟩
    ihave Hpost := (show ((reg m (↑W0 : Set (SemLoc sig × HIx 1))).post d : sProp 𝕄)
        ⊢ iprop(held (SparseCore.T d) UC (WX m (↑W0 : Set (SemLoc sig × HIx 1)) d)
          ∗ Pipeline.owesWithin d (0 : CellTallies nD τ sig (HIx 1)) ((↑W0 : Set (SemLoc sig × HIx 1)) ∪ cfg1.waitPairs (none : HIx 1))) from .rfl) $$ Hpost
    icases Hpost with ⟨Hheld, HO⟩
    rw [wp_ret]; imodintro
    iapply Hk
    isplitl [Hb]; · iexact Hb
    isplitl [Hheld]; · iexact Hheld
    iexact HO
  isplitl [Hb]; · iexact Hb
  isplitl [Hheld HO]
  · iapply (show iprop(held (SparseCore.T d) UC (WR m d) ∗ Pipeline.owesWithin d (0 : CellTallies nD τ sig (HIx 1)) (↑W0 : Set (SemLoc sig × HIx 1)))
        ⊢ ((reg m (↑W0 : Set (SemLoc sig × HIx 1))).pre d : sProp 𝕄) from .rfl)
    isplitl [Hheld]; · iexact Hheld
    iexists W0; isplitr; · ipureintro; exact subset_rfl
    iexact HO
  isplitl [Hlev]; · iexact Hlev
  isplitl [Hg]; · iexact Hg
  iexact Ht

theorem st_eq (d : Dev nD) :
    (bigSep Finset.univ fun c : Fin ((K (F := F)).nCore 0) => (PP m).st 0 d c) = bigSep Finset.univ (piece (X2 m) (F2 m) d (O0 m d)) := by
  rw [bigSep_chunks]; rfl
theorem dn_eq (d : Dev nD) :
    (bigSep Finset.univ fun c : Fin ((K (F := F)).nCore 0) => (PP m).dn 0 d c)
      = bigSep Finset.univ (piece (X2 m) (F2 m) d (addf (X2 m d) (F2 m d))) := by
  rw [bigSep_chunks]; rfl

abbrev a0' : DevRef τ sig := Proc.devRef .tc (main_arg0 : Ref sig .tc)
abbrev a1' : DevRef τ sig := Proc.devRef .tc (main_arg1 : Ref sig .tc)
abbrev r' : DevRef τ sig := Proc.devRef .tc (main_v7 : Ref sig .tc)
abbrev TF : Finset (DevRef τ sig) := {a0', a1', r'}

theorem hTF : TF ⊆ UC := by
  intro b hb
  simp only [TF, Finset.mem_insert, Finset.mem_singleton] at hb
  rcases hb with rfl | rfl | rfl
  · exact mem_uc main_arg0 (by decide)
  · exact mem_uc main_arg1 (by decide)
  · exact mem_uc main_v7 (by decide)

omit [FloatOps F] in
theorem held_TF (d : Dev nD) (W : Valuation τ sig (Elt F)) :
    (held (SparseCore.T d) TF W : sProp 𝕄) = iprop((a0Loc d ↦{fullShare} W a0') ∗ (a1Loc d ↦{fullShare} W a1') ∗ (rLoc d ↦{fullShare} W r')) := by
  unfold held TF
  rw [SparseCore.bigSep_insert' (by decide), SparseCore.bigSep_insert' (by decide), bigSep_singleton]

set_option maxHeartbeats 1600000 in
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) UC (V0 m d) from
    Pipeline.unscopedBufs_held d (V0 m d)]
  simp only [main, wp_bind, wp_pure]
  iintro ⟨#Hctx, Hst, ⟨Hb, Hheld, -, -⟩, HG⟩
  -- the two inputs transposed and reshaped to [24, 115200]
  iapply (wp_hlo_within 𝒱 (SparseCore.T d) none Set.univ (op := op0) (S := UC) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := UC) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := UC) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := UC) hop3 (V := (op2 (F := F)).result ((op1 (F := F)).result ((op0 (F := F)).result (V0 m d))))) $$ [Hb Hheld]
  · isplitl [Hb] <;> iassumption
  iintro ⟨Hb, Hheld⟩
  rw [wp_ret]; imodintro
  ihave Hheld := (show (held (SparseCore.T d) UC ((op3 (F := F)).result ((op2 (F := F)).result ((op1 (F := F)).result ((op0 (F := F)).result (V0 m d))))) : sProp 𝕄)
      ⊢ held (SparseCore.T d) UC (VA m d) from .rfl) $$ Hheld
  -- the SparseCore call: the three [24, 115200] arrays cut into chunks, dealt out, and put back
  ihave Hh := (Entails.of_eq (StableHlo.held_sub_split (SparseCore.T d) hT3 (VA m d))) $$ Hheld
  icases Hh with ⟨H3, Hrest⟩
  ihave H3 := (show (held (SparseCore.T d) T3 (VA m d) : sProp 𝕄)
      ⊢ iprop((xLoc d ↦{fullShare} X2 m d) ∗ (fLoc d ↦{fullShare} F2 m d) ∗ (oLoc d ↦{fullShare} O0 m d)) from
    Entails.of_eq (held_T3 (F := F) d (VA m d))) $$ H3
  icases H3 with ⟨Hx, Hf, Ho⟩
  ihave Hx := (Entails.of_eq (x_split (F := F) d (X2 m d))) $$ Hx
  icases Hx with ⟨Hxc, Hxr⟩
  ihave Hf := (Entails.of_eq (f_split (F := F) d (F2 m d))) $$ Hf
  icases Hf with ⟨Hfc, Hfr⟩
  ihave Ho := (Entails.of_eq (o_split (F := F) d (O0 m d))) $$ Ho
  icases Ho with ⟨Hoc, Hor⟩
  iapply ((K (F := F)).wp_run (D (F := F)) 𝒱 (EH := EH) (P := PP m) κ d 0) $$ [Hst Hxc Hfc Hoc Hb Hrest Hxr Hfr Hor HG]
  isplitr; · iexact Hctx
  isplitl [Hst]; · iexact Hst
  isplitl [Hxc Hfc Hoc]
  · rw [st_eq, pieces_eq]
    isplitl [Hxc]; · iexact Hxc
    isplitl [Hfc]; · iexact Hfc
    iexact Hoc
  iintro ⟨Hst, Hdn⟩
  ihave Hdn := (Entails.of_eq ((dn_eq m d).trans (pieces_eq d (X2 m) (F2 m) _))) $$ Hdn
  icases Hdn with ⟨Hxc, Hfc, Hoc⟩
  ihave Hx := (Entails.of_eq (x_split (F := F) d (X2 m d)).symm) $$ [Hxc Hxr]
  · isplitl [Hxc] <;> iassumption
  ihave Hf := (Entails.of_eq (f_split (F := F) d (F2 m d)).symm) $$ [Hfc Hfr]
  · isplitl [Hfc] <;> iassumption
  ihave Ho := (o_join (F := F) d (addf (X2 m d) (F2 m d)) (O0 m d)) $$ [Hoc Hor]
  · isplitl [Hoc] <;> iassumption
  -- the buffers held again, the result array at what the call left
  ihave Hheld := (Entails.of_eq (StableHlo.held_sub_split (SparseCore.T d) hT3 (V1 m d)).symm) $$ [Hx Hf Ho Hrest]
  · isplitl [Hx Hf Ho]
    · rw [held_T3, V1_x, V1_f, V1_o]
      isplitl [Hx]; · iexact Hx
      isplitl [Hf]; · iexact Hf
      iexact Ho
    · rw [StableHlo.held_congr (SparseCore.T d) (V1_rest m d)]; iexact Hrest
  -- the call's result copied into the TensorCore kernel's result array
  iapply (wp_hlo_within 𝒱 (SparseCore.T d) none Set.univ (op := op4) (S := UC) hop4 (V := V1 m d)) $$ [Hb Hheld]
  · isplitl [Hb] <;> iassumption
  iintro ⟨Hb, Hheld⟩
  rw [wp_ret]; imodintro
  ihave Hheld := (show (held (SparseCore.T d) UC ((op4 (F := F)).result (V1 m d)) : sProp 𝕄) ⊢ held (SparseCore.T d) UC (WR m d) from .rfl) $$ Hheld
  -- the TensorCore kernel's region: what the core owes (nothing, after the one call) goes through it
  unfold SparseCore.Cfg.tcSt
  icases Hst with ⟨⟨%W0, %hW0, HO⟩, Hat, Hrd, Hrs, Htoks⟩
  ihave Hlev := (SparseCore.Cfg.ctx_levAts κ) $$ Hctx
  rw [(K (F := F)).Otc_end d (le_refl 1)]
  iapply (region_step m d W0 _) $$ [Hlev HG Hb Hheld HO Hat Hrd Hrs Htoks]
  isplitl [Hlev]; · iexact Hlev
  isplitl [HG]; · iexact HG
  isplitl [Hb]; · iexact Hb
  isplitl [Hheld]; · iexact Hheld
  isplitl [HO]; · iexact HO
  iintro ⟨Hb, Hheld, HO⟩
  -- the result reshaped and transposed back
  iapply (wp_hlo_within 𝒱 (SparseCore.T d) none Set.univ (op := op5) (S := UC) hop5 (V := WX m (↑W0 : Set (SemLoc sig × HIx 1)) d)) $$ [Hb Hheld]
  · isplitl [Hb] <;> iassumption
  iintro ⟨Hb, Hheld⟩
  rw [wp_ret]; imodintro
  iapply (wp_hlo_within 𝒱 (SparseCore.T d) none Set.univ (op := op6) (S := UC) hop6 (V := (op5 (F := F)).result (WX m (↑W0 : Set (SemLoc sig × HIx 1)) d))) $$ [Hb Hheld]
  · isplitl [Hb] <;> iassumption
  iintro ⟨Hb, Hheld⟩
  rw [wp_ret]; imodintro; imodintro
  ihave Hheld := (show (held (SparseCore.T d) UC ((op6 (F := F)).result ((op5 (F := F)).result (WX m (↑W0 : Set (SemLoc sig × HIx 1)) d))) : sProp 𝕄)
      ⊢ held (SparseCore.T d) UC (WF m (↑W0 : Set (SemLoc sig × HIx 1)) d) from .rfl) $$ Hheld
  isplitl [HO Hat Hrd Hrs Htoks]
  · isplitl [HO]
    · icases HO with ⟨%W', %hW', HO⟩
      iexists W'; isplitr
      · ipureintro
        intro p hp
        rcases hW' (Finset.mem_coe.mpr hp) with h | ⟨w, s, rfl⟩
        · exact hW0 p (Finset.mem_coe.mp h)
        · exact Nat.zero_le _
      · iexact HO
    isplitl [Hat]; · iexact Hat
    isplitl [Hrd]; · iexact Hrd
    isplitl [Hrs]; · iexact Hrs
    iexact Htoks
  · ihave Hh := (Entails.of_eq (StableHlo.held_sub_split (SparseCore.T d) hTF (WF m (↑W0 : Set (SemLoc sig × HIx 1)) d))) $$ Hheld
    icases Hh with ⟨H3, -⟩
    unfold FIN
    iapply (Entails.of_eq (show (held (SparseCore.T d) TF (WF m (↑W0 : Set (SemLoc sig × HIx 1)) d) : sProp 𝕄)
        = iprop((a0Loc d ↦{fullShare} m (a0Loc d)) ∗ (a1Loc d ↦{fullShare} m (a1Loc d))
          ∗ (rLoc d ↦{fullShare} (addf (m (a0Loc d)) (m (a1Loc d)) : Buf (Elt F) (rLoc d)))) from by
      rw [held_TF, WF_a0, WF_a1, WF_res]))
    iexact H3

def fq (d : Dev nD) (s' : Phys nD τ sig (Elt F)) : Prop :=
  s'.mem.mem (rLoc d) = (addf (m (a0Loc d)) (m (a1Loc d)) : Buf (Elt F) (rLoc d))
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  unfold FIN
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := (addf (m (a0Loc d)) (m (a1Loc d)) : Buf (Elt F) (rLoc d)))) $$ [HSI Hr]
  · isplitl [HSI] <;> iassumption
  icases H with %hr
  ipureintro
  exact ⟨funext fun i => hr i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (rLoc c) = (addf (m (a0Loc c)) (m (a1Loc c)) : Buf (Elt F) (rLoc c))
    ∧ r.2.mem (a0Loc c) = m (a0Loc c) ∧ r.2.mem (a1Loc c) = m (a1Loc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (X2 m) (F2 m) (O0 m) facts)
    (fun q _ => match q with | 0 => SparseCore.Cfg.VecSplit.of_plain (vecSplit (X2 m) (F2 m) (O0 m)))
    m ρ main (G (F := F)) (FIN m) (u₀ (F := F)) (sep_elim_left.trans (hu₀ m)) (hmain m ρ) (fq m) (hfin m) (QC m) (fun _ h => h)

end Cert.Proof.KI

end
-- ==== Proof.SetupB.lean ====
/-
  The program as the SparseCore launch theorem sees it, and the resource algebra of the proof: the launch
  handshakes' rounds, the TensorCore pipeline's staging cells' rounds, and the counters of the tiles' local copies.
-/
import proofs.«202046_g2697239462394_cont_9to1_340_20_alg».proof.Defs
import proofs.«202046_g2697239462394_cont_9to1_340_20_alg».proof.Proof.Gen.Kernel
import proofs.«202046_g2697239462394_cont_9to1_340_20_alg».proof.Proof.Gen.Kernel.Skeleton
import proofs.«202046_g2697239462394_cont_9to1_340_20_alg».proof.Proof.Gen.Kernel.Launch
import proofs.«202046_g2697239462394_cont_9to1_340_20_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's staging cells' rounds: the left of the right factor. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KB

end
-- ==== Proof.PayB.lean ====
/-
  What the SparseCore call hands each vector subcore and takes back.

  The SparseCore kernel adds rows 16..24 of the two transposed inputs, chunk by chunk of 768 columns: chunk j
  (0 ≤ j < 150) is worked by the vector subcore numbered j mod 32 (subcore s of SparseCore c has number 2 s + c).
-/
import proofs.«202046_g2697239462394_cont_9to1_340_20_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arrays -/

abbrev a0Loc (d : Dev nD) : Loc nD τ sig := (SparseCore.T d).loc main_arg0
abbrev a1Loc (d : Dev nD) : Loc nD τ sig := (SparseCore.T d).loc main_arg1
abbrev xLoc (d : Dev nD) : Loc nD τ sig := (SparseCore.T d).loc main_v1
abbrev fLoc (d : Dev nD) : Loc nD τ sig := (SparseCore.T d).loc main_v3
abbrev oLoc (d : Dev nD) : Loc nD τ sig := (SparseCore.T d).loc main_v4
abbrev rLoc (d : Dev nD) : Loc nD τ sig := (SparseCore.T d).loc main_v7

/-! ## The chunks -/

theorem chunk_inb (j : Fin 150) : ∀ a, (![16, 768 * j.val] : Fin 2 → Nat) a + S8x768.size a ≤ S24x115200.size a := by
  have := j.isLt
  intro a
  fin_cases a
  · show 16 + 8 ≤ 24; omega
  · show 768 * j.val + 768 ≤ 115200; omega

/-- Chunk `j`: rows 16..24, columns 768 j .. 768 (j + 1) of a [24, 115200] array. -/
abbrev chunkRect (j : Fin 150) : Rect S24x115200 := Rect.unit (s := S24x115200) ![16, 768 * j.val] S8x768.size (chunk_inb j)
abbrev chunkSet (j : Fin 150) : Finset S24x115200.Idx := (chunkRect j).set

/-- The number of vector subcore `i` of SparseCore `c`. -/
def wid (c : Fin 2) (i : Fin 16) : ℕ := 2 * i.val + c.val

/-- The chunks worked by vector subcore `i` of SparseCore `c`. -/
def chunksOf (c : Fin 2) (i : Fin 16) : Finset (Fin 150) := Finset.univ.filter fun j => j.val % 32 = wid c i

variable [FloatOps F]

-- the two transposed inputs and the result array's contents as the SparseCore call finds them
variable (X2 : (d : Dev nD) → Buf (Elt F) (xLoc d)) (F2 : (d : Dev nD) → Buf (Elt F) (fLoc d)) (O0 : (d : Dev nD) → Buf (Elt F) (oLoc d))

/-- One chunk of the three arrays, the result array's at `g`. -/
def piece (d : Dev nD) (g : Buf (Elt F) (oLoc d)) (j : Fin 150) : sProp 𝕄 :=
  iprop((xLoc d ↦[chunkSet j]{fullShare} X2 d) ∗ (fLoc d ↦[chunkSet j]{fullShare} F2 d) ∗ (oLoc d ↦[chunkSet j]{fullShare} g))

/-- What a vector subcore is handed: its chunks of the two inputs and of the result array, the latter at the launch
    contents; what it hands back: the same, the result array's chunks at the sum. -/
def goRes (d : Dev nD) (c : Fin 2) (i : Fin 16) : sProp 𝕄 := bigSep (chunksOf c i) (piece X2 F2 d (O0 d))
def tdRes (d : Dev nD) (c : Fin 2) (i : Fin 16) : sProp 𝕄 := bigSep (chunksOf c i) (piece X2 F2 d (addf (X2 d) (F2 d)))

def P : (K (F := F)).Pay (nD := nD) (Val := Elt F) (Name := ℕ) (U := UU) where
  st := fun q d c => match q with | 0 => bigSep Finset.univ fun i : Fin 16 => goRes X2 F2 O0 d (Fin.cast nCore_zero c) i
  dn := fun q d c => match q with | 0 => bigSep Finset.univ fun i : Fin 16 => tdRes X2 F2 d (Fin.cast nCore_zero c) i
  go := fun q d c i => match q with | 0 => goRes X2 F2 O0 d (Fin.cast nCore_zero c) (Fin.cast nSub_zero i)
  td := fun q d c i => match q with | 0 => tdRes X2 F2 d (Fin.cast nCore_zero c) (Fin.cast nSub_zero i)
  x := fun _ _ => iprop(emp)

instance P_storable : (P (F := F) X2 F2 O0).IsStorable where
  st q d c := match q with | 0 => by unfold P goRes piece; infer_instance
  dn q d c := match q with | 0 => by unfold P tdRes piece; infer_instance
  go q d c i := match q with | 0 => by unfold P goRes piece; infer_instance
  td q d c i := match q with | 0 => by unfold P tdRes piece; infer_instance

/-! ## A vector subcore's place -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

end Cert.Proof.KB

end
-- ==== Proof.TileBodyB.lean ====
/-
  One vector subcore's task: the SparseCore kernel's body run once, at a symbolic SparseCore and subcore.
-/
import proofs.«202046_g2697239462394_cont_9to1_340_20_alg».proof.Proof.PayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (X2 : (d : Dev nD) → Buf (Elt F) (xLoc d)) (F2 : (d : Dev nD) → Buf (Elt F) (fLoc d)) (O0 : (d : Dev nD) → Buf (Elt F) (oLoc d))

/-! ## The task of one vector subcore -/

section Tile

variable (d : Dev nD) (L : grid0.Coords)

abbrev A0 : Memref sig .scVector .vmem S8x768 .f32 := Memref.whole cc0_scratch0
abbrev B0 : Memref sig .scVector .vmem S8x768 .f32 := Memref.whole cc0_scratch1
abbrev A1 : Memref sig .scVector .vmem S8x768 .f32 := Memref.whole cc0_scratch2
abbrev B1 : Memref sig .scVector .vmem S8x768 .f32 := Memref.whole cc0_scratch3
abbrev O0m : Memref sig .scVector .vmem S8x768 .f32 := Memref.whole cc0_scratch4
abbrev O1m : Memref sig .scVector .vmem S8x768 .f32 := Memref.whole cc0_scratch5
abbrev XW : Memref sig .scVector .hbm S24x115200 .f32 := Memref.whole main_v1_scv
abbrev FW : Memref sig .scVector .hbm S24x115200 .f32 := Memref.whole main_v3_scv
abbrev OW : Memref sig .scVector .hbm S24x115200 .f32 := Memref.whole main_v4_scv
abbrev thrV (d : Dev nD) (L : grid0.Coords) : Thread nD τ := V d (cV L) (jV L)

/-- A window of a [24, 115200] array at given offsets, as the program slices it. -/
abbrev win (M : Memref sig .scVector .hbm S24x115200 .f32) (off : Fin 2 → Nat) (inb : ∀ a, off a + S8x768.size a ≤ S24x115200.size a) :
    Memref sig .scVector .hbm S8x768 .f32 := M.slice (Rect.unit (s := S24x115200) off S8x768.size inb) (fun _ => rfl)

/-- A memref's own elements held at the full share. -/
abbrev own {sp : Space} {S : Shape} (M : Memref sig .scVector sp S .f32) (f : Buf (Elt F) (M.view.loc (thrV d L))) : sProp 𝕄 :=
  M.view.loc (thrV d L) ↦[M.view.set]{fullShare} f
abbrev hold {sp : Space} {S : Shape} (M : Memref sig .scVector sp S .f32) (f : Buf (Elt F) (M.view.loc (thrV d L))) : sProp 𝕄 :=
  M.view.loc (thrV d L) ↦{fullShare} f

theorem c1 : ∀ L : grid0.Coords, k0_cond1 L = 1#1 := by decide +kernel
theorem c2 : ∀ L : grid0.Coords, k0_cond2 L = 1#1 := by decide +kernel
theorem c3_0 : ∀ L : grid0.Coords, k0_cond3 L ⟨0, by decide⟩ = 1#1 := by decide +kernel
theorem c3_1 : ∀ L : grid0.Coords, k0_cond3 L ⟨1, by decide⟩ = 1#1 := by decide +kernel
theorem c4_0 : ¬ k0_cond4 ⟨0, by decide⟩ = 1#1 := by decide +kernel
theorem c4_1 : k0_cond4 ⟨1, by decide⟩ = 1#1 := by decide +kernel
theorem c4_2 : k0_cond4 ⟨2, by decide⟩ = 1#1 := by decide +kernel
theorem c5_0 : ∀ L : grid0.Coords, k0_cond5 L ⟨0, by decide⟩ = 1#1 := by decide +kernel
theorem c5_1 : ∀ L : grid0.Coords, k0_cond5 L ⟨1, by decide⟩ = k0_cond3 L ⟨2, by decide⟩ := by decide +kernel
theorem c5_2 : ∀ L : grid0.Coords, ¬ k0_cond5 L ⟨2, by decide⟩ = 1#1 := by decide +kernel
theorem c6_0 : ∀ L : grid0.Coords, k0_cond6 L ⟨0, by decide⟩ = 1#1 := by decide +kernel
theorem c6_1 : ∀ L : grid0.Coords, k0_cond6 L ⟨1, by decide⟩ = 1#1 := by decide +kernel
theorem c6_2 : ∀ L : grid0.Coords, ¬ k0_cond6 L ⟨2, by decide⟩ = 1#1 := by decide +kernel
theorem c7_0 : ¬ k0_cond7 ⟨0, by decide⟩ = 1#1 := by decide +kernel
theorem c7_1 : k0_cond7 ⟨1, by decide⟩ = 1#1 := by decide +kernel
theorem c8_0 : ∀ L : grid0.Coords, k0_cond8 L ⟨0, by decide⟩ = 1#1 := by decide +kernel
theorem c8_1 : ∀ L : grid0.Coords, ¬ k0_cond8 L ⟨1, by decide⟩ = 1#1 := by decide +kernel

abbrev t0 : Fin k0_t1_loop.trips := ⟨0, by decide⟩
abbrev t1 : Fin k0_t1_loop.trips := ⟨1, by decide⟩
abbrev t2 : Fin k0_t1_loop.trips := ⟨2, by decide⟩

/-- One group's payload — the two loads cast to flat vectors, added, cast back — is their sum. -/
theorem pay_eq (v w : Vec F S1x16 .f32) :
    shapeCast S1x16 (addf (shapeCast S16 v shapeCasts_S1x16_S16) (shapeCast S16 w shapeCasts_S1x16_S16)) shapeCasts_S16_S1x16 = addf v w := by
  funext x
  simp only [shapeCast, addf, Shape.reshapeEquiv_reshapeEquiv, Shape.reshapeEquiv_self]

omit [FloatOps F] in
/-- A sixteen-lane group of row `r` holds no position of another row. -/
theorem not_mem_row {off : Fin 2 → ℕ} {inb : ∀ a, off a + S1x16.size a ≤ S8x768.size a} {y : S8x768.Idx} {r : ℕ} (h0 : off 0 = r) (hy : (y 0).val < r) :
    y ∉ (Rect.unit (s := S8x768) off S1x16.size inb).set := by
  rw [Rect.mem_set_unit]
  intro h
  have := (h 0).1
  omega

omit [FloatOps F] in
/-- A position of row `r` lies in the sixteen-lane group of that row at column `c` iff its column is one of the sixteen. -/
theorem mem_row_iff {y : S8x768.Idx} {r : ℕ} (hy : (y 0).val = r) (c : ℕ) (inb : ∀ a, (![r, c] : Fin 2 → ℕ) a + S1x16.size a ≤ S8x768.size a) :
    y ∈ (Rect.unit (s := S8x768) ![r, c] S1x16.size inb).set ↔ c ≤ (y 1).val ∧ (y 1).val < c + 16 := by
  rw [Rect.mem_set_unit, Fin.forall_fin_two]
  show (r ≤ (y 0).val ∧ (y 0).val < r + 1) ∧ (c ≤ (y 1).val ∧ (y 1).val < c + 16) ↔ _
  constructor
  · exact fun h => h.2
  · exact fun h => ⟨⟨by omega, by omega⟩, h⟩

/-- Splits a statement about every member of a literal list into one goal per member, and runs the tactic on each. -/
macro "pieces48 " t:tactic : tactic =>
  `(tactic| ((repeat' (first | (refine List.forall_mem_cons.2 ⟨?_, ?_⟩) | (exact fun _ h => absurd h List.not_mem_nil))) <;> $t))

omit [FloatOps F] in
/-- A position in a rectangle lies at or after the rectangle's first row. -/
theorem off0_le_of_mem {R : Rect S8x768} {y : S8x768.Idx} (hm : y ∈ R.set) : R.off 0 ≤ (y 0).val := by
  obtain ⟨j, -, e⟩ := (LoadRect.mem_set _).1 hm 0
  exact e ▸ Nat.le_add_right _ _

omit [FloatOps F] in
/-- A buffer's contents given a name. -/
theorem hold_name {ℓ : Loc nD τ sig} {I : Finset ℓ.ty.shape.Idx} {q} (f : Buf (Elt F) ℓ) :
    (ℓ ↦[I]{q} f : sProp 𝕄) ⊢ iprop(∃ c, ⌜c = f⌝ ∗ (ℓ ↦[I]{q} c)) := by
  iintro H; iexists f; isplitr
  · ipureintro; rfl
  · iexact H

/-- The sum of the two input scratch buffers' contents, as a function of the position. -/
abbrev sum0 (a : Buf (Elt F) ((thrV d L).loc cc0_scratch0)) (b : Buf (Elt F) ((thrV d L).loc cc0_scratch1)) : S8x768.Idx → Elt F .f32 :=
  addf (F := F) (s := S8x768) (φ := .f32) ((A0).view.read (Elt F) a) ((B0).view.read (Elt F) b)

/-- The row loop's invariant: the inputs' scratch buffers unchanged, the rows below `r` of the result's scratch buffer at the sum. -/
def rowInv0 (a : Buf (Elt F) ((thrV d L).loc cc0_scratch0)) (b : Buf (Elt F) ((thrV d L).loc cc0_scratch1)) (r : Nat) (_ : Unit) : sProp 𝕄 :=
  iprop(hold d L A0 a ∗ hold d L B0 b
    ∗ ∃ g : Buf (Elt F) ((thrV d L).loc cc0_scratch4), hold d L O0m g ∗ ⌜∀ y : S8x768.Idx, (y 0).val < r → (O0m).view.read (Elt F) g y = sum0 d L a b y⌝)

set_option maxHeartbeats 4000000 in
/-- One trip of the row loop: row `k`'s forty-eight sixteen-lane groups are stored at the sum. -/
theorem row0_step (t : Fin k0_t1_loop.trips) (h : k0_cond3 L t = 1#1) (k : Fin k0_t2_loop.trips)
    (a : Buf (Elt F) ((thrV d L).loc cc0_scratch0)) (b : Buf (Elt F) ((thrV d L).loc cc0_scratch1)) :
    rowInv0 d L a b k.val ⟨⟩
      ⊢ wp frame (wpE (defs₀ (F := F)) 𝒱₀ (thrV d L) none) Set.univ
          (k0_t2_body L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 t h k ⟨⟩)
          (rowInv0 d L a b (k.val + 1)) := by
  unfold k0_t2_body rowInv0
  iintro ⟨Ha, Hb, %g, Ho, %hg⟩
  sl_exec
  sl_step
  isplitl [Ha]; · iexact Ha
  isplitl [Hb]; · iexact Hb
  iexists _; isplitl [Ho]; · iexact Ho
  ipureintro
  intro y hy
  rcases Nat.lt_succ_iff_lt_or_eq.mp hy with hlt | heq
  · -- a row below `k`: no group of this trip touches it
    rw [View.read_writes_apply_of_forall_not_mem]
    · exact hg y hlt
    · pieces48 (intro hm; have h0 := off0_le_of_mem hm; simp only [Rect.off_unit] at h0; simp only [k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, Matrix.cons_val_zero] at h0; omega)
  · -- row `k`: some group covers the position, and every group holds the sum
    refine View.read_writes_apply_of_pieces (Val := Elt F) _ _ (sum0 d L a b) _ ?_ y ?_
    · sl_unfold_run_names
      pieces48 (intro x; simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, pay_eq]; rfl)
    · by_contra hno
      push Not at hno
      simp only [List.forall_mem_cons, List.not_mem_nil, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq] at hno
      simp only [mem_row_iff heq] at hno
      have := (y 1).isLt
      have : (y 1).val < 768 := this
      omega

/-- The sum of the two input scratch buffers' contents, as a function of the position. -/
abbrev sum1 (a : Buf (Elt F) ((thrV d L).loc cc0_scratch2)) (b : Buf (Elt F) ((thrV d L).loc cc0_scratch3)) : S8x768.Idx → Elt F .f32 :=
  addf (F := F) (s := S8x768) (φ := .f32) ((A1).view.read (Elt F) a) ((B1).view.read (Elt F) b)

/-- The row loop's invariant: the inputs' scratch buffers unchanged, the rows below `r` of the result's scratch buffer at the sum. -/
def rowInv1 (a : Buf (Elt F) ((thrV d L).loc cc0_scratch2)) (b : Buf (Elt F) ((thrV d L).loc cc0_scratch3)) (r : Nat) (_ : Unit) : sProp 𝕄 :=
  iprop(hold d L A1 a ∗ hold d L B1 b
    ∗ ∃ g : Buf (Elt F) ((thrV d L).loc cc0_scratch5), hold d L O1m g ∗ ⌜∀ y : S8x768.Idx, (y 0).val < r → (O1m).view.read (Elt F) g y = sum1 d L a b y⌝)

set_option maxHeartbeats 4000000 in
/-- One trip of the row loop: row `k`'s forty-eight sixteen-lane groups are stored at the sum. -/
theorem row1_step (t : Fin k0_t1_loop.trips) (h : k0_cond6 L t = 1#1) (k : Fin k0_t3_loop.trips)
    (a : Buf (Elt F) ((thrV d L).loc cc0_scratch2)) (b : Buf (Elt F) ((thrV d L).loc cc0_scratch3)) :
    rowInv1 d L a b k.val ⟨⟩
      ⊢ wp frame (wpE (defs₀ (F := F)) 𝒱₀ (thrV d L) none) Set.univ
          (k0_t3_body L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9 t h k ⟨⟩)
          (rowInv1 d L a b (k.val + 1)) := by
  unfold k0_t3_body rowInv1
  iintro ⟨Ha, Hb, %g, Ho, %hg⟩
  sl_exec
  sl_step
  isplitl [Ha]; · iexact Ha
  isplitl [Hb]; · iexact Hb
  iexists _; isplitl [Ho]; · iexact Ho
  ipureintro
  intro y hy
  rcases Nat.lt_succ_iff_lt_or_eq.mp hy with hlt | heq
  · -- a row below `k`: no group of this trip touches it
    rw [View.read_writes_apply_of_forall_not_mem]
    · exact hg y hlt
    · pieces48 (intro hm; have h0 := off0_le_of_mem hm; simp only [Rect.off_unit] at h0; simp only [k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, Matrix.cons_val_zero] at h0; omega)
  · -- row `k`: some group covers the position, and every group holds the sum
    refine View.read_writes_apply_of_pieces (Val := Elt F) _ _ (sum1 d L a b) _ ?_ y ?_
    · sl_unfold_run_names
      pieces48 (intro x; simp only [k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, pay_eq]; rfl)
    · by_contra hno
      push Not at hno
      simp only [List.forall_mem_cons, List.not_mem_nil, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq] at hno
      simp only [mem_row_iff heq] at hno
      have := (y 1).isLt
      have : (y 1).val < 768 := this
      omega

/-! ### The chunks as the program slices them -/

omit [FloatOps F] in
theorem wid_lt : wid (cL L) (jL L) < 32 := by
  have h0 : (L 0).val < 2 := (L 0).isLt
  have h1 : (L 1).val < 16 := (L 1).isLt
  show 2 * (L 1).val + (L 0).val < 32
  omega

/-- The `k`-th chunk of the subcore at `L`: chunk `wid + 32 k`. -/
abbrev ck (k : ℕ) (h : wid (cL L) (jL L) + 32 * k < 150) : Fin 150 := ⟨wid (cL L) (jL L) + 32 * k, h⟩

omit [FloatOps F] in
theorem off_ck {off : Fin 2 → ℕ} {m : ℕ} (k : ℕ) (h : wid (cL L) (jL L) + 32 * k < 150)
    (e : off = ![16, m]) (hm : m = 768 * (2 * (L 1).val + (L 0).val + 32 * k)) : off = ![16, 768 * (ck L k h).val] := by
  rw [e, hm]; rfl

omit [FloatOps F] in
theorem lt_k (k : ℕ) (hk : k ≤ 3) : wid (cL L) (jL L) + 32 * k < 150 := by have := wid_lt L; omega
abbrev j0 : Fin 150 := ck L 0 (lt_k L 0 (by decide))
abbrev j1 : Fin 150 := ck L 1 (lt_k L 1 (by decide))
abbrev j2 : Fin 150 := ck L 2 (lt_k L 2 (by decide))
abbrev j3 : Fin 150 := ck L 3 (lt_k L 3 (by decide))
abbrev j4 (h : wid (cL L) (jL L) + 32 * 4 < 150) : Fin 150 := ck L 4 h

omit [FloatOps F] in theorem ex0 : k0_off1 L = ![16, 768 * (j0 L).val] := off_ck L 0 _ (k0_off1_eq L) (by omega)
omit [FloatOps F] in theorem ex1 : k0_off2 L = ![16, 768 * (j1 L).val] := off_ck L 1 _ (k0_off2_eq L) (by omega)
omit [FloatOps F] in theorem ex2 : k0_off53 L t0 = ![16, 768 * (j2 L).val] := off_ck L 2 _ (k0_off53_eq L t0) (by simp only [t0]; omega)
omit [FloatOps F] in theorem ex3 : k0_off104 L t0 = ![16, 768 * (j3 L).val] := off_ck L 3 _ (k0_off104_eq L t0) (by simp only [t0]; omega)
omit [FloatOps F] in theorem ex4 (h) : k0_off53 L t1 = ![16, 768 * (j4 L h).val] := off_ck L 4 _ (k0_off53_eq L t1) (by simp only [t1]; omega)
omit [FloatOps F] in theorem eo0 : k0_off3 L t0 = ![16, 768 * (j0 L).val] := off_ck L 0 _ (k0_off3_eq L t0) (by simp only [t0]; omega)
omit [FloatOps F] in theorem eo1 : k0_off54 L t0 = ![16, 768 * (j1 L).val] := off_ck L 1 _ (k0_off54_eq L t0) (by simp only [t0]; omega)
omit [FloatOps F] in theorem eo2 : k0_off3 L t1 = ![16, 768 * (j2 L).val] := off_ck L 2 _ (k0_off3_eq L t1) (by simp only [t1]; omega)
omit [FloatOps F] in theorem eo3 : k0_off54 L t1 = ![16, 768 * (j3 L).val] := off_ck L 3 _ (k0_off54_eq L t1) (by simp only [t1]; omega)
omit [FloatOps F] in theorem eo4 (h) : k0_off3 L t2 = ![16, 768 * (j4 L h).val] := off_ck L 4 _ (k0_off3_eq L t2) (by simp only [t2]; omega)

omit [FloatOps F] in
/-- A window of the first input at a chunk's offsets holds exactly that chunk's positions. -/
theorem set_winX {off : Fin 2 → ℕ} {inb} (j : Fin 150) (e : off = ![16, 768 * j.val]) : (win XW off inb).view.set = chunkSet j := by
  subst e; exact View.set_slice_whole _ _
omit [FloatOps F] in
theorem set_winF {off : Fin 2 → ℕ} {inb} (j : Fin 150) (e : off = ![16, 768 * j.val]) : (win FW off inb).view.set = chunkSet j := by
  subst e; exact View.set_slice_whole _ _
omit [FloatOps F] in
theorem set_winO {off : Fin 2 → ℕ} {inb} (j : Fin 150) (e : off = ![16, 768 * j.val]) : (win OW off inb).view.set = chunkSet j := by
  subst e; exact View.set_slice_whole _ _

omit [FloatOps F] in
theorem pts_winX {off : Fin 2 → ℕ} {inb} (j : Fin 150) (e : off = ![16, 768 * j.val]) (f : Buf (Elt F) (xLoc d)) :
    (own d L (win XW off inb) f : sProp 𝕄) = (xLoc d ↦[chunkSet j]{fullShare} f) := by
  show ((win XW off inb).view.loc (thrV d L) ↦[(win XW off inb).view.set]{fullShare} f : sProp 𝕄) = _
  rw [set_winX j e]
omit [FloatOps F] in
theorem pts_winF {off : Fin 2 → ℕ} {inb} (j : Fin 150) (e : off = ![16, 768 * j.val]) (f : Buf (Elt F) (fLoc d)) :
    (own d L (win FW off inb) f : sProp 𝕄) = (fLoc d ↦[chunkSet j]{fullShare} f) := by
  show ((win FW off inb).view.loc (thrV d L) ↦[(win FW off inb).view.set]{fullShare} f : sProp 𝕄) = _
  rw [set_winF j e]
omit [FloatOps F] in
theorem pts_winO {off : Fin 2 → ℕ} {inb} (j : Fin 150) (e : off = ![16, 768 * j.val]) (f : Buf (Elt F) (oLoc d)) :
    (own d L (win OW off inb) f : sProp 𝕄) = (oLoc d ↦[chunkSet j]{fullShare} f) := by
  show ((win OW off inb).view.loc (thrV d L) ↦[(win OW off inb).view.set]{fullShare} f : sProp 𝕄) = _
  rw [set_winO j e]

omit [FloatOps F] in
theorem h4 (h32 : k0_cond3 L t2 = 1#1) : wid (cL L) (jL L) + 32 * 4 < 150 := by
  revert h32
  show k0_cond3 L t2 = 1#1 → 2 * (L 1).val + (L 0).val + 32 * 4 < 150
  revert L; decide +kernel
omit [FloatOps F] in
theorem h4' (h32 : ¬ k0_cond3 L t2 = 1#1) : ¬ wid (cL L) (jL L) + 32 * 4 < 150 := by
  revert h32
  show ¬ k0_cond3 L t2 = 1#1 → ¬ 2 * (L 1).val + (L 0).val + 32 * 4 < 150
  revert L; decide +kernel

omit [FloatOps F] in
/-- The subcore's chunks: five when the fifth is in range, else four. -/
theorem chunksOf_five (h : wid (cL L) (jL L) + 32 * 4 < 150) :
    chunksOf (cL L) (jL L) = {j0 L, j1 L, j2 L, j3 L, j4 L h} := by
  have hw := wid_lt L
  ext j
  simp only [chunksOf, Finset.mem_filter, Finset.mem_univ, true_and, Finset.mem_insert, Finset.mem_singleton, Fin.ext_iff]
  have := j.isLt
  omega
omit [FloatOps F] in
theorem chunksOf_four (h : ¬ wid (cL L) (jL L) + 32 * 4 < 150) :
    chunksOf (cL L) (jL L) = {j0 L, j1 L, j2 L, j3 L} := by
  have hw := wid_lt L
  ext j
  simp only [chunksOf, Finset.mem_filter, Finset.mem_univ, true_and, Finset.mem_insert, Finset.mem_singleton, Fin.ext_iff]
  have := j.isLt
  omega

omit [FloatOps F] in
/-- A product over the subcore's chunks, member by member. -/
theorem bigSep_five (h : wid (cL L) (jL L) + 32 * 4 < 150) (Φ : Fin 150 → sProp 𝕄) :
    bigSep (chunksOf (cL L) (jL L)) Φ = iprop(Φ (j0 L) ∗ Φ (j1 L) ∗ Φ (j2 L) ∗ Φ (j3 L) ∗ Φ (j4 L h)) := by
  rw [chunksOf_five L h,
    SparseCore.bigSep_insert' (by simp only [Finset.mem_insert, Finset.mem_singleton, Fin.ext_iff]; omega),
    SparseCore.bigSep_insert' (by simp only [Finset.mem_insert, Finset.mem_singleton, Fin.ext_iff]; omega),
    SparseCore.bigSep_insert' (by simp only [Finset.mem_insert, Finset.mem_singleton, Fin.ext_iff]; omega),
    SparseCore.bigSep_insert' (by simp only [Finset.mem_singleton, Fin.ext_iff]; omega), bigSep_singleton]
omit [FloatOps F] in
theorem bigSep_four (h : ¬ wid (cL L) (jL L) + 32 * 4 < 150) (Φ : Fin 150 → sProp 𝕄) :
    bigSep (chunksOf (cL L) (jL L)) Φ = iprop(Φ (j0 L) ∗ Φ (j1 L) ∗ Φ (j2 L) ∗ Φ (j3 L)) := by
  rw [chunksOf_four L h,
    SparseCore.bigSep_insert' (by simp only [Finset.mem_insert, Finset.mem_singleton, Fin.ext_iff]; omega),
    SparseCore.bigSep_insert' (by simp only [Finset.mem_insert, Finset.mem_singleton, Fin.ext_iff]; omega),
    SparseCore.bigSep_insert' (by simp only [Finset.mem_singleton, Fin.ext_iff]; omega), bigSep_singleton]

/-! ### The subcore's own semaphores and scratch buffers -/

abbrev s6 : GSem nD τ sig := (thrV d L, SemLoc.dma cc0_scratch6.sem)
abbrev s7 : GSem nD τ sig := (thrV d L, SemLoc.dma cc0_scratch7.sem)
abbrev s8 : GSem nD τ sig := (thrV d L, SemLoc.dma cc0_scratch8.sem)
abbrev s9 : GSem nD τ sig := (thrV d L, SemLoc.dma cc0_scratch9.sem)

omit [FloatOps F] in
theorem cell_ne {a b : SemLoc sig} (h : a ≠ b) : ((thrV d L, a) : GSem nD τ sig) ≠ (thrV d L, b) := fun e => h (Prod.ext_iff.1 e).2

omit [FloatOps F] in
theorem mem_own (a : SemLoc sig) (h : a.isScoped .scVector = true) : ((thrV d L, a) : GSem nD τ sig) ∈ ownCells (thrV d L) :=
  (mem_ownCells (g := (thrV d L, a))).mpr ⟨rfl, h⟩

omit [FloatOps F] in
/-- The four DMA semaphores are among the subcore's own: they are them, at zero, and the rest. -/
theorem ownSems0_V :
    (ownSems0 (thrV d L) : sProp 𝕄)
      = iprop(semVal (s6 d L) 0 ∗ semVal (s7 d L) 0 ∗ semVal (s8 d L) 0 ∗ semVal (s9 d L) 0
          ∗ bigSep (((((ownCells (thrV d L)).erase (s6 d L)).erase (s7 d L)).erase (s8 d L)).erase (s9 d L)) fun g => semVal g 0) := by
  unfold SparseCore.Cfg.ownSems0
  rw [SparseCore.bigSep_erase' (mem_own d L _ (by decide) : s6 d L ∈ _),
    SparseCore.bigSep_erase' (Finset.mem_erase.mpr ⟨cell_ne d L (by decide), (mem_own d L _ (by decide) : s7 d L ∈ _)⟩),
    SparseCore.bigSep_erase' (Finset.mem_erase.mpr ⟨cell_ne d L (by decide), Finset.mem_erase.mpr ⟨cell_ne d L (by decide),
      (mem_own d L _ (by decide) : s8 d L ∈ _)⟩⟩),
    SparseCore.bigSep_erase' (Finset.mem_erase.mpr ⟨cell_ne d L (by decide), Finset.mem_erase.mpr ⟨cell_ne d L (by decide),
      Finset.mem_erase.mpr ⟨cell_ne d L (by decide), (mem_own d L _ (by decide) : s9 d L ∈ _)⟩⟩⟩)]

abbrev dref (b : Ref sig .scVector) : DevRef τ sig := (Proc.scVector (cV L) (jV L)).devRef b

omit [FloatOps F] in
theorem dref_ne {a b : Ref sig .scVector} (h : a ≠ b) : dref L a ≠ dref L b := fun e => h (Proc.devRef_injective _ e)

omit [FloatOps F] in
theorem mem_ownR0 : dref L cc0_scratch0 ∈ ownRefs (τ := τ) (sig := sig) (.scVector (cV L) (jV L)) :=
  SparseCore.Cfg.mem_ownRefs_of_owner (p := Proc.scVector (cV L) (jV L)) (b := dref L cc0_scratch0) rfl
omit [FloatOps F] in
theorem mem_ownR1 : dref L cc0_scratch1 ∈ ownRefs (τ := τ) (sig := sig) (.scVector (cV L) (jV L)) :=
  SparseCore.Cfg.mem_ownRefs_of_owner (p := Proc.scVector (cV L) (jV L)) (b := dref L cc0_scratch1) rfl
omit [FloatOps F] in
theorem mem_ownR2 : dref L cc0_scratch2 ∈ ownRefs (τ := τ) (sig := sig) (.scVector (cV L) (jV L)) :=
  SparseCore.Cfg.mem_ownRefs_of_owner (p := Proc.scVector (cV L) (jV L)) (b := dref L cc0_scratch2) rfl
omit [FloatOps F] in
theorem mem_ownR3 : dref L cc0_scratch3 ∈ ownRefs (τ := τ) (sig := sig) (.scVector (cV L) (jV L)) :=
  SparseCore.Cfg.mem_ownRefs_of_owner (p := Proc.scVector (cV L) (jV L)) (b := dref L cc0_scratch3) rfl
omit [FloatOps F] in
theorem mem_ownR4 : dref L cc0_scratch4 ∈ ownRefs (τ := τ) (sig := sig) (.scVector (cV L) (jV L)) :=
  SparseCore.Cfg.mem_ownRefs_of_owner (p := Proc.scVector (cV L) (jV L)) (b := dref L cc0_scratch4) rfl
omit [FloatOps F] in
theorem mem_ownR5 : dref L cc0_scratch5 ∈ ownRefs (τ := τ) (sig := sig) (.scVector (cV L) (jV L)) :=
  SparseCore.Cfg.mem_ownRefs_of_owner (p := Proc.scVector (cV L) (jV L)) (b := dref L cc0_scratch5) rfl

omit [FloatOps F] in
/-- The six scratch buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f) ∗ (∃ f, (thrV d L).loc cc0_scratch5 ↦{fullShare} f)
          ∗ bigSep (((((((ownRefs (τ := τ) (.scVector (cV L) (jV L))).erase (dref L cc0_scratch0)).erase (dref L cc0_scratch1)).erase (dref L cc0_scratch2)).erase
              (dref L cc0_scratch3)).erase (dref L cc0_scratch4)).erase (dref L cc0_scratch5))
              fun b => iprop(∃ f, ((d, b) : Loc nD τ sig) ↦{fullShare} f)) := by
  unfold SparseCore.Cfg.ownBufs
  refine (SparseCore.bigSep_erase' (mem_ownR0 L)).trans ?_
  rw [SparseCore.bigSep_erase' (Finset.mem_erase.mpr ⟨dref_ne L (by decide), mem_ownR1 L⟩),
    SparseCore.bigSep_erase' (Finset.mem_erase.mpr ⟨dref_ne L (by decide), Finset.mem_erase.mpr ⟨dref_ne L (by decide), mem_ownR2 L⟩⟩),
    SparseCore.bigSep_erase' (Finset.mem_erase.mpr ⟨dref_ne L (by decide), Finset.mem_erase.mpr ⟨dref_ne L (by decide),
      Finset.mem_erase.mpr ⟨dref_ne L (by decide), mem_ownR3 L⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), mem_ownR4 L⟩⟩⟩⟩),
    SparseCore.bigSep_erase' (Finset.mem_erase.mpr ⟨dref_ne L (by decide), Finset.mem_erase.mpr ⟨dref_ne L (by decide),
      Finset.mem_erase.mpr ⟨dref_ne L (by decide), Finset.mem_erase.mpr ⟨dref_ne L (by decide), Finset.mem_erase.mpr ⟨dref_ne L (by decide), mem_ownR5 L⟩⟩⟩⟩⟩)]

/-! ### What the run leaves -/

/-- What a chunk's write-back leaves in the result array at the chunk's positions: the sum of the inputs there. -/
theorem landed_at {offo offx c : Fin 2 → ℕ} {inbo inbx inbf} (eo : offo = c) (ex : offx = c)
    (x : Buf (Elt F) (xLoc d)) (f : Buf (Elt F) (fLoc d)) (base : Buf (Elt F) (oLoc d)) (pay : S8x768.Idx → Elt F .f32)
    (hpay : ∀ y, pay y = addf (F := F) (s := S8x768) (φ := .f32) ((win XW offx inbx).view.read (Elt F) x) ((win FW offx inbf).view.read (Elt F) f) y) :
    ∀ i ∈ (win OW offo inbo).view.set,
      (win OW offo inbo).view.writes (Elt F) base [⟨Rect.whole S8x768, pay⟩] i = (addf x f : Buf (Elt F) (oLoc d)) i := by
  subst eo; subst ex
  intro i hi
  obtain ⟨y, -, rfl⟩ := Finset.mem_map.mp hi
  have h := View.read_writes_cons_emb (win OW _ inbo).view base (Rect.whole S8x768) pay [] y
  rw [Rect.emb_whole_apply, View.read_apply] at h
  have h' := (cast_eq _ _).symm.trans h
  refine h'.trans ((hpay y).trans ?_)
  show FloatOps.addf ((win XW _ inbx).view.read (Elt F) x y) ((win FW _ inbf).view.read (Elt F) f y) = FloatOps.addf _ _
  rw [View.read_apply, View.read_apply]
  rw [cast_eq, cast_eq]
  rfl

omit [FloatOps F] in
/-- One more wait at the kernels' index recorded. -/
theorem waits_ins {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-- The six scratch buffers at some contents, and the subcore's other buffers. -/
def bufs6 : sProp 𝕄 :=
  iprop((∃ f, hold d L A0 f) ∗ (∃ f, hold d L B0 f) ∗ (∃ f, hold d L A1 f) ∗ (∃ f, hold d L B1 f) ∗ (∃ f, hold d L O0m f) ∗ (∃ f, hold d L O1m f)
          ∗ bigSep (((((((ownRefs (τ := τ) (.scVector (cV L) (jV L))).erase (dref L cc0_scratch0)).erase (dref L cc0_scratch1)).erase (dref L cc0_scratch2)).erase
              (dref L cc0_scratch3)).erase (dref L cc0_scratch4)).erase (dref L cc0_scratch5))
              fun b => iprop(∃ f, ((d, b) : Loc nD τ sig) ↦{fullShare} f))
/-- The four DMA semaphores at zero, and the subcore's other semaphores. -/
def sems4 : sProp 𝕄 :=
  iprop(semVal (thrV d L, SemLoc.dma cc0_scratch6.sem) 0 ∗ semVal (thrV d L, SemLoc.dma cc0_scratch7.sem) 0
          ∗ semVal (thrV d L, SemLoc.dma cc0_scratch8.sem) 0 ∗ semVal (thrV d L, SemLoc.dma cc0_scratch9.sem) 0
          ∗ bigSep (((((ownCells (thrV d L)).erase (s6 d L)).erase (s7 d L)).erase (s8 d L)).erase (s9 d L)) fun g => semVal g 0)

set_option maxHeartbeats 4000000 in
/-- The task with the subcore's chunks spelt out (five chunks: the fifth is in range). -/
theorem core5 (hF : (K (F := F)).Facts) (O : CellTallies nD τ sig (HIx 1)) (W : Waits sig (HIx 1)) (hO : ∀ g, O g none = 0) (h32 : k0_cond3 L t2 = 1#1) :
    iprop(levAts (K (F := F)).L (K (F := F)).lev ∗ emp ∗ (piece X2 F2 d (O0 d) (j0 L) ∗ piece X2 F2 d (O0 d) (j1 L) ∗ piece X2 F2 d (O0 d) (j2 L) ∗ piece X2 F2 d (O0 d) (j3 L) ∗ piece X2 F2 d (O0 d) (j4 L (h4 L h32)))
        ∗ bufs6 d L ∗ sems4 d L ∗ owes (thrV d L) O W)
      ⊢ wp frame (wpE (defs₀ (F := F)) 𝒱₀ (thrV d L) none) Set.univ
          (cc0__sc_add_band0 L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9)
          fun _ => iprop((piece X2 F2 d (addf (X2 d) (F2 d)) (j0 L) ∗ piece X2 F2 d (addf (X2 d) (F2 d)) (j1 L) ∗ piece X2 F2 d (addf (X2 d) (F2 d)) (j2 L) ∗ piece X2 F2 d (addf (X2 d) (F2 d)) (j3 L) ∗ piece X2 F2 d (addf (X2 d) (F2 d)) (j4 L (h4 L h32))) ∗ bufs6 d L ∗ sems4 d L
            ∗ ∃ W', ⌜∀ p ∈ W', p ∈ W ∨ p.2 = none⌝ ∗ owes (thrV d L) O W') := by
  have k0_h1 := c1 L
  have k0_h2 := c2 L
  have h30 := c3_0 L
  have h31 := c3_1 L
  have h40 := c4_0
  have h41 := c4_1
  have h42 := c4_2
  have h50 := c5_0 L
  have h51 : k0_cond5 L t1 = 1#1 := (c5_1 L).trans h32
  have h52 := c5_2 L
  have h60 := c6_0 L
  have h61 := c6_1 L
  have h62 := c6_2 L
  have h70 := c7_0
  have h71 := c7_1
  have h80 := c8_0 L
  have h81 := c8_1 L
  have _p0 : Transfers.BatchOf (thrV d L) (SemLoc.dma (sig := sig) cc0_scratch6.sem) 2 := trivial
  have _p1 : Transfers.BatchOf (thrV d L) (SemLoc.dma (sig := sig) cc0_scratch7.sem) 2 := trivial
  simp only [cc0__sc_add_band0_eq_skeleton]; unfold cc0__sc_add_band0_skel
  unfold bufs6 sems4 piece
  iintro ⟨#Hlv, -, ⟨⟨Hx0, Hf0, Ho0⟩, ⟨Hx1, Hf1, Ho1⟩, ⟨Hx2, Hf2, Ho2⟩, ⟨Hx3, Hf3, Ho3⟩, ⟨Hx4, Hf4, Ho4⟩⟩, ⟨⟨%a0, Ha0⟩, ⟨%b0, Hb0⟩, ⟨%a1, Ha1⟩, ⟨%b1, Hb1⟩, ⟨%o0, Hoo0⟩, ⟨%o1, Hoo1⟩, Hbufs⟩, ⟨Hs6, Hs7, Hs8, Hs9, Hsems⟩, HO⟩
  ihave Hmw := ((K (F := F)).mayWaits_none (thr := thrV d L) hO) $$ Hlv
  -- the chunks as the program's own windows
  ihave Hx0 := (Entails.of_eq (pts_winX d L (inb := k0_off1_inb L (c1 L)) _ (ex0 L) _).symm) $$ Hx0
  ihave Hf0 := (Entails.of_eq (pts_winF d L (inb := k0_off1_inb L (c1 L)) _ (ex0 L) _).symm) $$ Hf0
  ihave Ho0 := (Entails.of_eq (pts_winO d L (inb := k0_off3_inb L t0 (c3_0 L)) _ (eo0 L) _).symm) $$ Ho0
  ihave Hx1 := (Entails.of_eq (pts_winX d L (inb := k0_off2_inb L (c2 L)) _ (ex1 L) _).symm) $$ Hx1
  ihave Hf1 := (Entails.of_eq (pts_winF d L (inb := k0_off2_inb L (c2 L)) _ (ex1 L) _).symm) $$ Hf1
  ihave Ho1 := (Entails.of_eq (pts_winO d L (inb := k0_off54_inb L t0 (c6_0 L)) _ (eo1 L) _).symm) $$ Ho1
  ihave Hx2 := (Entails.of_eq (pts_winX d L (inb := k0_off53_inb L t0 (c3_0 L) (c5_0 L)) _ (ex2 L) _).symm) $$ Hx2
  ihave Hf2 := (Entails.of_eq (pts_winF d L (inb := k0_off53_inb L t0 (c3_0 L) (c5_0 L)) _ (ex2 L) _).symm) $$ Hf2
  ihave Ho2 := (Entails.of_eq (pts_winO d L (inb := k0_off3_inb L t1 (c3_1 L)) _ (eo2 L) _).symm) $$ Ho2
  ihave Hx3 := (Entails.of_eq (pts_winX d L (inb := k0_off104_inb L t0 (c6_0 L) (c8_0 L)) _ (ex3 L) _).symm) $$ Hx3
  ihave Hf3 := (Entails.of_eq (pts_winF d L (inb := k0_off104_inb L t0 (c6_0 L) (c8_0 L)) _ (ex3 L) _).symm) $$ Hf3
  ihave Ho3 := (Entails.of_eq (pts_winO d L (inb := k0_off54_inb L t1 (c6_1 L)) _ (eo3 L) _).symm) $$ Ho3
  ihave Hx4 := (Entails.of_eq (pts_winX d L (inb := k0_off53_inb L t1 (c3_1 L) ((c5_1 L).trans h32)) _ (ex4 L (h4 L h32)) _).symm) $$ Hx4
  ihave Hf4 := (Entails.of_eq (pts_winF d L (inb := k0_off53_inb L t1 (c3_1 L) ((c5_1 L).trans h32)) _ (ex4 L (h4 L h32)) _).symm) $$ Hf4
  ihave Ho4 := (Entails.of_eq (pts_winO d L (inb := k0_off3_inb L t2 h32) _ (eo4 L (h4 L h32)) _).symm) $$ Ho4
  sl_exec
  sl_unroll
  sl_exec
  -- chunk 0: parity 0, trip 0
  ihave Hn := (hold_name _) $$ Ha0
  icases Hn with ⟨%ca0, %hca0, Ha0⟩
  ihave Hn := (hold_name _) $$ Hb0
  icases Hn with ⟨%cb0, %hcb0, Hb0⟩
  sl_for (rowInv0 d L ca0 cb0) $$ [Ha0 Hb0 Hoo0]
  case region => exact fun k _ => row0_step d L _ h30 k ca0 cb0
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g0, Hoo0, %hg0⟩
  sl_exec
  -- chunk 1: parity 1, trip 0
  ihave Hn := (hold_name _) $$ Ha1
  icases Hn with ⟨%ca1, %hca1, Ha1⟩
  ihave Hn := (hold_name _) $$ Hb1
  icases Hn with ⟨%cb1, %hcb1, Hb1⟩
  sl_for (rowInv1 d L ca1 cb1) $$ [Ha1 Hb1 Hoo1]
  case region => exact fun k _ => row1_step d L _ h60 k ca1 cb1
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g1, Hoo1, %hg1⟩
  sl_exec
  -- chunk 2: parity 0, trip 1
  ihave Hn := (hold_name _) $$ Ha0
  icases Hn with ⟨%ca2, %hca2, Ha0⟩
  ihave Hn := (hold_name _) $$ Hb0
  icases Hn with ⟨%cb2, %hcb2, Hb0⟩
  sl_for (rowInv0 d L ca2 cb2) $$ [Ha0 Hb0 Hoo0]
  case region => exact fun k _ => row0_step d L _ h31 k ca2 cb2
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g2, Hoo0, %hg2⟩
  sl_exec
  -- chunk 3: parity 1, trip 1
  ihave Hn := (hold_name _) $$ Ha1
  icases Hn with ⟨%ca3, %hca3, Ha1⟩
  ihave Hn := (hold_name _) $$ Hb1
  icases Hn with ⟨%cb3, %hcb3, Hb1⟩
  sl_for (rowInv1 d L ca3 cb3) $$ [Ha1 Hb1 Hoo1]
  case region => exact fun k _ => row1_step d L _ h61 k ca3 cb3
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g3, Hoo1, %hg3⟩
  sl_exec
  -- chunk 4: parity 0, trip 2
  ihave Hn := (hold_name _) $$ Ha0
  icases Hn with ⟨%ca4, %hca4, Ha0⟩
  ihave Hn := (hold_name _) $$ Hb0
  icases Hn with ⟨%cb4, %hcb4, Hb0⟩
  sl_for (rowInv0 d L ca4 cb4) $$ [Ha0 Hb0 Hoo0]
  case region => exact fun k _ => row0_step d L _ h32 k ca4 cb4
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g4, Hoo0, %hg4⟩
  sl_exec
  sl_step
  -- the chunks of the result array hold the sum
  ihave Ho0 := (Entails.of_eq (pointsTo_congr (landed_at d (eo0 L) (ex0 L) (X2 d) (F2 d) _ _
      (fun y => (hg0 y (y 0).isLt).trans (by subst hca0 hcb0; simp only [sum0, View.read_write_univ]; rfl))))) $$ Ho0
  ihave Ho1 := (Entails.of_eq (pointsTo_congr (landed_at d (eo1 L) (ex1 L) (X2 d) (F2 d) _ _
      (fun y => (hg1 y (y 0).isLt).trans (by subst hca1 hcb1; simp only [sum1, View.read_write_univ]; rfl))))) $$ Ho1
  ihave Ho2 := (Entails.of_eq (pointsTo_congr (landed_at d (eo2 L) (ex2 L) (X2 d) (F2 d) _ _
      (fun y => (hg2 y (y 0).isLt).trans (by subst hca2 hcb2; simp only [sum0, View.read_write_univ]; rfl))))) $$ Ho2
  ihave Ho3 := (Entails.of_eq (pointsTo_congr (landed_at d (eo3 L) (ex3 L) (X2 d) (F2 d) _ _
      (fun y => (hg3 y (y 0).isLt).trans (by subst hca3 hcb3; simp only [sum1, View.read_write_univ]; rfl))))) $$ Ho3
  ihave Ho4 := (Entails.of_eq (pointsTo_congr (landed_at d (eo4 L (h4 L h32)) (ex4 L (h4 L h32)) (X2 d) (F2 d) _ _
      (fun y => (hg4 y (y 0).isLt).trans (by subst hca4 hcb4; simp only [sum0, View.read_write_univ]; rfl))))) $$ Ho4
  isplitl [Hx0 Hf0 Ho0 Hx1 Hf1 Ho1 Hx2 Hf2 Ho2 Hx3 Hf3 Ho3 Hx4 Hf4 Ho4]
  · isplitl [Hx0 Hf0 Ho0]
    · isplitl [Hx0]; · iapply (Entails.of_eq (pts_winX d L _ (ex0 L) _)); iexact Hx0
      isplitl [Hf0]; · iapply (Entails.of_eq (pts_winF d L _ (ex0 L) _)); iexact Hf0
      iapply (Entails.of_eq (pts_winO d L _ (eo0 L) _)); iexact Ho0
    isplitl [Hx1 Hf1 Ho1]
    · isplitl [Hx1]; · iapply (Entails.of_eq (pts_winX d L _ (ex1 L) _)); iexact Hx1
      isplitl [Hf1]; · iapply (Entails.of_eq (pts_winF d L _ (ex1 L) _)); iexact Hf1
      iapply (Entails.of_eq (pts_winO d L _ (eo1 L) _)); iexact Ho1
    isplitl [Hx2 Hf2 Ho2]
    · isplitl [Hx2]; · iapply (Entails.of_eq (pts_winX d L _ (ex2 L) _)); iexact Hx2
      isplitl [Hf2]; · iapply (Entails.of_eq (pts_winF d L _ (ex2 L) _)); iexact Hf2
      iapply (Entails.of_eq (pts_winO d L _ (eo2 L) _)); iexact Ho2
    isplitl [Hx3 Hf3 Ho3]
    · isplitl [Hx3]; · iapply (Entails.of_eq (pts_winX d L _ (ex3 L) _)); iexact Hx3
      isplitl [Hf3]; · iapply (Entails.of_eq (pts_winF d L _ (ex3 L) _)); iexact Hf3
      iapply (Entails.of_eq (pts_winO d L _ (eo3 L) _)); iexact Ho3
    isplitl [Hx4]; · iapply (Entails.of_eq (pts_winX d L _ (ex4 L (h4 L h32)) _)); iexact Hx4
    isplitl [Hf4]; · iapply (Entails.of_eq (pts_winF d L _ (ex4 L (h4 L h32)) _)); iexact Hf4
    iapply (Entails.of_eq (pts_winO d L _ (eo4 L (h4 L h32)) _)); iexact Ho4
  isplitl [Ha0 Hb0 Ha1 Hb1 Hoo0 Hoo1 Hbufs]
  · isplitl [Ha0]; · iexists _; iexact Ha0
    isplitl [Hb0]; · iexists _; iexact Hb0
    isplitl [Ha1]; · iexists _; iexact Ha1
    isplitl [Hb1]; · iexists _; iexact Hb1
    isplitl [Hoo0]; · iexists _; iexact Hoo0
    isplitl [Hoo1]; · iexists _; iexact Hoo1
    iexact Hbufs
  isplitl [Hs6 Hs7 Hs8 Hs9 Hsems]
  · isplitl [Hs6]; · iexact Hs6
    isplitl [Hs7]; · iexact Hs7
    isplitl [Hs8]; · iexact Hs8
    isplitl [Hs9]; · iexact Hs9
    iexact Hsems
  iexists _; isplitr
  rotate_left
  · iexact HO
  · ipureintro
    repeat apply waits_ins
    exact fun p hp => Or.inl hp

set_option maxHeartbeats 4000000 in
/-- The task with the subcore's chunks spelt out (four chunks: the fifth is out of range). -/
theorem core4 (hF : (K (F := F)).Facts) (O : CellTallies nD τ sig (HIx 1)) (W : Waits sig (HIx 1)) (hO : ∀ g, O g none = 0) (h32 : ¬ k0_cond3 L t2 = 1#1) :
    iprop(levAts (K (F := F)).L (K (F := F)).lev ∗ emp ∗ (piece X2 F2 d (O0 d) (j0 L) ∗ piece X2 F2 d (O0 d) (j1 L) ∗ piece X2 F2 d (O0 d) (j2 L) ∗ piece X2 F2 d (O0 d) (j3 L))
        ∗ bufs6 d L ∗ sems4 d L ∗ owes (thrV d L) O W)
      ⊢ wp frame (wpE (defs₀ (F := F)) 𝒱₀ (thrV d L) none) Set.univ
          (cc0__sc_add_band0 L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9)
          fun _ => iprop((piece X2 F2 d (addf (X2 d) (F2 d)) (j0 L) ∗ piece X2 F2 d (addf (X2 d) (F2 d)) (j1 L) ∗ piece X2 F2 d (addf (X2 d) (F2 d)) (j2 L) ∗ piece X2 F2 d (addf (X2 d) (F2 d)) (j3 L)) ∗ bufs6 d L ∗ sems4 d L
            ∗ ∃ W', ⌜∀ p ∈ W', p ∈ W ∨ p.2 = none⌝ ∗ owes (thrV d L) O W') := by
  have k0_h1 := c1 L
  have k0_h2 := c2 L
  have h30 := c3_0 L
  have h31 := c3_1 L
  have h40 := c4_0
  have h41 := c4_1
  have h42 := c4_2
  have h50 := c5_0 L
  have h51 : ¬ k0_cond5 L t1 = 1#1 := fun e => h32 ((c5_1 L).symm.trans e)
  have h52 := c5_2 L
  have h60 := c6_0 L
  have h61 := c6_1 L
  have h62 := c6_2 L
  have h70 := c7_0
  have h71 := c7_1
  have h80 := c8_0 L
  have h81 := c8_1 L
  have _p0 : Transfers.BatchOf (thrV d L) (SemLoc.dma (sig := sig) cc0_scratch6.sem) 2 := trivial
  have _p1 : Transfers.BatchOf (thrV d L) (SemLoc.dma (sig := sig) cc0_scratch7.sem) 2 := trivial
  simp only [cc0__sc_add_band0_eq_skeleton]; unfold cc0__sc_add_band0_skel
  unfold bufs6 sems4 piece
  iintro ⟨#Hlv, -, ⟨⟨Hx0, Hf0, Ho0⟩, ⟨Hx1, Hf1, Ho1⟩, ⟨Hx2, Hf2, Ho2⟩, ⟨Hx3, Hf3, Ho3⟩⟩, ⟨⟨%a0, Ha0⟩, ⟨%b0, Hb0⟩, ⟨%a1, Ha1⟩, ⟨%b1, Hb1⟩, ⟨%o0, Hoo0⟩, ⟨%o1, Hoo1⟩, Hbufs⟩, ⟨Hs6, Hs7, Hs8, Hs9, Hsems⟩, HO⟩
  ihave Hmw := ((K (F := F)).mayWaits_none (thr := thrV d L) hO) $$ Hlv
  -- the chunks as the program's own windows
  ihave Hx0 := (Entails.of_eq (pts_winX d L (inb := k0_off1_inb L (c1 L)) _ (ex0 L) _).symm) $$ Hx0
  ihave Hf0 := (Entails.of_eq (pts_winF d L (inb := k0_off1_inb L (c1 L)) _ (ex0 L) _).symm) $$ Hf0
  ihave Ho0 := (Entails.of_eq (pts_winO d L (inb := k0_off3_inb L t0 (c3_0 L)) _ (eo0 L) _).symm) $$ Ho0
  ihave Hx1 := (Entails.of_eq (pts_winX d L (inb := k0_off2_inb L (c2 L)) _ (ex1 L) _).symm) $$ Hx1
  ihave Hf1 := (Entails.of_eq (pts_winF d L (inb := k0_off2_inb L (c2 L)) _ (ex1 L) _).symm) $$ Hf1
  ihave Ho1 := (Entails.of_eq (pts_winO d L (inb := k0_off54_inb L t0 (c6_0 L)) _ (eo1 L) _).symm) $$ Ho1
  ihave Hx2 := (Entails.of_eq (pts_winX d L (inb := k0_off53_inb L t0 (c3_0 L) (c5_0 L)) _ (ex2 L) _).symm) $$ Hx2
  ihave Hf2 := (Entails.of_eq (pts_winF d L (inb := k0_off53_inb L t0 (c3_0 L) (c5_0 L)) _ (ex2 L) _).symm) $$ Hf2
  ihave Ho2 := (Entails.of_eq (pts_winO d L (inb := k0_off3_inb L t1 (c3_1 L)) _ (eo2 L) _).symm) $$ Ho2
  ihave Hx3 := (Entails.of_eq (pts_winX d L (inb := k0_off104_inb L t0 (c6_0 L) (c8_0 L)) _ (ex3 L) _).symm) $$ Hx3
  ihave Hf3 := (Entails.of_eq (pts_winF d L (inb := k0_off104_inb L t0 (c6_0 L) (c8_0 L)) _ (ex3 L) _).symm) $$ Hf3
  ihave Ho3 := (Entails.of_eq (pts_winO d L (inb := k0_off54_inb L t1 (c6_1 L)) _ (eo3 L) _).symm) $$ Ho3
  sl_exec
  sl_unroll
  sl_exec
  -- chunk 0: parity 0, trip 0
  ihave Hn := (hold_name _) $$ Ha0
  icases Hn with ⟨%ca0, %hca0, Ha0⟩
  ihave Hn := (hold_name _) $$ Hb0
  icases Hn with ⟨%cb0, %hcb0, Hb0⟩
  sl_for (rowInv0 d L ca0 cb0) $$ [Ha0 Hb0 Hoo0]
  case region => exact fun k _ => row0_step d L _ h30 k ca0 cb0
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g0, Hoo0, %hg0⟩
  sl_exec
  -- chunk 1: parity 1, trip 0
  ihave Hn := (hold_name _) $$ Ha1
  icases Hn with ⟨%ca1, %hca1, Ha1⟩
  ihave Hn := (hold_name _) $$ Hb1
  icases Hn with ⟨%cb1, %hcb1, Hb1⟩
  sl_for (rowInv1 d L ca1 cb1) $$ [Ha1 Hb1 Hoo1]
  case region => exact fun k _ => row1_step d L _ h60 k ca1 cb1
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g1, Hoo1, %hg1⟩
  sl_exec
  -- chunk 2: parity 0, trip 1
  ihave Hn := (hold_name _) $$ Ha0
  icases Hn with ⟨%ca2, %hca2, Ha0⟩
  ihave Hn := (hold_name _) $$ Hb0
  icases Hn with ⟨%cb2, %hcb2, Hb0⟩
  sl_for (rowInv0 d L ca2 cb2) $$ [Ha0 Hb0 Hoo0]
  case region => exact fun k _ => row0_step d L _ h31 k ca2 cb2
  · unfold rowInv0
    isplitl [Ha0]; · iexact Ha0
    isplitl [Hb0]; · iexact Hb0
    iexists _; isplitl [Hoo0]; · iexact Hoo0
    ipureintro; intro y hy; exact absurd hy (Nat.not_lt_zero _)
  iintro %_ HI
  unfold rowInv0
  icases HI with ⟨Ha0, Hb0, %g2, Hoo0, %hg2⟩
  sl_exec
  -- chunk 3: parity 1, trip 1
  ihave Hn := (hold_name _) $$ Ha1
  icases Hn with ⟨%ca3, %hca3, Ha1⟩
  ihave Hn := (hold_name _) $$ Hb1
  icases Hn with ⟨%cb3, %hcb3, Hb1⟩
  sl_for (rowInv1 d L ca3 cb3) $$ [Ha1 Hb1 Hoo1]
  case region => exact fun k _ => row1_step d L _ h61 k ca3 cb3
  · unfold rowInv1
    isplitl [Ha1]; · iexact Ha1
    isplitl [Hb1]; · iexact Hb1
    iexists _; isplitl [Hoo1]; · iexact Hoo1
    ipureintro; intro y hy; exact absurd hy (Nat.not_lt_zero _)
  iintro %_ HI
  unfold rowInv1
  icases HI with ⟨Ha1, Hb1, %g3, Hoo1, %hg3⟩
  sl_exec
  sl_step
  -- the chunks of the result array hold the sum
  ihave Ho0 := (Entails.of_eq (pointsTo_congr (landed_at d (eo0 L) (ex0 L) (X2 d) (F2 d) _ _
      (fun y => (hg0 y (y 0).isLt).trans (by subst hca0 hcb0; simp only [sum0, View.read_write_univ]; rfl))))) $$ Ho0
  ihave Ho1 := (Entails.of_eq (pointsTo_congr (landed_at d (eo1 L) (ex1 L) (X2 d) (F2 d) _ _
      (fun y => (hg1 y (y 0).isLt).trans (by subst hca1 hcb1; simp only [sum1, View.read_write_univ]; rfl))))) $$ Ho1
  ihave Ho2 := (Entails.of_eq (pointsTo_congr (landed_at d (eo2 L) (ex2 L) (X2 d) (F2 d) _ _
      (fun y => (hg2 y (y 0).isLt).trans (by subst hca2 hcb2; simp only [sum0, View.read_write_univ]; rfl))))) $$ Ho2
  ihave Ho3 := (Entails.of_eq (pointsTo_congr (landed_at d (eo3 L) (ex3 L) (X2 d) (F2 d) _ _
      (fun y => (hg3 y (y 0).isLt).trans (by subst hca3 hcb3; simp only [sum1, View.read_write_univ]; rfl))))) $$ Ho3
  isplitl [Hx0 Hf0 Ho0 Hx1 Hf1 Ho1 Hx2 Hf2 Ho2 Hx3 Hf3 Ho3]
  · isplitl [Hx0 Hf0 Ho0]
    · isplitl [Hx0]; · iapply (Entails.of_eq (pts_winX d L _ (ex0 L) _)); iexact Hx0
      isplitl [Hf0]; · iapply (Entails.of_eq (pts_winF d L _ (ex0 L) _)); iexact Hf0
      iapply (Entails.of_eq (pts_winO d L _ (eo0 L) _)); iexact Ho0
    isplitl [Hx1 Hf1 Ho1]
    · isplitl [Hx1]; · iapply (Entails.of_eq (pts_winX d L _ (ex1 L) _)); iexact Hx1
      isplitl [Hf1]; · iapply (Entails.of_eq (pts_winF d L _ (ex1 L) _)); iexact Hf1
      iapply (Entails.of_eq (pts_winO d L _ (eo1 L) _)); iexact Ho1
    isplitl [Hx2 Hf2 Ho2]
    · isplitl [Hx2]; · iapply (Entails.of_eq (pts_winX d L _ (ex2 L) _)); iexact Hx2
      isplitl [Hf2]; · iapply (Entails.of_eq (pts_winF d L _ (ex2 L) _)); iexact Hf2
      iapply (Entails.of_eq (pts_winO d L _ (eo2 L) _)); iexact Ho2
    isplitl [Hx3]; · iapply (Entails.of_eq (pts_winX d L _ (ex3 L) _)); iexact Hx3
    isplitl [Hf3]; · iapply (Entails.of_eq (pts_winF d L _ (ex3 L) _)); iexact Hf3
    iapply (Entails.of_eq (pts_winO d L _ (eo3 L) _)); iexact Ho3
  isplitl [Ha0 Hb0 Ha1 Hb1 Hoo0 Hoo1 Hbufs]
  · isplitl [Ha0]; · iexists _; iexact Ha0
    isplitl [Hb0]; · iexists _; iexact Hb0
    isplitl [Ha1]; · iexists _; iexact Ha1
    isplitl [Hb1]; · iexists _; iexact Hb1
    isplitl [Hoo0]; · iexists _; iexact Hoo0
    isplitl [Hoo1]; · iexists _; iexact Hoo1
    iexact Hbufs
  isplitl [Hs6 Hs7 Hs8 Hs9 Hsems]
  · isplitl [Hs6]; · iexact Hs6
    isplitl [Hs7]; · iexact Hs7
    isplitl [Hs8]; · iexact Hs8
    isplitl [Hs9]; · iexact Hs9
    iexact Hsems
  iexists _; isplitr
  rotate_left
  · iexact HO
  · ipureintro
    repeat apply waits_ins
    exact fun p hp => Or.inl hp

/-- One vector subcore's task: from its chunks of the inputs and of the result array, its scratch buffers and its
    semaphores at zero, the kernel runs to the end and leaves the result array's chunks at the sum. -/
theorem tile_body (hF : (K (F := F)).Facts) (O : CellTallies nD τ sig (HIx 1)) (W : Waits sig (HIx 1)) (hO : ∀ g, O g none = 0) :
    iprop(levAts (K (F := F)).L (K (F := F)).lev ∗ emp ∗ goRes X2 F2 O0 d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_add_band0 L (Memref.whole main_v1_scv) (Memref.isWhole_whole _) (Memref.whole main_v3_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8 cc0_scratch9)
          fun _ => iprop(tdRes X2 F2 d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goRes tdRes
  by_cases h32 : k0_cond3 L t2 = 1#1
  · rw [bigSep_five L (h4 L h32), bigSep_five L (h4 L h32)]
    exact core5 X2 F2 O0 d L hF O W hO h32
  · rw [bigSep_four L (h4' L h32), bigSep_four L (h4' L h32)]
    exact core4 X2 F2 O0 d L hF O W hO h32

end Tile

end Cert.Proof.KB

end
-- ==== Proof.LaunchB.lean ====
/-
  The SparseCore launch theorem's obligations for the one vector-subcore call: the task of a vector subcore as the
  launch theorem states it, and how a SparseCore's operands split among its sixteen tasks.
-/
import proofs.«202046_g2697239462394_cont_9to1_340_20_alg».proof.Proof.TileBodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (X2 : (d : Dev nD) → Buf (Elt F) (xLoc d)) (F2 : (d : Dev nD) → Buf (Elt F) (fLoc d)) (O0 : (d : Dev nD) → Buf (Elt F) (oLoc d))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_add_band0 (coordsV c s)
          (Memref.whole main_v1_scv) (Memref.isWhole_whole _) (Memref.whole main_v3_scv) (Memref.isWhole_whole _)
          (Memref.whole main_v4_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) cc0_scratch6 cc0_scratch7 cc0_scratch8 cc0_scratch9) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P X2 F2 O0) v₀ 0 := by
  intro d c i O W hO _ _
  simp only [show (P X2 F2 O0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X2 F2 O0 d (coordsV ⟨_, hc.1⟩ ⟨_, hc.2⟩) hF O W hO).trans (wp_mono frame _ _ fun _ => obl_post)

theorem vecSplit : (K (F := F)).VecSplit' (P X2 F2 O0) 0 := by
  intro d c
  show (bigSep Finset.univ fun i : Fin 16 => goRes X2 F2 O0 d (Fin.cast nCore_zero c) i) ⊢ |={Set.univ}=> iprop(
      (bigSep Finset.univ fun i : Fin 16 => goRes X2 F2 O0 d (Fin.cast nCore_zero c) i)
      ∗ ((bigSep Finset.univ fun i : Fin 16 => tdRes X2 F2 d (Fin.cast nCore_zero c) i)
          -∗ (bigSep Finset.univ fun i : Fin 16 => tdRes X2 F2 d (Fin.cast nCore_zero c) i)))
  iintro H; imodintro
  isplitl [H]; · iexact H
  iintro H; iexact H

end Cert.Proof.KB

end
-- ==== Proof.RegionB.lean ====
/-
  The TensorCore kernel's region, at the contents `V` of the TensorCore's arrays when the region is entered.
  The kernel adds its two input blocks into its output block: three blocks of [16, 38400] cover rows 0..16 of the
  [24, 115200] result array, whose rows 16..24 no block covers and which therefore keep what they held at entry.
-/
import proofs.«202046_g2697239462394_cont_9to1_340_20_alg».proof.Proof.SetupB
import Idealize.ShloMosaic.Lib.Pipeline.FrameBody
import Idealize.ShloMosaic.Lib.Pipeline.FrameSuffix
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the region is entered
variable (V : (c : Dev nD) → (b : Ref sig .tc) → Buf (Elt F) ((c : Thread nD τ).loc b))

/-- The two input windows' blocks at point `t`, as the fetch reads them off the arrays the region finds. -/
def xblk (c : Dev nD) (t : Fin cfg1.N) : (win1_0.xblock (grid1.coords t)).Idx → Elt F .f32 :=
  (win1_0.blk t).view.read (Elt F) (V c main_v1)
def yblk (c : Dev nD) (t : Fin cfg1.N) : (win1_1.xblock (grid1.coords t)).Idx → Elt F .f32 :=
  (win1_1.blk t).view.read (Elt F) (V c main_v3)

/-- The pipeline's proof data on core `c`: the arrays as the region finds them; after the body at a point each input's
    staging buffer at its block and the output's at the two blocks' sum (filled out, where a block would pass the array's
    end, with a word nothing reads: no block here does); no invariant; nothing owed; full shares. -/
def dat1 (R : Set (SemLoc sig × HIx 1)) (c : Dev nD) : Dat τ (Elt F) (HIx 1) ℕ UU ℕ cfg1 c where
  A w := V c (Pipeline.arrRef spec1 w)
  after w t := match w with
    | ⟨0, _⟩ => win1_0.fill (grid1.coords t) (fun _ => Scalar.ofBits .f32 0#32) (xblk V c t)
    | ⟨1, _⟩ => win1_1.fill (grid1.coords t) (fun _ => Scalar.ofBits .f32 0#32) (yblk V c t)
    | ⟨2, _⟩ => fun J => FloatOps.addf (win1_0.fill (grid1.coords t) (fun _ => Scalar.ofBits .f32 0#32) (xblk V c t) J)
        (win1_1.fill (grid1.coords t) (fun _ => Scalar.ofBits .f32 0#32) (yblk V c t) J)
  Φ _ := iprop(emp)
  q _ := fullShare
  owed _ := 0
  recorded _ := R

/-- The unit-stride rectangle of a shape's own sizes at offsets that are all zero indexes the shape by the identity. -/
theorem emb_unit_zero {s : Shape} {off : Fin s.rank → Nat} (h : off = fun _ => 0) (inb : ∀ a, off a + s.size a ≤ s.size a)
    (x : (Rect.unit off s.size inb).shape.Idx) : (Rect.unit off s.size inb).emb x = x := by
  subst h; exact Rect.emb_whole_apply s x

set_option maxHeartbeats 1000000 in
/-- The kernel body on whole staging memrefs `a1`, `a2` of the two inputs at contents `X0`, `X1` and `a4` of the result at
    anything: the whole loads of the first two, their lane-wise sum, the dead load of the result's, the whole store — the
    result's memref ends holding `X0 + X1`, the other two what they held. The operand `a3` is named by no operation. -/
theorem sound_kernel1 (c : Dev nD) (E : Set ℕ) (i : grid1.Coords)
    (a1 : Memref sig .tc .vmem S16x38400 .f32) (h1 : a1.IsWhole) (a2 : Memref sig .tc .vmem S16x38400 .f32) (h2 : a2.IsWhole)
    (a3 : Memref sig .tc .hbm S24x115200 .f32) (h3 : a3.IsWhole)
    (a4 : Memref sig .tc .vmem S16x38400 .f32) (h4 : a4.IsWhole)
    (X0 X1 X2 : S16x38400.Idx → Elt F .f32) (K : PUnit → sProp 𝕄) :
    iprop((owns (c : Thread nD τ) a1 fullShare X0 ∗ owns (c : Thread nD τ) a2 fullShare X1
            ∗ owns (c : Thread nD τ) a4 fullShare X2)
          ∗ (iprop(owns (c : Thread nD τ) a1 fullShare X0 ∗ owns (c : Thread nD τ) a2 fullShare X1
                  ∗ owns (c : Thread nD τ) a4 fullShare (addf X0 X1)) -∗ K ⟨⟩))
      ⊢ wp frame (wpE (defs₀ (F := F)) Variants.none c none) E (cc1__tc_body i a1 h1 a2 h2 a3 h3 a4 h4) K := by
  simp only [cc1__tc_body_eq_skeleton]; unfold cc1__tc_body_skel
  unfold owns
  iintro ⟨⟨⟨%f0, %hf0, H0⟩, ⟨%f1, %hf1, H1⟩, ⟨%f2, %hf2, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the store's rectangle is the whole block at offsets zero: under it every index reads the payload, the sum of
  -- what the two loads read through the same rectangle, which is what the memrefs read at that index
  have hz : (![0, 0] : Fin 2 → Nat) = fun _ => 0 := funext fun a => by fin_cases a <;> rfl
  funext y
  have he := emb_unit_zero (s := S16x38400) hz inb_S16x38400_S16x38400_0_0 y
  have hw := View.read_writes_cons_emb a4.view f2 (Rect.unit (s := S16x38400) ![0, 0] S16x38400.size inb_S16x38400_S16x38400_0_0)
    (k1_pay1 (View.readAt (Elt F) a1.view (Rect.unit (s := S16x38400) ![0, 0] S16x38400.size inb_S16x38400_S16x38400_0_0).toLoadRect f0)
      (View.readAt (Elt F) a2.view (Rect.unit (s := S16x38400) ![0, 0] S16x38400.size inb_S16x38400_S16x38400_0_0).toLoadRect f1)) [] y
  rw [he] at hw
  rw [hw]
  unfold k1_pay1
  rw [shapeCast_self, shapeCast_self]
  show FloatOps.addf (View.read (Elt F) a1.view f0 ((Rect.unit (s := S16x38400) ![0, 0] S16x38400.size inb_S16x38400_S16x38400_0_0).emb y))
      (View.read (Elt F) a2.view f1 ((Rect.unit (s := S16x38400) ![0, 0] S16x38400.size inb_S16x38400_S16x38400_0_0).emb y))
    = FloatOps.addf (View.read (Elt F) a1.view f0 y) (View.read (Elt F) a2.view f1 y)
  rw [he]

/-! ## What the body finds in the staging buffers -/

/-- The inputs' buffers are just fetched at every point: the block on the part the fetch fills, `d` elsewhere; -/
theorem before1_0 (R : Set (SemLoc sig × HIx 1)) (c : Dev nD) (t : Fin cfg1.N) (d) :
    (dat1 V R c).before (0 : Fin 3) t d = win1_0.fill (grid1.coords t) d (xblk V c t) := by
  unfold Dat.before; rw [if_pos (fetch1_0 t)]; rfl
theorem before1_1 (R : Set (SemLoc sig × HIx 1)) (c : Dev nD) (t : Fin cfg1.N) (d) :
    (dat1 V R c).before (1 : Fin 3) t d = win1_1.fill (grid1.coords t) d (yblk V c t) := by
  unfold Dat.before; rw [if_pos (fetch1_1 t)]; rfl
/-- the result's, written back at every point, holds contents nothing names. -/
theorem before1_2 (R : Set (SemLoc sig × HIx 1)) (c : Dev nD) (t : Fin cfg1.N) (d) : (dat1 V R c).before (2 : Fin 3) t d = d :=
  (dat1 V R c).before_out_reset (2 : Fin 3) rfl t
    (by by_cases h : t.val = 0
        · exact .inl h
        · exact .inr ⟨h, flush1_2 _⟩) d

/-- The body obligation of the pipeline library, at every point. -/
theorem body_obligation1 (R : Set (SemLoc sig × HIx 1)) (c : Dev nD) : Pipeline.BodyObligationLoose (dat1 (F := F) V R c) (defs₀ (F := F)) Variants.none (none : HIx 1) Set.univ := fun t => by
  rw [bigSep_W1, bigSep_W1]
  simp only
  rw [show (dat1 V R c).Φ t.succ = (dat1 V R c).Φ t.castSucc from rfl,
    show (dat1 V R c).owesAt (none : HIx 1) t.succ = (dat1 V R c).owesAt (none : HIx 1) t.castSucc from rfl]
  iintro ⟨HΦ, Ho, ⟨%d0, H0⟩, ⟨%d1, H1⟩, ⟨%d2, H2⟩⟩
  rw [before1_0 V R c t d0, before1_1 V R c t d1, before1_2 V R c t d2]
  iapply (sound_kernel1 (F := F) c Set.univ (grid1.coords t) (win1_0.stage (cfg1.slots t 0)) (hstage1_0 ((cfg1.slots t 0).cast nbuf1_0))
    (win1_1.stage (cfg1.slots t 1)) (hstage1_1 ((cfg1.slots t 1).cast nbuf1_1)) (Memref.whole main_v4) (Memref.isWhole_whole _)
    (win1_2.stage (cfg1.slots t 2)) (hstage1_2 ((cfg1.slots t 2).cast nbuf1_2))
    (win1_0.fill (grid1.coords t) d0 (xblk V c t)) (win1_1.fill (grid1.coords t) d1 (yblk V c t)) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  -- each buffer is handed back stated on the part its transfers move: the inputs' hold their blocks there
  -- (`Window.cut_fill`), the result's the two blocks' sum, whatever fills the three out elsewhere
  have hx : win1_0.cut (grid1.coords t) ((dat1 V R c).after (0 : Fin 3) t) = xblk V c t := win1_0.cut_fill _ _ _
  have hy : win1_1.cut (grid1.coords t) ((dat1 V R c).after (1 : Fin 3) t) = yblk V c t := win1_1.cut_fill _ _ _
  have hs : win1_2.cut (grid1.coords t) (addf (win1_0.fill (grid1.coords t) d0 (xblk V c t)) (win1_1.fill (grid1.coords t) d1 (yblk V c t)))
      = win1_2.cut (grid1.coords t) ((dat1 V R c).after (2 : Fin 3) t) := by
    funext j
    show FloatOps.addf (win1_0.fill (grid1.coords t) d0 (xblk V c t) (win1_0.xinj (grid1.coords t) j))
        (win1_1.fill (grid1.coords t) d1 (yblk V c t) (win1_1.xinj (grid1.coords t) j))
      = FloatOps.addf (win1_0.fill (grid1.coords t) (fun _ => Scalar.ofBits .f32 0#32) (xblk V c t) (win1_0.xinj (grid1.coords t) j))
        (win1_1.fill (grid1.coords t) (fun _ => Scalar.ofBits .f32 0#32) (yblk V c t) (win1_1.xinj (grid1.coords t) j))
    have a0 : ∀ d, win1_0.fill (grid1.coords t) d (xblk V c t) (win1_0.xinj (grid1.coords t) j) = xblk V c t j :=
      fun d => win1_0.fill_xinj (grid1.coords t) d (xblk V c t) j
    have a1 : ∀ d, win1_1.fill (grid1.coords t) d (yblk V c t) (win1_1.xinj (grid1.coords t) j) = yblk V c t j :=
      fun d => win1_1.fill_xinj (grid1.coords t) d (yblk V c t) j
    rw [a0 d0, a1 d1, a0, a1]
  isplitl [H0]
  · iexists d0
    rw [show (win1 0).cut (grid1.coords t) ((dat1 V R c).after 0 t) = xblk V c t from hx]; iexact H0
  isplitl [H1]
  · iexists d1
    rw [show (win1 1).cut (grid1.coords t) ((dat1 V R c).after 1 t) = yblk V c t from hy]; iexact H1
  · iexists addf (win1_0.fill (grid1.coords t) d0 (xblk V c t)) (win1_1.fill (grid1.coords t) d1 (yblk V c t))
    rw [show (win1 2).fill (grid1.coords t) (addf (win1_0.fill (grid1.coords t) d0 (xblk V c t)) (win1_1.fill (grid1.coords t) d1 (yblk V c t)))
        ((win1 2).cut (grid1.coords t) ((dat1 V R c).after 2 t))
      = addf (win1_0.fill (grid1.coords t) d0 (xblk V c t)) (win1_1.fill (grid1.coords t) d1 (yblk V c t)) from win1_2.fill_congr_cut _ hs]
    iexact H2

/-- The input arrays end as entered: no write-back touches them. -/
theorem arrAt1_in0 (R : Set (SemLoc sig × HIx 1)) (c : Dev nD) : (dat1 V R c).arrAt 0 cfg1.N = V c (Pipeline.arrRef spec1 0) :=
  (dat1 (F := F) V R c).arrAt_in (0 : Fin 3) rfl _
theorem arrAt1_in1 (R : Set (SemLoc sig × HIx 1)) (c : Dev nD) : (dat1 V R c).arrAt 1 cfg1.N = V c (Pipeline.arrRef spec1 1) :=
  (dat1 (F := F) V R c).arrAt_in (1 : Fin 3) rfl _

/-! ## The result array in closed form -/

/-- What each point writes back is its block of the two whole input arrays' lane-wise sum: the three windows' index
    maps and cuts agree, and a block of a lane-wise sum is the sum of the blocks (`View.read` is precomposition). -/
theorem flushed1_2 (R : Set (SemLoc sig × HIx 1)) (c : Dev nD) (t : Fin cfg1.N) :
    (dat1 V R c).flushed (2 : Fin 3) t
      = (win1_2.blk t).view.read (Elt F) (addf (V c main_v1) (V c main_v3) : FVec F S24x115200 .f32) := by
  funext j
  have a0 : win1_0.fill (grid1.coords t) (fun _ => Scalar.ofBits .f32 0#32) (xblk V c t) (win1_0.xinj (grid1.coords t) j) = xblk V c t j :=
    win1_0.fill_xinj (grid1.coords t) _ (xblk V c t) j
  have a1 : win1_1.fill (grid1.coords t) (fun _ => Scalar.ofBits .f32 0#32) (yblk V c t) (win1_1.xinj (grid1.coords t) j) = yblk V c t j :=
    win1_1.fill_xinj (grid1.coords t) _ (yblk V c t) j
  show FloatOps.addf (win1_0.fill (grid1.coords t) (fun _ => Scalar.ofBits .f32 0#32) (xblk V c t) (win1_0.xinj (grid1.coords t) j))
      (win1_1.fill (grid1.coords t) (fun _ => Scalar.ofBits .f32 0#32) (yblk V c t) (win1_1.xinj (grid1.coords t) j))
    = FloatOps.addf (xblk V c t j) (yblk V c t j)
  rw [a0, a1]

/-- The three blocks: all sixteen rows each, columns `38400 t` to `38400 (t + 1)`. -/
theorem blk_bounds1_2 (t : Fin cfg1.N) :
    win1_2.index t 0 * win1_2.size 0 = 0 ∧ win1_2.xsize (grid1.coords t) 0 = 16
      ∧ win1_2.index t 1 * win1_2.size 1 = t.val * 38400 ∧ win1_2.xsize (grid1.coords t) 1 = 38400 := by
  rcases fin_N1 t with rfl | rfl | rfl <;> decide +kernel

/-- An index of the array is in point `t`'s block iff its row is below 16 and its column among the block's. -/
theorem mem_blk1_2 (t : Fin cfg1.N) (i : S24x115200.Idx) :
    i ∈ (win1_2.blk t).view.set ↔ (i 0 : Nat) < 16 ∧ t.val * 38400 ≤ (i 1 : Nat) ∧ (i 1 : Nat) < t.val * 38400 + 38400 := by
  show i ∈ ((View.whole main_v5).slice (win1_2.rect t)).set ↔ _
  rw [View.set_slice_whole, Rect.mem_set_unit]
  obtain ⟨e0, e1, e2, e3⟩ := blk_bounds1_2 t
  constructor
  · intro h
    have h0 : win1_2.index t 0 * win1_2.size 0 ≤ (i 0 : Nat) ∧ (i 0 : Nat) < win1_2.index t 0 * win1_2.size 0 + win1_2.xsize (grid1.coords t) 0 := h (0 : Fin 2)
    have h1 : win1_2.index t 1 * win1_2.size 1 ≤ (i 1 : Nat) ∧ (i 1 : Nat) < win1_2.index t 1 * win1_2.size 1 + win1_2.xsize (grid1.coords t) 1 := h (1 : Fin 2)
    rw [e0, e1] at h0; rw [e2, e3] at h1
    exact ⟨by omega, h1.1, h1.2⟩
  · rintro ⟨h0, h1, h2⟩ a
    match a with
    | ⟨0, _⟩ =>
      change win1_2.index t 0 * win1_2.size 0 ≤ (i 0 : Nat) ∧ (i 0 : Nat) < win1_2.index t 0 * win1_2.size 0 + win1_2.xsize (grid1.coords t) 0
      rw [e0, e1]; omega
    | ⟨1, _⟩ =>
      change win1_2.index t 1 * win1_2.size 1 ≤ (i 1 : Nat) ∧ (i 1 : Nat) < win1_2.index t 1 * win1_2.size 1 + win1_2.xsize (grid1.coords t) 1
      rw [e2, e3]; omega

/-- The result array after the region: rows 0..16 the two inputs' sum, rows 16..24 as entered. -/
theorem arrAt1_out (R : Set (SemLoc sig × HIx 1)) (c : Dev nD) :
    (dat1 V R c).arrAt 2 cfg1.N = fun idx : S24x115200.Idx =>
      if (idx 0).val < 16 then (addf (V c main_v1) (V c main_v3) : FVec F S24x115200 .f32) idx else V c main_v5 idx := by
  funext idx
  -- the array ends holding the sum on the indices some point's block covers, its entry contents elsewhere; the three
  -- blocks are rows 0..16 of the column ranges [0, 38400), [38400, 76800), [76800, 115200): together, rows 0..16
  have hcov : (∃ t : Fin cfg1.N, (cfg1.win (2 : Fin 3)).flush t = true ∧ idx ∈ ((cfg1.win (2 : Fin 3)).blk t).view.set) ↔ (idx 0).val < 16 := by
    constructor
    · rintro ⟨t, -, hm⟩
      exact ((mem_blk1_2 t idx).mp hm).1
    · intro h
      have h1 : (idx 1 : Nat) < 115200 := (idx 1).isLt
      by_cases ha : (idx 1 : Nat) < 38400
      · exact ⟨t1_0, flush1_2 _, (mem_blk1_2 t1_0 idx).mpr ⟨h, by show 0 * 38400 ≤ _; omega, by show _ < 0 * 38400 + 38400; omega⟩⟩
      by_cases hb : (idx 1 : Nat) < 76800
      · exact ⟨t1_1, flush1_2 _, (mem_blk1_2 t1_1 idx).mpr ⟨h, by show 1 * 38400 ≤ _; omega, by show _ < 1 * 38400 + 38400; omega⟩⟩
      · exact ⟨t1_2, flush1_2 _, (mem_blk1_2 t1_2 idx).mpr ⟨h, by show 2 * 38400 ≤ _; omega, by show _ < 2 * 38400 + 38400; omega⟩⟩
  rw [(dat1 V R c).arrAt_eq_piecewise (2 : Fin 3) (addf (V c main_v1) (V c main_v3) : FVec F S24x115200 .f32)
    (fun t _ => flushed1_2 V R c t) idx]
  by_cases h : (idx 0).val < 16
  · rw [if_pos (hcov.mpr h), if_pos h]
  · rw [if_neg (fun hh => h (hcov.mp hh)), if_neg h]; rfl

end Cert.Proof.KB

end
-- ==== Proof.SplitB.lean ====
/-
  The [24, 115200] arrays cut into the 150 chunks of rows 16..24 and the rest (rows 0..16), and the chunks dealt to
  the 32 vector subcores: chunk j to the subcore numbered j mod 32.
-/
import proofs.«202046_g2697239462394_cont_9to1_340_20_alg».proof.Proof.PayB

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- An index lies in chunk `j` when its row is at least 16 and its column in [768 j, 768 j + 768). -/
theorem mem_chunkSet (j : Fin 150) (i : S24x115200.Idx) :
    i ∈ chunkSet j ↔ 16 ≤ (i 0).val ∧ 768 * j.val ≤ (i 1).val ∧ (i 1).val < 768 * j.val + 768 := by
  unfold chunkSet chunkRect
  rw [Rect.mem_set_unit]
  have h0 : (i 0).val < 24 := (i 0).isLt
  constructor
  · intro h
    have a := h 0; have b := h 1
    exact ⟨a.1, b.1, b.2⟩
  · rintro ⟨a, b, c⟩ x
    fin_cases x
    · exact ⟨a, show (i 0).val < 16 + 8 by omega⟩
    · exact ⟨b, c⟩

theorem chunk_disjoint : ∀ j ∈ (Finset.univ : Finset (Fin 150)), ∀ j' ∈ (Finset.univ : Finset (Fin 150)), j ≠ j' →
    Disjoint (chunkSet j) (chunkSet j') := by
  intro j _ j' _ hne
  refine Finset.disjoint_left.mpr fun i hi hi' => ?_
  rw [mem_chunkSet] at hi hi'
  exact hne (Fin.ext (by omega))

/-- Rows 16..24: the union of the chunks. -/
def band : Finset S24x115200.Idx := (Finset.univ : Finset (Fin 150)).biUnion chunkSet

theorem mem_band (i : S24x115200.Idx) : i ∈ band ↔ 16 ≤ (i 0).val := by
  unfold band
  rw [Finset.mem_biUnion]
  have h1 : (i 1).val < 115200 := (i 1).isLt
  constructor
  · rintro ⟨j, -, hj⟩; exact ((mem_chunkSet j i).mp hj).1
  · intro h
    refine ⟨⟨(i 1).val / 768, by omega⟩, Finset.mem_univ _, (mem_chunkSet _ i).mpr ⟨h, ?_, ?_⟩⟩
    · show 768 * ((i 1).val / 768) ≤ (i 1).val; omega
    · show (i 1).val < 768 * ((i 1).val / 768) + 768; omega

/-- Each chunk has one worker: the subcores' chunk sets are pairwise disjoint and cover the 150 chunks. -/
theorem chunksOf_disjoint : ∀ ci ∈ (Finset.univ : Finset (Fin 2 × Fin 16)), ∀ ci' ∈ (Finset.univ : Finset (Fin 2 × Fin 16)), ci ≠ ci' →
    Disjoint (chunksOf ci.1 ci.2) (chunksOf ci'.1 ci'.2) := by
  rintro ⟨c, i⟩ - ⟨c', i'⟩ - hne
  refine Finset.disjoint_left.mpr fun j hj hj' => hne ?_
  unfold chunksOf wid at hj hj'
  rw [Finset.mem_filter] at hj hj'
  have hc := c.isLt; have hc' := c'.isLt
  have e : 2 * i.val + c.val = 2 * i'.val + c'.val := hj.2.symm.trans hj'.2
  exact Prod.ext (Fin.ext (by omega)) (Fin.ext (by omega))

theorem chunksOf_cover : (Finset.univ : Finset (Fin 2 × Fin 16)).biUnion (fun ci => chunksOf ci.1 ci.2) = (Finset.univ : Finset (Fin 150)) := by
  ext j
  simp only [Finset.mem_biUnion, Finset.mem_univ, true_and, iff_true]
  refine ⟨(⟨j.val % 32 % 2, by omega⟩, ⟨j.val % 32 / 2, by omega⟩), ?_⟩
  unfold chunksOf wid
  rw [Finset.mem_filter]
  exact ⟨Finset.mem_univ _, by show j.val % 32 = 2 * (j.val % 32 / 2) + j.val % 32 % 2; omega⟩

/-- A family over the 150 chunks, regrouped by SparseCore and vector subcore. -/
theorem bigSep_chunks (Φ : Fin 150 → sProp 𝕄) :
    bigSep Finset.univ Φ = bigSep Finset.univ fun c : Fin 2 => bigSep Finset.univ fun i : Fin 16 => bigSep (chunksOf c i) Φ := by
  rw [← chunksOf_cover, SparseCore.Cfg.bigSep_biUnion_eq _ _ _ chunksOf_disjoint, bigSep_univ_prod]

end Cert.Proof.KB

end
-- ==== Proof.DealB.lean ====
/-
  The three [24, 115200] arrays of the SparseCore call dealt out as chunks and taken back: each whole array is its
  150 chunks of rows 16..24 and its rows 0..16; the result array comes back with its chunks at the sum and its
  rows 0..16 as they were.
-/
import proofs.«202046_g2697239462394_cont_9to1_340_20_alg».proof.Proof.SplitB

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD)

omit [FloatOps F] in
theorem x_split (f : Buf (Elt F) (xLoc d)) :
    (xLoc d ↦{fullShare} f : sProp 𝕄)
      = iprop((bigSep Finset.univ fun j : Fin 150 => xLoc d ↦[chunkSet j]{fullShare} f) ∗ xLoc d ↦[Finset.univ \ band]{fullShare} f) := by
  have h : (xLoc d ↦[Finset.univ]{fullShare} f : sProp 𝕄) ⊣⊢ iprop((xLoc d ↦[band]{fullShare} f) ∗ xLoc d ↦[Finset.univ \ band]{fullShare} f) :=
    pointsTo_split_subset (Finset.subset_univ band)
  rw [show (xLoc d ↦{fullShare} f : sProp 𝕄) = (xLoc d ↦[Finset.univ]{fullShare} f) from rfl, BI.equiv_iff.mp ⟨h.1, h.2⟩]
  unfold band
  rw [pointsTo_biUnion (ℓ := xLoc d) (q := fullShare) (f := f) Finset.univ chunkSet chunk_disjoint]

omit [FloatOps F] in
theorem f_split (f : Buf (Elt F) (fLoc d)) :
    (fLoc d ↦{fullShare} f : sProp 𝕄)
      = iprop((bigSep Finset.univ fun j : Fin 150 => fLoc d ↦[chunkSet j]{fullShare} f) ∗ fLoc d ↦[Finset.univ \ band]{fullShare} f) := by
  have h : (fLoc d ↦[Finset.univ]{fullShare} f : sProp 𝕄) ⊣⊢ iprop((fLoc d ↦[band]{fullShare} f) ∗ fLoc d ↦[Finset.univ \ band]{fullShare} f) :=
    pointsTo_split_subset (Finset.subset_univ band)
  rw [show (fLoc d ↦{fullShare} f : sProp 𝕄) = (fLoc d ↦[Finset.univ]{fullShare} f) from rfl, BI.equiv_iff.mp ⟨h.1, h.2⟩]
  unfold band
  rw [pointsTo_biUnion (ℓ := fLoc d) (q := fullShare) (f := f) Finset.univ chunkSet chunk_disjoint]

omit [FloatOps F] in
theorem o_split (f : Buf (Elt F) (oLoc d)) :
    (oLoc d ↦{fullShare} f : sProp 𝕄)
      = iprop((bigSep Finset.univ fun j : Fin 150 => oLoc d ↦[chunkSet j]{fullShare} f) ∗ oLoc d ↦[Finset.univ \ band]{fullShare} f) := by
  have h : (oLoc d ↦[Finset.univ]{fullShare} f : sProp 𝕄) ⊣⊢ iprop((oLoc d ↦[band]{fullShare} f) ∗ oLoc d ↦[Finset.univ \ band]{fullShare} f) :=
    pointsTo_split_subset (Finset.subset_univ band)
  rw [show (oLoc d ↦{fullShare} f : sProp 𝕄) = (oLoc d ↦[Finset.univ]{fullShare} f) from rfl, BI.equiv_iff.mp ⟨h.1, h.2⟩]
  unfold band
  rw [pointsTo_biUnion (ℓ := oLoc d) (q := fullShare) (f := f) Finset.univ chunkSet chunk_disjoint]

omit [FloatOps F] in
/-- The result array put back together: its chunks at `g`, its rows 0..16 at `h`. -/
theorem o_join (g h : Buf (Elt F) (oLoc d)) :
    iprop((bigSep Finset.univ fun j : Fin 150 => oLoc d ↦[chunkSet j]{fullShare} g) ∗ oLoc d ↦[Finset.univ \ band]{fullShare} h)
      ⊢ (oLoc d ↦{fullShare} (band.piecewise g h) : sProp 𝕄) := by
  have e : (oLoc d ↦[band]{fullShare} g : sProp 𝕄) = bigSep Finset.univ fun j : Fin 150 => oLoc d ↦[chunkSet j]{fullShare} g := by
    unfold band; exact pointsTo_biUnion (ℓ := oLoc d) (q := fullShare) (f := g) Finset.univ chunkSet chunk_disjoint
  rw [← e]
  exact pointsTo_join_subset (ℓ := oLoc d) (I := band) (S := Finset.univ) (q := fullShare) (f := h) (g := g) (Finset.subset_univ band)

variable (X2 : (d : Dev nD) → Buf (Elt F) (xLoc d)) (F2 : (d : Dev nD) → Buf (Elt F) (fLoc d))

theorem pieces_eq (g : Buf (Elt F) (oLoc d)) :
    bigSep Finset.univ (piece X2 F2 d g)
      = iprop((bigSep Finset.univ fun j : Fin 150 => xLoc d ↦[chunkSet j]{fullShare} X2 d)
          ∗ (bigSep Finset.univ fun j : Fin 150 => fLoc d ↦[chunkSet j]{fullShare} F2 d)
          ∗ (bigSep Finset.univ fun j : Fin 150 => (oLoc d ↦[chunkSet j]{fullShare} g : sProp 𝕄))) := by
  unfold piece
  rw [bigSep_sep', bigSep_sep']

end Cert.Proof.KB

end
-- ==== Proof.ValsB.lean ====
/-
  The values along @main: the host operations, the buffer contents at each boundary (the launch, the SparseCore
  call, the TensorCore kernel's region entry and exit, the return), and the TensorCore pipeline's proof data.
-/
import proofs.«202046_g2697239462394_cont_9to1_340_20_alg».proof.Proof.LaunchB
import proofs.«202046_g2697239462394_cont_9to1_340_20_alg».proof.Proof.RegionB
import proofs.«202046_g2697239462394_cont_9to1_340_20_alg».proof.Proof.DealB
import Idealize.ShloMosaic.Lib.Pipeline.RegionsLoop

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations before the SparseCore call, and the arrays the call finds -/

abbrev op0 : HloOp τ sig (Elt F) := StableHlo.unary main_arg0 main_v0 ((transpose S3x8x115200 [2, 0, 1] · transposes_S8x115200x3_S3x8x115200_2_0_1) : (⟨S8x115200x3, .f32⟩ : BufTy).Contents (Elt F) → (⟨S3x8x115200, .f32⟩ : BufTy).Contents (Elt F))
abbrev op1 : HloOp τ sig (Elt F) := StableHlo.reshape main_v0 main_v1 rfl shapeCasts_S3x8x115200_S24x115200
abbrev op2 : HloOp τ sig (Elt F) := StableHlo.unary main_arg1 main_v2 ((transpose S3x8x115200 [2, 0, 1] · transposes_S8x115200x3_S3x8x115200_2_0_1) : (⟨S8x115200x3, .f32⟩ : BufTy).Contents (Elt F) → (⟨S3x8x115200, .f32⟩ : BufTy).Contents (Elt F))
abbrev op3 : HloOp τ sig (Elt F) := StableHlo.reshape main_v2 main_v3 rfl shapeCasts_S3x8x115200_S24x115200
abbrev opsA : List (HloOp τ sig (Elt F)) := [op0, op1, op2, op3]

/-- The launch valuation of device `d`, and the valuation after the four host operations. -/
def V0 (d : Dev nD) : Valuation τ sig (Elt F) := fun b => m (d, b)
def VA (d : Dev nD) : Valuation τ sig (Elt F) := StableHlo.after opsA (V0 m d)

/-- The transposed inputs, and the SparseCore call's result array as it finds it. -/
def X2 (d : Dev nD) : Buf (Elt F) (xLoc d) := VA m d (Proc.devRef .tc (main_v1 : Ref sig .tc))
def F2 (d : Dev nD) : Buf (Elt F) (fLoc d) := VA m d (Proc.devRef .tc (main_v3 : Ref sig .tc))
def O0 (d : Dev nD) : Buf (Elt F) (oLoc d) := VA m d (Proc.devRef .tc (main_v4 : Ref sig .tc))

abbrev PP : (K (F := F)).Pay (nD := nD) (Val := Elt F) (Name := ℕ) (U := UU) := P (X2 m) (F2 m) (O0 m)

/-! ## The pipeline's tables: none -/

abbrev adm : (p : Fin 1) → (pcfgs (F := F) p).Adm := fun p => (cfgs p).toPCfg_adm

/-! ## The TensorCore's buffers -/

/-- The TensorCore's unscoped buffers: @main's ten arrays. -/
abbrev UC : Finset (DevRef τ sig) := Pipeline.ucRefs τ sig

theorem hop0 : (op0 (F := F)).bufs ⊆ UC := Pipeline.sub_ucRefs _ (StableHlo.unary_bufs_sub ..)
theorem hop1 : (op1 (F := F)).bufs ⊆ UC := Pipeline.sub_ucRefs _ (StableHlo.reshape_bufs_sub ..)
theorem hop2 : (op2 (F := F)).bufs ⊆ UC := Pipeline.sub_ucRefs _ (StableHlo.unary_bufs_sub ..)
theorem hop3 : (op3 (F := F)).bufs ⊆ UC := Pipeline.sub_ucRefs _ (StableHlo.reshape_bufs_sub ..)

/-- What @main leaves the claim: the two inputs at their launch contents, the result at their sum. -/
def FIN (d : Dev nD) : sProp 𝕄 :=
  iprop((a0Loc d ↦{fullShare} m (a0Loc d)) ∗ (a1Loc d ↦{fullShare} m (a1Loc d))
    ∗ (rLoc d ↦{fullShare} (addf (m (a0Loc d)) (m (a1Loc d)) : Buf (Elt F) (rLoc d))))

/-! ### The SparseCore call's operands out of the held buffers and back -/

abbrev x' : DevRef τ sig := Proc.devRef .tc (main_v1 : Ref sig .tc)
abbrev f' : DevRef τ sig := Proc.devRef .tc (main_v3 : Ref sig .tc)
abbrev o' : DevRef τ sig := Proc.devRef .tc (main_v4 : Ref sig .tc)
abbrev T3 : Finset (DevRef τ sig) := {x', f', o'}

theorem mem_uc (b : Ref sig .tc) (h : ¬ (Proc.devRef .tc b : DevRef τ sig).isScoped) : Proc.devRef .tc b ∈ UC :=
  Finset.mem_filter.mpr ⟨StableHlo.devRef_mem_tcRefs b, h⟩

theorem hT3 : T3 ⊆ UC := by
  intro b hb
  simp only [T3, Finset.mem_insert, Finset.mem_singleton] at hb
  rcases hb with rfl | rfl | rfl
  · exact mem_uc main_v1 (by decide)
  · exact mem_uc main_v3 (by decide)
  · exact mem_uc main_v4 (by decide)

omit [FloatOps F] in
theorem held_T3 (d : Dev nD) (W : Valuation τ sig (Elt F)) :
    (held (SparseCore.T d) T3 W : sProp 𝕄) = iprop((xLoc d ↦{fullShare} W x') ∗ (fLoc d ↦{fullShare} W f') ∗ (oLoc d ↦{fullShare} W o')) := by
  unfold held T3
  rw [SparseCore.bigSep_insert' (by decide), SparseCore.bigSep_insert' (by decide), bigSep_singleton]

/-- The result array after the SparseCore call: rows 16..24 the two inputs' sum, rows 0..16 as before; and the
    valuation with it. -/
def G1 (d : Dev nD) : Buf (Elt F) (oLoc d) := band.piecewise (addf (X2 m d) (F2 m d)) (O0 m d)
def V1 (d : Dev nD) : Valuation τ sig (Elt F) := Function.update (VA m d) o' (G1 m d)

theorem V1_x (d : Dev nD) : V1 m d x' = X2 m d := Function.update_of_ne (show x' ≠ o' by decide) _ _
theorem V1_f (d : Dev nD) : V1 m d f' = F2 m d := Function.update_of_ne (show f' ≠ o' by decide) _ _
theorem V1_o (d : Dev nD) : V1 m d o' = G1 m d := Function.update_self _ _ _
theorem V1_rest (d : Dev nD) : ∀ b ∈ UC \ T3, V1 m d b = VA m d b := fun b hb =>
  Function.update_of_ne (fun e => (Finset.mem_sdiff.mp hb).2 (by rw [e]; simp [T3])) _ _

abbrev op4 : HloOp τ sig (Elt F) := StableHlo.unary main_v4 main_v5 id
theorem hop4 : (op4 (F := F)).bufs ⊆ UC := Pipeline.sub_ucRefs _ (StableHlo.unary_bufs_sub ..)
/-- The valuation the TensorCore kernel's region is entered from: the result array copied into the kernel's own. -/
def WR (d : Dev nD) : Valuation τ sig (Elt F) := (op4 (F := F)).result (V1 m d)

/-! ### The TensorCore kernel's region, as a segment of @main -/

/-- The region-entry contents read at the TensorCore's references. -/
abbrev VR (c : Dev nD) (b : Ref sig .tc) : Buf (Elt F) ((c.tc : Thread nD τ).loc b) := WR m c (Proc.devRef .tc b)

/-- The pipeline's proof data at the region-entry contents; `R` bounds the wait pairs recorded before the region. -/
def pdats (R : Set (SemLoc sig × HIx 1)) :
    (p : Fin 1) → (c : Dev nD) → Pipeline.Dat τ (Elt F) (HIx 1) ℕ UU ℕ (Pipeline.pin (pcfgs (F := F)) adm p) c
  | ⟨0, _⟩ => fun c => dat1 (VR m) R c

/-- The contents at the region's exit: its arrays at what the pipeline leaves, every other buffer as entered. -/
def WX (R : Set (SemLoc sig × HIx 1)) (c : Dev nD) : Valuation τ sig (Elt F) :=
  Pipeline.withArrays spec1 c (WR m c) fun w => (dat1 (VR m) R c).arrAt w cfg1.N

theorem WX_arr (R : Set (SemLoc sig × HIx 1)) (c : Dev nD) (w : Fin cfg1.W) :
    WX m R c (Proc.devRef .tc (Pipeline.arrRef spec1 w)) = (dat1 (VR m) R c).arrAt w cfg1.N := by
  unfold WX; exact Pipeline.withArrays_arr spec1 launch1.win.arr_inj c _ _ w
theorem WX_of_ne (R : Set (SemLoc sig × HIx 1)) (c : Dev nD) (b : Ref sig .tc) (hb : ∀ w, Pipeline.arrRef spec1 w ≠ b) :
    WX m R c (Proc.devRef .tc b) = WR m c (Proc.devRef .tc b) := by
  unfold WX; exact Pipeline.withArrays_of_ne spec1 c _ _ b hb

abbrev VX (R : Set (SemLoc sig × HIx 1)) (c : Dev nD) (b : Ref sig .tc) : Buf (Elt F) ((c.tc : Thread nD τ).loc b) := WX m R c (Proc.devRef .tc b)

theorem hF1 (R : Set (SemLoc sig × HIx 1)) (c : Dev nD) (w : Fin cfg1.W) :
    (dat1 (VR m) R c).arrAt w cfg1.N = VX m R c (Pipeline.arrRef spec1 w) := (WX_arr m R c w).symm
theorem hrest1 (R : Set (SemLoc sig × HIx 1)) (c : Dev nD) :
    ∀ b, b ∉ Finset.univ.image (Pipeline.arrRef spec1) → VX m R c b = VR m c b :=
  fun b hb => WX_of_ne m R c b fun w e => hb (Finset.mem_image.mpr ⟨w, Finset.mem_univ _, e⟩)

/-! ## The host operations after the region, and the contents at the return -/

abbrev op5 : HloOp τ sig (Elt F) := StableHlo.reshape main_v5 main_v6 rfl shapeCasts_S24x115200_S3x8x115200
abbrev op6 : HloOp τ sig (Elt F) := StableHlo.unary main_v6 main_v7 ((transpose S8x115200x3 [1, 2, 0] · transposes_S3x8x115200_S8x115200x3_1_2_0) : (⟨S3x8x115200, .f32⟩ : BufTy).Contents (Elt F) → (⟨S8x115200x3, .f32⟩ : BufTy).Contents (Elt F))
theorem hop5 : (op5 (F := F)).bufs ⊆ UC := Pipeline.sub_ucRefs _ (StableHlo.reshape_bufs_sub ..)
theorem hop6 : (op6 (F := F)).bufs ⊆ UC := Pipeline.sub_ucRefs _ (StableHlo.unary_bufs_sub ..)

/-- The contents when @main returns. -/
def WF (R : Set (SemLoc sig × HIx 1)) (d : Dev nD) : Valuation τ sig (Elt F) := StableHlo.after [op5, op6] (WX m R d)

end Cert.Proof.KB

end
-- ==== Proof.ValueB.lean ====
/-
  The value @main returns. The result array is the transpose back of the [24, 115200] array whose rows 0..16 the
  TensorCore kernel left at the transposed inputs' sum and whose rows 16..24 the SparseCore kernel did: the sum of the
  two transposed inputs everywhere, hence, transposed back, the two inputs' sum; the inputs are never written.
-/
import proofs.«202046_g2697239462394_cont_9to1_340_20_alg».proof.Proof.ValsB
import Idealize.ShloMosaic.Lib.Pipeline.Value
import Idealize.ShloMosaic.Lib.ValueIdx

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix3)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The inputs: no operation and no region writes them -/

/-- An array that no host operation of @main writes, that is not the SparseCore call's result and not an array of
    the TensorCore kernel's, holds at the return what it held at the launch. -/
theorem WF_of_untouched (R : Set (SemLoc sig × HIx 1)) (d : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) :
    WF m R d (Proc.devRef .tc b) = m (d, Proc.devRef .tc b) :=
  calc WF m R d (Proc.devRef .tc b)
    _ = WX m R d (Proc.devRef .tc b) := StableHlo.after_of_forall_not_mem (b := Proc.devRef .tc b) _ _ (List.forall_iff_forall_mem.mp (by
          simp only [List.Forall, StableHlo.unary_writes, StableHlo.reshape_writes, Finset.mem_singleton]
          exact ⟨StableHlo.devRef_ne_of_ne h6, StableHlo.devRef_ne_of_ne h7⟩))
    _ = WR m d (Proc.devRef .tc b) := WX_of_ne m R d b (fun w => by
          match w with
          | ⟨0, _⟩ => exact fun e => h1 e.symm
          | ⟨1, _⟩ => exact fun e => h3 e.symm
          | ⟨2, _⟩ => exact fun e => h5 e.symm)
    _ = V1 m d (Proc.devRef .tc b) := StableHlo.unary_result_ne _ _ _ _ _ _ h5
    _ = VA m d (Proc.devRef .tc b) := Function.update_of_ne (StableHlo.devRef_ne_of_ne h4) _ _
    _ = V0 m d (Proc.devRef .tc b) := StableHlo.after_of_forall_not_mem (b := Proc.devRef .tc b) _ _ (List.forall_iff_forall_mem.mp (by
          simp only [List.Forall, StableHlo.unary_writes, StableHlo.reshape_writes, Finset.mem_singleton]
          exact ⟨StableHlo.devRef_ne_of_ne h0, StableHlo.devRef_ne_of_ne h1, StableHlo.devRef_ne_of_ne h2, StableHlo.devRef_ne_of_ne h3⟩))
    _ = m (d, Proc.devRef .tc b) := rfl

/-- The inputs at the return are the launch's. -/
theorem WF_a0 (R : Set (SemLoc sig × HIx 1)) (d : Dev nD) : WF m R d (Proc.devRef .tc (main_arg0 : Ref sig .tc)) = m (a0Loc d) :=
  WF_of_untouched m R d main_arg0 (by decide) (by decide) (by decide) (by decide) (by decide) (by decide) (by decide) (by decide)
theorem WF_a1 (R : Set (SemLoc sig × HIx 1)) (d : Dev nD) : WF m R d (Proc.devRef .tc (main_arg1 : Ref sig .tc)) = m (a1Loc d) :=
  WF_of_untouched m R d main_arg1 (by decide) (by decide) (by decide) (by decide) (by decide) (by decide) (by decide) (by decide)

/-! ## The result -/

/-- The transposed inputs as terms of the launch memory. -/
theorem X2_eq (d : Dev nD) : X2 m d = shapeCast S24x115200 (transpose S3x8x115200 [2, 0, 1] (m (a0Loc d)) transposes_S8x115200x3_S3x8x115200_2_0_1) shapeCasts_S3x8x115200_S24x115200 := by
  unfold X2 VA
  after_results
  rfl
theorem F2_eq (d : Dev nD) : F2 m d = shapeCast S24x115200 (transpose S3x8x115200 [2, 0, 1] (m (a1Loc d)) transposes_S8x115200x3_S3x8x115200_2_0_1) shapeCasts_S3x8x115200_S24x115200 := by
  unfold F2 VA
  after_results
  rfl

/-- What the TensorCore kernel's region finds: the transposed inputs, and in its result array the SparseCore call's. -/
theorem VR_x (d : Dev nD) : VR m d main_v1 = X2 m d :=
  (StableHlo.unary_result_ne _ _ _ _ _ _ (by decide)).trans (V1_x m d)
theorem VR_f (d : Dev nD) : VR m d main_v3 = F2 m d :=
  (StableHlo.unary_result_ne _ _ _ _ _ _ (by decide)).trans (V1_f m d)
theorem VR_r (d : Dev nD) : VR m d main_v5 = G1 m d := by
  show (op4 (F := F)).result (V1 m d) (Proc.devRef .tc main_v5) = G1 m d
  rw [StableHlo.unary_result, id_eq, V1_o]

/-- After the region the kernel's result array is the transposed inputs' sum at every index: rows 0..16 by the
    TensorCore kernel, rows 16..24 as the region found them, where the SparseCore call had left the sum. -/
theorem WX_r (R : Set (SemLoc sig × HIx 1)) (d : Dev nD) :
    WX m R d (Proc.devRef .tc (main_v5 : Ref sig .tc)) = (addf (X2 m d) (F2 m d) : FVec F S24x115200 .f32) := by
  refine (WX_arr m R d (2 : Fin 3)).trans ?_
  rw [arrAt1_out (VR m) R d, VR_x, VR_f, VR_r]
  funext idx
  by_cases h : (idx 0).val < 16
  · rw [if_pos h]
  · rw [if_neg h]
    unfold G1
    exact Finset.piecewise_eq_of_mem _ _ _ ((mem_band idx).mpr (by omega))

/-- A lane-wise sum read through a reshape or a transpose is the sum of the two operands read through it. -/
theorem shapeCast_addf {s t : Shape} {φ : FTy} (x y : FVec F s φ) (h : s.ShapeCasts t) :
    shapeCast t (addf x y) h = addf (shapeCast t x h) (shapeCast t y h) := rfl
theorem transpose_addf {s t : Shape} {φ : FTy} (perm : List (Fin s.rank)) (x y : FVec F s φ) (h : s.Transposes perm t) :
    transpose t perm (addf x y) h = addf (transpose t perm x h) (transpose t perm y h) := rfl

/-- The transpose [1, 2, 0] undoes the transpose [2, 0, 1]. -/
theorem transpose_back {α : Type} (A : S8x115200x3.Idx → α) :
    transpose S8x115200x3 [1, 2, 0] (transpose S3x8x115200 [2, 0, 1] A transposes_S8x115200x3_S3x8x115200_2_0_1) transposes_S3x8x115200_S8x115200x3_1_2_0 = A := by
  funext j
  refine (transpose_apply _ _ transposes_S3x8x115200_S8x115200x3_1_2_0 j (ix3 (j 2) (j 0) (j 1)) (fun b => ?_)).trans ?_
  · match b with
    | ⟨0, _⟩ => rfl
    | ⟨1, _⟩ => rfl
    | ⟨2, _⟩ => rfl
  · exact transpose_apply _ _ transposes_S8x115200x3_S3x8x115200_2_0_1 _ j (fun b => by
      match b with
      | ⟨0, _⟩ => rfl
      | ⟨1, _⟩ => rfl
      | ⟨2, _⟩ => rfl)

/-- The result array at the return is the two inputs' sum. -/
theorem WF_res (R : Set (SemLoc sig × HIx 1)) (d : Dev nD) :
    WF m R d (Proc.devRef .tc (main_v7 : Ref sig .tc)) = (addf (m (a0Loc d)) (m (a1Loc d)) : Buf (Elt F) (rLoc d)) := by
  unfold WF
  after_results
  rw [WX_r, X2_eq, F2_eq]
  -- the sum passes through the reshape and the transpose; each input then makes the round trip
  show transpose S8x115200x3 [1, 2, 0]
      (shapeCast S3x8x115200
        (addf (shapeCast S24x115200 (transpose S3x8x115200 [2, 0, 1] (m (a0Loc d)) transposes_S8x115200x3_S3x8x115200_2_0_1) shapeCasts_S3x8x115200_S24x115200)
          (shapeCast S24x115200 (transpose S3x8x115200 [2, 0, 1] (m (a1Loc d)) transposes_S8x115200x3_S3x8x115200_2_0_1) shapeCasts_S3x8x115200_S24x115200))
        shapeCasts_S24x115200_S3x8x115200)
      transposes_S3x8x115200_S8x115200x3_1_2_0 = _
  rw [shapeCast_addf, shapeCast_shapeCast, shapeCast_shapeCast, transpose_addf, transpose_back, transpose_back]

end Cert.Proof.KB

end
-- ==== Proof.MainB.lean ====
/-
  @main on the TensorCore and the program's run. @main transposes and reshapes the two inputs to [24, 115200],
  starts the SparseCore call (rows 16..24), copies its result into the TensorCore kernel's result array, runs
  the TensorCore kernel over it (rows 0..16), and reshapes and transposes back: the result is the two inputs'
  sum, element by element.
-/
import proofs.«202046_g2697239462394_cont_9to1_340_20_alg».proof.Proof.ValsB
import proofs.«202046_g2697239462394_cont_9to1_340_20_alg».proof.Proof.ValueB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch deals the TensorCore for its pipeline: the staging cells' ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP' := (show (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP (F := F)) (initOf (Pipeline.cells (nD := nD) (τ := τ) cfgs cellOf_inj) (Pipeline.launchToks (nD := nD) (τ := τ) cfgs cellOf_inj))) from .rfl) $$ HP
  imod (Pipeline.fund_ghost cfgs (EP (F := F)) cellOf_inj) $$ HP' with ⟨Hg, Ht⟩
  imodintro
  isplitl [HH]; · iexact HH
  isplitl [Hg Ht]
  · unfold G
    rw [bigSep_sep']
    isplitl [Hg]
    · iapply (show (bigSep Finset.univ fun c : Dev nD => bigSep Finset.univ fun p : Fin 1 => Pipeline.cellsGhost (nD := nD) (τ := τ) cfgs (EP (F := F)) p c)
          ⊢ bigSep Finset.univ fun d : Dev nD => Pipeline.cellsGhost (Pipeline.pin (pcfgs (F := F)) adm) EP 0 d from
        Entails.of_eq (bigSep_congr fun d _ => bigSep_univ_of_subsingleton (0 : Fin 1)))
      iexact Hg
    · iapply (show (bigSep Finset.univ fun c : Dev nD => bigSep Finset.univ fun p : Fin 1 => (Pipeline.toksInit (nD := nD) (τ := τ) cfgs (EP (F := F)) p c : sProp 𝕄))
          ⊢ bigSep Finset.univ fun d : Dev nD => Pipeline.toksInit (Pipeline.pin (pcfgs (F := F)) adm) EP 0 d from
        Entails.of_eq (bigSep_congr fun d _ => bigSep_univ_of_subsingleton (0 : Fin 1)))
      iexact Ht
  · iapply (show (iprop(emp) : sProp 𝕄) ⊢ bigSep Finset.univ fun thr : Thread nD τ => bigSep Finset.univ fun q : Fin 1 => (PP m).x q thr from
      Entails.of_eq (show (bigSep Finset.univ fun _ : Thread nD τ => bigSep Finset.univ fun _ : Fin 1 => (iprop(emp) : sProp 𝕄)) = iprop(emp) from by
        rw [bigSep_congr fun _ _ => bigSep_emp' _, bigSep_emp']).symm)
    iempintro

/-! ## @main on the TensorCore -/

set_option backward.isDefEq.respectTransparency.types false in
/-- The region over the thread state "every unscoped buffer at the entry contents, nothing owed, the recorded wait
    pairs within `R`": its arrays split out of the buffers and put back at the exit contents. -/
def reg (R : Set (SemLoc sig × HIx 1)) :
    Pipeline.RegionSeg (pcfgs (F := F)) adm (pdats m R) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation1 (VR m) R c
  hwaits := Pipeline.hwaits_of_owed_zero _ _ _ _ (K (F := F)).L (K (F := F)).lev 0 fun _ _ => rfl
  pre c := iprop(held (c.tc : Thread nD τ) UC (WR m c) ∗ Pipeline.owesWithin c (0 : CellTallies nD τ sig (HIx 1)) R)
  post c := iprop(held (c.tc : Thread nD τ) UC (WX m R c)
    ∗ Pipeline.owesWithin c (0 : CellTallies nD τ sig (HIx 1)) (R ∪ cfg1.waitPairs (none : HIx 1)))
  X _ := iprop(emp)
  Y _ := iprop(emp)
  Z c := Pipeline.unscopedRest (Ix := HIx 1) (Name := ℕ) (U := UU) (Lvl := ℕ) spec1 c (VR m c)
  hentry c := by
    rw [Pipeline.ownSems0_none]
    have hsplit := Pipeline.arrays_of_unscopedBufs (p := 0) (pcfgs (F := F)) adm (pdats m R) launch1.win launch1.arr_whole c
      ((pdats m R 0 c).share_full fun _ => rfl) (VR m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left)) $$ HO
    isplitr; · iempintro
    iexact Hrest
  hin c := by
    rw [show (pdats m R 0 c).Φ 0 = iprop(emp) from rfl]
    iintro -; iempintro
  hout c := by
    rw [Pipeline.ownSems0_none, show (pdats m R 0 c).Φ (Fin.last _) = iprop(emp) from rfl, scopedRest1_eq]
    iintro -
    isplitr; · iempintro
    isplitr <;> iempintro
  hexit c := by
    have hjoin := Pipeline.unscopedBufs_of_arrays (p := 0) (pcfgs (F := F)) adm (Ix := HIx 1) (Name := ℕ) (U := UU) (Lvl := ℕ)
      launch1.win launch1.arr_whole c (pdats m R) ((pdats m R 0 c).share_full fun _ => rfl)
      (VR m c) (VX m R c) ((pdats m R 0 c).arrAt · cfg1.N) (hF1 m R c) (hrest1 m R c)
    rw [Pipeline.unscopedBufs_held] at hjoin
    iintro ⟨Ha, HO, -, Hrest⟩
    imodintro
    isplitl [Ha Hrest]
    · iapply hjoin; isplitl [Ha] <;> iassumption
    iexact HO

set_option maxHeartbeats 1600000 in
set_option backward.isDefEq.respectTransparency.types false in
/-- The region entered from @main on the SparseCore program's TensorCore thread: the pipeline library's region rule,
    lifted to the program's extended body table. -/
theorem region_step (d : Dev nD) (W0 : Waits sig (HIx 1)) (Φ : PUnit → sProp 𝕄) :
    iprop(levAts (K (F := F)).L (K (F := F)).lev ∗ G (F := F) d ∗ boundary (SparseCore.T d) ∗ held (SparseCore.T d) UC (WR m d)
        ∗ owes (SparseCore.T d) (0 : CellTallies nD τ sig (HIx 1)) W0
        ∗ (iprop(boundary (SparseCore.T d) ∗ held (SparseCore.T d) UC (WX m (↑W0 : Set (SemLoc sig × HIx 1)) d)
            ∗ Pipeline.owesWithin d (0 : CellTallies nD τ sig (HIx 1)) ((↑W0 : Set (SemLoc sig × HIx 1)) ∪ cfg1.waitPairs (none : HIx 1))) -∗ Φ ⟨⟩))
      ⊢ wp frame (wpE ((K (F := F)).defs (D (F := F))) 𝒱 (SparseCore.T d) none) Set.univ
          (Prog.lift (.customCall (SparseCore.inner (Pipeline.entry 0)) ())) Φ := by
  iintro ⟨Hlev, HG, Hb, Hheld, HO, Hk⟩
  unfold G
  icases HG with ⟨Hg, Ht⟩
  iapply ((K (F := F)).wp_liftProg (D (F := F)) 𝒱 (SparseCore.T d) Set.univ none
    (.op (.customCall (Pipeline.entry 0) ()) .ret) Φ)
  iapply (Pipeline.RegionSeg.wp (pcfgs (F := F)) adm (pdats m (↑W0 : Set (SemLoc sig × HIx 1))) (none : HIx 1) cellOf_inj (EP (F := F)) defs₀ 𝒱₀
    (K (F := F)).L (K (F := F)).lev (reg m (↑W0 : Set (SemLoc sig × HIx 1))) d none (fun u hu => nomatch hu) (fun _ => .ret ⟨⟩) Φ) $$ [Hb Hheld HO Hlev Hg Ht Hk]
  isplitl [Hk]
  · iintro ⟨Hb, Hpost⟩
    ihave Hpost := (show ((reg m (↑W0 : Set (SemLoc sig × HIx 1))).post d : sProp 𝕄)
        ⊢ iprop(held (SparseCore.T d) UC (WX m (↑W0 : Set (SemLoc sig × HIx 1)) d)
          ∗ Pipeline.owesWithin d (0 : CellTallies nD τ sig (HIx 1)) ((↑W0 : Set (SemLoc sig × HIx 1)) ∪ cfg1.waitPairs (none : HIx 1))) from .rfl) $$ Hpost
    icases Hpost with ⟨Hheld, HO⟩
    rw [wp_ret]; imodintro
    iapply Hk
    isplitl [Hb]; · iexact Hb
    isplitl [Hheld]; · iexact Hheld
    iexact HO
  isplitl [Hb]; · iexact Hb
  isplitl [Hheld HO]
  · iapply (show iprop(held (SparseCore.T d) UC (WR m d) ∗ Pipeline.owesWithin d (0 : CellTallies nD τ sig (HIx 1)) (↑W0 : Set (SemLoc sig × HIx 1)))
        ⊢ ((reg m (↑W0 : Set (SemLoc sig × HIx 1))).pre d : sProp 𝕄) from .rfl)
    isplitl [Hheld]; · iexact Hheld
    iexists W0; isplitr; · ipureintro; exact subset_rfl
    iexact HO
  isplitl [Hlev]; · iexact Hlev
  isplitl [Hg]; · iexact Hg
  iexact Ht

theorem st_eq (d : Dev nD) :
    (bigSep Finset.univ fun c : Fin ((K (F := F)).nCore 0) => (PP m).st 0 d c) = bigSep Finset.univ (piece (X2 m) (F2 m) d (O0 m d)) := by
  rw [bigSep_chunks]; rfl
theorem dn_eq (d : Dev nD) :
    (bigSep Finset.univ fun c : Fin ((K (F := F)).nCore 0) => (PP m).dn 0 d c)
      = bigSep Finset.univ (piece (X2 m) (F2 m) d (addf (X2 m d) (F2 m d))) := by
  rw [bigSep_chunks]; rfl

abbrev a0' : DevRef τ sig := Proc.devRef .tc (main_arg0 : Ref sig .tc)
abbrev a1' : DevRef τ sig := Proc.devRef .tc (main_arg1 : Ref sig .tc)
abbrev r' : DevRef τ sig := Proc.devRef .tc (main_v7 : Ref sig .tc)
abbrev TF : Finset (DevRef τ sig) := {a0', a1', r'}

theorem hTF : TF ⊆ UC := by
  intro b hb
  simp only [TF, Finset.mem_insert, Finset.mem_singleton] at hb
  rcases hb with rfl | rfl | rfl
  · exact mem_uc main_arg0 (by decide)
  · exact mem_uc main_arg1 (by decide)
  · exact mem_uc main_v7 (by decide)

omit [FloatOps F] in
theorem held_TF (d : Dev nD) (W : Valuation τ sig (Elt F)) :
    (held (SparseCore.T d) TF W : sProp 𝕄) = iprop((a0Loc d ↦{fullShare} W a0') ∗ (a1Loc d ↦{fullShare} W a1') ∗ (rLoc d ↦{fullShare} W r')) := by
  unfold held TF
  rw [SparseCore.bigSep_insert' (by decide), SparseCore.bigSep_insert' (by decide), bigSep_singleton]

set_option maxHeartbeats 1600000 in
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) UC (V0 m d) from
    Pipeline.unscopedBufs_held d (V0 m d)]
  simp only [main, wp_bind, wp_pure]
  iintro ⟨#Hctx, Hst, ⟨Hb, Hheld, -, -⟩, HG⟩
  -- the two inputs transposed and reshaped to [24, 115200]
  iapply (wp_hlo_within 𝒱 (SparseCore.T d) none Set.univ (op := op0) (S := UC) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := UC) hop1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := UC) hop2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := UC) hop3 (V := (op2 (F := F)).result ((op1 (F := F)).result ((op0 (F := F)).result (V0 m d))))) $$ [Hb Hheld]
  · isplitl [Hb] <;> iassumption
  iintro ⟨Hb, Hheld⟩
  rw [wp_ret]; imodintro
  ihave Hheld := (show (held (SparseCore.T d) UC ((op3 (F := F)).result ((op2 (F := F)).result ((op1 (F := F)).result ((op0 (F := F)).result (V0 m d))))) : sProp 𝕄)
      ⊢ held (SparseCore.T d) UC (VA m d) from .rfl) $$ Hheld
  -- the SparseCore call: the three [24, 115200] arrays cut into chunks, dealt out, and put back
  ihave Hh := (Entails.of_eq (StableHlo.held_sub_split (SparseCore.T d) hT3 (VA m d))) $$ Hheld
  icases Hh with ⟨H3, Hrest⟩
  ihave H3 := (show (held (SparseCore.T d) T3 (VA m d) : sProp 𝕄)
      ⊢ iprop((xLoc d ↦{fullShare} X2 m d) ∗ (fLoc d ↦{fullShare} F2 m d) ∗ (oLoc d ↦{fullShare} O0 m d)) from
    Entails.of_eq (held_T3 (F := F) d (VA m d))) $$ H3
  icases H3 with ⟨Hx, Hf, Ho⟩
  ihave Hx := (Entails.of_eq (x_split (F := F) d (X2 m d))) $$ Hx
  icases Hx with ⟨Hxc, Hxr⟩
  ihave Hf := (Entails.of_eq (f_split (F := F) d (F2 m d))) $$ Hf
  icases Hf with ⟨Hfc, Hfr⟩
  ihave Ho := (Entails.of_eq (o_split (F := F) d (O0 m d))) $$ Ho
  icases Ho with ⟨Hoc, Hor⟩
  iapply ((K (F := F)).wp_run (D (F := F)) 𝒱 (EH := EH) (P := PP m) κ d 0) $$ [Hst Hxc Hfc Hoc Hb Hrest Hxr Hfr Hor HG]
  isplitr; · iexact Hctx
  isplitl [Hst]; · iexact Hst
  isplitl [Hxc Hfc Hoc]
  · rw [st_eq, pieces_eq]
    isplitl [Hxc]; · iexact Hxc
    isplitl [Hfc]; · iexact Hfc
    iexact Hoc
  iintro ⟨Hst, Hdn⟩
  ihave Hdn := (Entails.of_eq ((dn_eq m d).trans (pieces_eq d (X2 m) (F2 m) _))) $$ Hdn
  icases Hdn with ⟨Hxc, Hfc, Hoc⟩
  ihave Hx := (Entails.of_eq (x_split (F := F) d (X2 m d)).symm) $$ [Hxc Hxr]
  · isplitl [Hxc] <;> iassumption
  ihave Hf := (Entails.of_eq (f_split (F := F) d (F2 m d)).symm) $$ [Hfc Hfr]
  · isplitl [Hfc] <;> iassumption
  ihave Ho := (o_join (F := F) d (addf (X2 m d) (F2 m d)) (O0 m d)) $$ [Hoc Hor]
  · isplitl [Hoc] <;> iassumption
  -- the buffers held again, the result array at what the call left
  ihave Hheld := (Entails.of_eq (StableHlo.held_sub_split (SparseCore.T d) hT3 (V1 m d)).symm) $$ [Hx Hf Ho Hrest]
  · isplitl [Hx Hf Ho]
    · rw [held_T3, V1_x, V1_f, V1_o]
      isplitl [Hx]; · iexact Hx
      isplitl [Hf]; · iexact Hf
      iexact Ho
    · rw [StableHlo.held_congr (SparseCore.T d) (V1_rest m d)]; iexact Hrest
  -- the call's result copied into the TensorCore kernel's result array
  iapply (wp_hlo_within 𝒱 (SparseCore.T d) none Set.univ (op := op4) (S := UC) hop4 (V := V1 m d)) $$ [Hb Hheld]
  · isplitl [Hb] <;> iassumption
  iintro ⟨Hb, Hheld⟩
  rw [wp_ret]; imodintro
  ihave Hheld := (show (held (SparseCore.T d) UC ((op4 (F := F)).result (V1 m d)) : sProp 𝕄) ⊢ held (SparseCore.T d) UC (WR m d) from .rfl) $$ Hheld
  -- the TensorCore kernel's region: what the core owes (nothing, after the one call) goes through it
  unfold SparseCore.Cfg.tcSt
  icases Hst with ⟨⟨%W0, %hW0, HO⟩, Hat, Hrd, Hrs, Htoks⟩
  ihave Hlev := (SparseCore.Cfg.ctx_levAts κ) $$ Hctx
  rw [(K (F := F)).Otc_end d (le_refl 1)]
  iapply (region_step m d W0 _) $$ [Hlev HG Hb Hheld HO Hat Hrd Hrs Htoks]
  isplitl [Hlev]; · iexact Hlev
  isplitl [HG]; · iexact HG
  isplitl [Hb]; · iexact Hb
  isplitl [Hheld]; · iexact Hheld
  isplitl [HO]; · iexact HO
  iintro ⟨Hb, Hheld, HO⟩
  -- the result reshaped and transposed back
  iapply (wp_hlo_within 𝒱 (SparseCore.T d) none Set.univ (op := op5) (S := UC) hop5 (V := WX m (↑W0 : Set (SemLoc sig × HIx 1)) d)) $$ [Hb Hheld]
  · isplitl [Hb] <;> iassumption
  iintro ⟨Hb, Hheld⟩
  rw [wp_ret]; imodintro
  iapply (wp_hlo_within 𝒱 (SparseCore.T d) none Set.univ (op := op6) (S := UC) hop6 (V := (op5 (F := F)).result (WX m (↑W0 : Set (SemLoc sig × HIx 1)) d))) $$ [Hb Hheld]
  · isplitl [Hb] <;> iassumption
  iintro ⟨Hb, Hheld⟩
  rw [wp_ret]; imodintro; imodintro
  ihave Hheld := (show (held (SparseCore.T d) UC ((op6 (F := F)).result ((op5 (F := F)).result (WX m (↑W0 : Set (SemLoc sig × HIx 1)) d))) : sProp 𝕄)
      ⊢ held (SparseCore.T d) UC (WF m (↑W0 : Set (SemLoc sig × HIx 1)) d) from .rfl) $$ Hheld
  isplitl [HO Hat Hrd Hrs Htoks]
  · isplitl [HO]
    · icases HO with ⟨%W', %hW', HO⟩
      iexists W'; isplitr
      · ipureintro
        intro p hp
        rcases hW' (Finset.mem_coe.mpr hp) with h | ⟨w, s, rfl⟩
        · exact hW0 p (Finset.mem_coe.mp h)
        · exact Nat.zero_le _
      · iexact HO
    isplitl [Hat]; · iexact Hat
    isplitl [Hrd]; · iexact Hrd
    isplitl [Hrs]; · iexact Hrs
    iexact Htoks
  · ihave Hh := (Entails.of_eq (StableHlo.held_sub_split (SparseCore.T d) hTF (WF m (↑W0 : Set (SemLoc sig × HIx 1)) d))) $$ Hheld
    icases Hh with ⟨H3, -⟩
    unfold FIN
    iapply (Entails.of_eq (show (held (SparseCore.T d) TF (WF m (↑W0 : Set (SemLoc sig × HIx 1)) d) : sProp 𝕄)
        = iprop((a0Loc d ↦{fullShare} m (a0Loc d)) ∗ (a1Loc d ↦{fullShare} m (a1Loc d))
          ∗ (rLoc d ↦{fullShare} (addf (m (a0Loc d)) (m (a1Loc d)) : Buf (Elt F) (rLoc d)))) from by
      rw [held_TF, WF_a0, WF_a1, WF_res]))
    iexact H3

def fq (d : Dev nD) (s' : Phys nD τ sig (Elt F)) : Prop :=
  s'.mem.mem (rLoc d) = (addf (m (a0Loc d)) (m (a1Loc d)) : Buf (Elt F) (rLoc d))
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  unfold FIN
  iintro ⟨⟨H0, H1, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := (addf (m (a0Loc d)) (m (a1Loc d)) : Buf (Elt F) (rLoc d)))) $$ [HSI Hr]
  · isplitl [HSI] <;> iassumption
  icases H with %hr
  ipureintro
  exact ⟨funext fun i => hr i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (rLoc c) = (addf (m (a0Loc c)) (m (a1Loc c)) : Buf (Elt F) (rLoc c))
    ∧ r.2.mem (a0Loc c) = m (a0Loc c) ∧ r.2.mem (a1Loc c) = m (a1Loc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (X2 m) (F2 m) (O0 m) facts)
    (fun q _ => match q with | 0 => SparseCore.Cfg.VecSplit.of_plain (vecSplit (X2 m) (F2 m) (O0 m)))
    m ρ main (G (F := F)) (FIN m) (u₀ (F := F)) (sep_elim_left.trans (hu₀ m)) (hmain m ρ) (fq m) (hfin m) (QC m) (fun _ h => h)

end Cert.Proof.KB

end
-- ==== Proof.lean ====
/-
  The five claims. The kernel's program and the reference both end with the result array holding the two inputs'
  sum, element by element: the reference by one host addition; the kernel by transposing the inputs to
  [24, 115200], adding rows 16..24 on the SparseCore's vector subcores and rows 0..16 on the TensorCore, and
  transposing back. Addition of extended reals is the same function on both sides, so no finiteness is used.
-/
import proofs.«202046_g2697239462394_cont_9to1_340_20_alg».proof.Defs
import proofs.«202046_g2697239462394_cont_9to1_340_20_alg».proof.Proof.Gen.Kernel
import proofs.«202046_g2697239462394_cont_9to1_340_20_alg».proof.Proof.Gen.KernelIdeal
import proofs.«202046_g2697239462394_cont_9to1_340_20_alg».proof.Proof.Gen.ReferenceIdeal
import proofs.«202046_g2697239462394_cont_9to1_340_20_alg».proof.Proof.Gen.Pre_finite_inputs
import proofs.«202046_g2697239462394_cont_9to1_340_20_alg».proof.Proof.Gen.ReferenceIdeal.Run
import proofs.«202046_g2697239462394_cont_9to1_340_20_alg».proof.Proof.Main
import proofs.«202046_g2697239462394_cont_9to1_340_20_alg».proof.Proof.MainB
import Idealize.ShloMosaic.Adequacy
import Idealize.ShloMosaic.Init

noncomputable section

namespace Cert.Proof

open Idealize.ShloMosaic Idealize.SL.Sem

theorem frame_p : @Cert.frame_Kernel Cert.Kernel.Gen.facts Cert.Pre_finite_inputs.Gen.facts := fun m ρ _ =>
  (θ_run Cert.Kernel.defs _ _).mono (fun _ h c => ⟨(h c).2.1, (h c).2.2⟩) (KB.run_main (F := Bits) m ρ)

theorem frame_pi : @Cert.frame_KernelIdeal Cert.KernelIdeal.Gen.facts Cert.Pre_finite_inputs.Gen.facts := fun m ρ _ =>
  (θ_run Cert.KernelIdeal.defs _ _).mono (fun _ h c => ⟨(h c).2.1, (h c).2.2⟩) (KI.run_main (F := Ideal) m ρ)

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end at the inputs' sum: the kernel's run and the reference's generated run, from arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, KI.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
